-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v74) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x2x2000000 : Shape := ⟨3, ![5, 2, 2000000]⟩
abbrev S5x2000000 : Shape := ⟨2, ![5, 2000000]⟩
abbrev S2x5 : Shape := ⟨2, ![2, 5]⟩
abbrev S_ : Shape := ⟨0, ![]⟩

class Facts : Prop where
  bcast_S_S5x2000000 : S_.BroadcastsInDim S5x2000000 (![] : Fin 0 → Fin S5x2000000.rank)
  reducesTo_S5x2000000_S_d0_1 : S5x2000000.ReducesTo [0, 1] S_
  h_S_ : 0 < S_.numel
  bcast_S_S2x5 : S_.BroadcastsInDim S2x5 (![] : Fin 0 → Fin S2x5.rank)
  reducesTo_S2x5_S_d0_1 : S2x5.ReducesTo [0, 1] S_

variable [Facts]

def fn {F : FTy → Type} [FloatOps F] (main_arg0 : IVec S5x2x2000000 32) (main_arg1 : FVec F S5x2000000 .f32) (main_arg2 : FVec F S2x5 .f32) : IVec S_ 1 :=
  let main_v0 : FVec F S5x2000000 .f32 := Host.absf main_arg1
  let main_cst : FVec F S_ .f32 := constant S_ .f32 0x7F800000#32
  let main_v1 : FVec F S5x2000000 .f32 := broadcastInDim S5x2000000 ![] bcast_S_S5x2000000 main_cst
  let main_v2 : IVec S5x2000000 1 := cmpf .olt main_v0 main_v1
  let main_c : IVec S_ 1 := constantI S_ 1 1#1
  let main_v3 : IVec S_ 1 := (fun x v => Host.reduce IntOp.andi x v reducesTo_S5x2000000_S_d0_1 h_S_) main_v2 main_c
  let main_v4 : FVec F S2x5 .f32 := Host.absf main_arg2
  let main_cst_0 : FVec F S_ .f32 := constant S_ .f32 0x7F800000#32
  let main_v5 : FVec F S2x5 .f32 := broadcastInDim S2x5 ![] bcast_S_S2x5 main_cst_0
  let main_v6 : IVec S2x5 1 := cmpf .olt main_v4 main_v5
  let main_c_1 : IVec S_ 1 := constantI S_ 1 1#1
  let main_v7 : IVec S_ 1 := (fun x v => Host.reduce IntOp.andi x v reducesTo_S2x5_S_d0_1 h_S_) main_v6 main_c_1
  let main_v8 : IVec S_ 1 := andi main_v3 main_v7
  main_v8
-- ==== Kernel.lean ====
abbrev S5x2x2000000 : Shape := ⟨3, ![5, 2, 2000000]⟩
abbrev S5x2000000 : Shape := ⟨2, ![5, 2000000]⟩
abbrev S2x5 : Shape := ⟨2, ![2, 5]⟩
abbrev S_ : Shape := ⟨0, ![]⟩
abbrev S2 : Shape := ⟨1, ![2]⟩
abbrev S2x1 : Shape := ⟨2, ![2, 1]⟩
abbrev S5x1x2000000 : Shape := ⟨3, ![5, 1, 2000000]⟩
abbrev S10000000 : Shape := ⟨1, ![10000000]⟩
abbrev S2x5x2000000 : Shape := ⟨3, ![2, 5, 2000000]⟩
abbrev S5x80000 : Shape := ⟨2, ![5, 80000]⟩
abbrev S2x5x80000 : Shape := ⟨3, ![2, 5, 80000]⟩
abbrev S1x5x80000 : Shape := ⟨3, ![1, 5, 80000]⟩
abbrev S2x5x1 : Shape := ⟨3, ![2, 5, 1]⟩
abbrev S2x10000000 : Shape := ⟨2, ![2, 10000000]⟩
abbrev S10000000x1 : Shape := ⟨2, ![10000000, 1]⟩
abbrev S1 : Shape := ⟨1, ![1]⟩
abbrev S9999999 : Shape := ⟨1, ![9999999]⟩
abbrev S10000000x2 : Shape := ⟨2, ![10000000, 2]⟩

abbrev nBuf : Space → Nat
  | .hbm => 101
  | .vmem => 5
  | .smem => 0
  | _ => 0

abbrev bufTy : (tb : Table) → Fin (tcTables nBuf tb) → BufTy
  | .hbm, ⟨0, _⟩ => ⟨S5x2x2000000, .i32⟩
  | .hbm, ⟨1, _⟩ => ⟨S5x2000000, .f32⟩
  | .hbm, ⟨2, _⟩ => ⟨S2x5, .f32⟩
  | .hbm, ⟨3, _⟩ => ⟨S_, .f32⟩
  | .hbm, ⟨4, _⟩ => ⟨S2, .f32⟩
  | .hbm, ⟨5, _⟩ => ⟨S_, .f32⟩
  | .hbm, ⟨6, _⟩ => ⟨S2, .f32⟩
  | .hbm, ⟨7, _⟩ => ⟨S2, .f32⟩
  | .hbm, ⟨8, _⟩ => ⟨S2x1, .f32⟩
  | .hbm, ⟨9, _⟩ => ⟨S2x5, .f32⟩
  | .hbm, ⟨10, _⟩ => ⟨S2x5, .f32⟩
  | .hbm, ⟨11, _⟩ => ⟨S2x5, .f32⟩
  | .hbm, ⟨12, _⟩ => ⟨S_, .f32⟩
  | .hbm, ⟨13, _⟩ => ⟨S2, .f32⟩
  | .hbm, ⟨14, _⟩ => ⟨S2x1, .f32⟩
  | .hbm, ⟨15, _⟩ => ⟨S2x5, .f32⟩
  | .hbm, ⟨16, _⟩ => ⟨S2x5, .f32⟩
  | .hbm, ⟨17, _⟩ => ⟨S5x1x2000000, .i32⟩
  | .hbm, ⟨18, _⟩ => ⟨S5x2000000, .i32⟩
  | .hbm, ⟨19, _⟩ => ⟨S10000000, .i32⟩
  | .hbm, ⟨20, _⟩ => ⟨S5x1x2000000, .i32⟩
  | .hbm, ⟨21, _⟩ => ⟨S5x2000000, .i32⟩
  | .hbm, ⟨22, _⟩ => ⟨S10000000, .i32⟩
  | .hbm, ⟨23, _⟩ => ⟨S2x5x2000000, .f32⟩
  | .hbm, ⟨24, _⟩ => ⟨S2x10000000, .f32⟩
  | .hbm, ⟨25, _⟩ => ⟨S10000000, .i32⟩
  | .hbm, ⟨26, _⟩ => ⟨S10000000, .i32⟩
  | .hbm, ⟨27, _⟩ => ⟨S10000000, .i32⟩
  | .hbm, ⟨28, _⟩ => ⟨S10000000, .i32⟩
  | .hbm, ⟨29, _⟩ => ⟨S_, .i32⟩
  | .hbm, ⟨30, _⟩ => ⟨S10000000, .i32⟩
  | .hbm, ⟨31, _⟩ => ⟨S10000000, .i1⟩
  | .hbm, ⟨32, _⟩ => ⟨S_, .i32⟩
  | .hbm, ⟨33, _⟩ => ⟨S10000000, .i32⟩
  | .hbm, ⟨34, _⟩ => ⟨S10000000, .i32⟩
  | .hbm, ⟨35, _⟩ => ⟨S10000000, .i32⟩
  | .hbm, ⟨36, _⟩ => ⟨S10000000x1, .i32⟩
  | .hbm, ⟨37, _⟩ => ⟨S10000000, .i32⟩
  | .hbm, ⟨38, _⟩ => ⟨S_, .i32⟩
  | .hbm, ⟨39, _⟩ => ⟨S10000000, .i32⟩
  | .hbm, ⟨40, _⟩ => ⟨S10000000, .i1⟩
  | .hbm, ⟨41, _⟩ => ⟨S_, .i32⟩
  | .hbm, ⟨42, _⟩ => ⟨S10000000, .i32⟩
  | .hbm, ⟨43, _⟩ => ⟨S10000000, .i32⟩
  | .hbm, ⟨44, _⟩ => ⟨S10000000, .i32⟩
  | .hbm, ⟨45, _⟩ => ⟨S10000000x1, .i32⟩
  | .hbm, ⟨46, _⟩ => ⟨S10000000, .i32⟩
  | .hbm, ⟨47, _⟩ => ⟨S_, .i32⟩
  | .hbm, ⟨48, _⟩ => ⟨S10000000, .i32⟩
  | .hbm, ⟨49, _⟩ => ⟨S10000000, .i1⟩
  | .hbm, ⟨50, _⟩ => ⟨S_, .i32⟩
  | .hbm, ⟨51, _⟩ => ⟨S10000000, .i32⟩
  | .hbm, ⟨52, _⟩ => ⟨S10000000, .i32⟩
  | .hbm, ⟨53, _⟩ => ⟨S10000000, .i32⟩
  | .hbm, ⟨54, _⟩ => ⟨S10000000x1, .i32⟩
  | .hbm, ⟨55, _⟩ => ⟨S2x10000000, .f32⟩
  | .hbm, ⟨56, _⟩ => ⟨S_, .i1⟩
  | .hbm, ⟨57, _⟩ => ⟨S1, .i1⟩
  | .hbm, ⟨58, _⟩ => ⟨S9999999, .i32⟩
  | .hbm, ⟨59, _⟩ => ⟨S9999999, .i32⟩
  | .hbm, ⟨60, _⟩ => ⟨S9999999, .i1⟩
  | .hbm, ⟨61, _⟩ => ⟨S9999999, .i32⟩
  | .hbm, ⟨62, _⟩ => ⟨S9999999, .i32⟩
  | .hbm, ⟨63, _⟩ => ⟨S9999999, .i1⟩
  | .hbm, ⟨64, _⟩ => ⟨S9999999, .i1⟩
  | .hbm, ⟨65, _⟩ => ⟨S10000000, .i1⟩
  | .hbm, ⟨66, _⟩ => ⟨S10000000, .i32⟩
  | .hbm, ⟨67, _⟩ => ⟨S_, .i32⟩
  | .hbm, ⟨68, _⟩ => ⟨S_, .i32⟩
  | .hbm, ⟨69, _⟩ => ⟨S10000000, .i32⟩
  | .hbm, ⟨70, _⟩ => ⟨S_, .i32⟩
  | .hbm, ⟨71, _⟩ => ⟨S10000000, .i32⟩
  | .hbm, ⟨72, _⟩ => ⟨S10000000, .i32⟩
  | .hbm, ⟨73, _⟩ => ⟨S10000000x2, .f32⟩
  | .hbm, ⟨74, _⟩ => ⟨S_, .f32⟩
  | .hbm, ⟨75, _⟩ => ⟨S10000000x2, .f32⟩
  | .hbm, ⟨76, _⟩ => ⟨S10000000x1, .i32⟩
  | .hbm, ⟨77, _⟩ => ⟨S10000000x2, .f32⟩
  | .hbm, ⟨78, _⟩ => ⟨S_, .i32⟩
  | .hbm, ⟨79, _⟩ => ⟨S10000000, .i32⟩
  | .hbm, ⟨80, _⟩ => ⟨S_, .i32⟩
  | .hbm, ⟨81, _⟩ => ⟨S10000000, .i32⟩
  | .hbm, ⟨82, _⟩ => ⟨S10000000, .i1⟩
  | .hbm, ⟨83, _⟩ => ⟨S_, .i32⟩
  | .hbm, ⟨84, _⟩ => ⟨S10000000, .i32⟩
  | .hbm, ⟨85, _⟩ => ⟨S10000000, .i32⟩
  | .hbm, ⟨86, _⟩ => ⟨S10000000, .i32⟩
  | .hbm, ⟨87, _⟩ => ⟨S10000000x1, .i32⟩
  | .hbm, ⟨88, _⟩ => ⟨S10000000, .i32⟩
  | .hbm, ⟨89, _⟩ => ⟨S_, .i32⟩
  | .hbm, ⟨90, _⟩ => ⟨S10000000, .i32⟩
  | .hbm, ⟨91, _⟩ => ⟨S_, .i32⟩
  | .hbm, ⟨92, _⟩ => ⟨S10000000, .i32⟩
  | .hbm, ⟨93, _⟩ => ⟨S10000000, .i1⟩
  | .hbm, ⟨94, _⟩ => ⟨S_, .i32⟩
  | .hbm, ⟨95, _⟩ => ⟨S10000000, .i32⟩
  | .hbm, ⟨96, _⟩ => ⟨S10000000, .i32⟩
  | .hbm, ⟨97, _⟩ => ⟨S10000000, .i32⟩
  | .hbm, ⟨98, _⟩ => ⟨S10000000x1, .i32⟩
  | .hbm, ⟨99, _⟩ => ⟨S10000000, .i32⟩
  | .hbm, ⟨100, _⟩ => ⟨S2x10000000, .f32⟩
  | .local _ .vmem, ⟨0, _⟩ => ⟨S2x5, .f32⟩
  | .local _ .vmem, ⟨1, _⟩ => ⟨S5x80000, .f32⟩
  | .local _ .vmem, ⟨2, _⟩ => ⟨S5x80000, .f32⟩
  | .local _ .vmem, ⟨3, _⟩ => ⟨S2x5x80000, .f32⟩
  | .local _ .vmem, ⟨4, _⟩ => ⟨S2x5x80000, .f32⟩
  | _, _ => ⟨S5x2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1_0 : Ref sig .tc := ⟨.hbm, 26, rfl⟩
abbrev main_call0_v1_1 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call1_call0_c : Ref sig .tc := ⟨.hbm, 67, rfl⟩
abbrev main_call1_call0_v0 : Ref sig .tc := ⟨.hbm, 68, rfl⟩
abbrev main_v51 : Ref sig .tc := ⟨.hbm, 69, rfl⟩
abbrev main_c_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x5x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S2x5_S2_d1 : S2x5.ReducesTo [1] S2
  h_S_ : 0 < S_.numel
  bcast_S_S2 : S_.BroadcastsInDim S2 (![] : Fin 0 → Fin S2.rank)
  bcast_S2_S2x1_0 : S2.BroadcastsInDim S2x1 (![0] : Fin 1 → Fin S2x1.rank)
  bcast_S2x1_S2x5_0_1 : S2x1.BroadcastsInDim S2x5 (![0, 1] : Fin 2 → Fin S2x5.rank)
  slices_S5x2x2000000_S5x1x2000000_0_0_0 : S5x2x2000000.Slices ![0, 0, 0] S5x1x2000000
  shapeCasts_S5x1x2000000_S5x2000000 : S5x1x2000000.ShapeCasts S5x2000000
  shapeCasts_S5x2000000_S10000000 : S5x2000000.ShapeCasts S10000000
  slices_S5x2x2000000_S5x1x2000000_0_1_0 : S5x2x2000000.Slices ![0, 1, 0] S5x1x2000000
  inb_S2x5_S2x5_0_0 : ∀ a, (![0, 0] : Fin 2 → Nat) a + S2x5.size a ≤ S2x5.size a
  h_S2x5 : 0 < S2x5.numel
  shapeCasts_S2x5_S2x5 : S2x5.ShapeCasts S2x5
  inb_S5x80000_S5x80000_0_0 : ∀ a, (![0, 0] : Fin 2 → Nat) a + S5x80000.size a ≤ S5x80000.size a
  h_S5x80000 : 0 < S5x80000.numel
  shapeCasts_S5x80000_S1x5x80000 : S5x80000.ShapeCasts S1x5x80000
  shapeCasts_S2x5_S2x5x1 : S2x5.ShapeCasts S2x5x1
  broadcasts_S1x5x80000_S2x5x80000 : S1x5x80000.Broadcasts S2x5x80000
  broadcasts_S2x5x1_S2x5x80000 : S2x5x1.Broadcasts S2x5x80000
  inb_S2x5x80000_S2x5x80000_0_0_0 : ∀ a, (![0, 0, 0] : Fin 3 → Nat) a + S2x5x80000.size a ≤ S2x5x80000.size a
  h_S2x5x80000 : 0 < S2x5x80000.numel
  shapeCasts_S2x5x2000000_S2x10000000 : S2x5x2000000.ShapeCasts S2x10000000
  bcast_S_S10000000 : S_.BroadcastsInDim S10000000 (![] : Fin 0 → Fin S10000000.rank)
  bcast_S10000000_S10000000x1_0 : S10000000.BroadcastsInDim S10000000x1 (![0] : Fin 1 → Fin S10000000x1.rank)
  bcast_S_S1 : S_.BroadcastsInDim S1 (![] : Fin 0 → Fin S1.rank)
  slices_S10000000_S9999999_1 : S10000000.Slices ![1] S9999999
  slices_S10000000_S9999999_0 : S10000000.Slices ![0] S9999999
  concatenates_S1_S9999999_S10000000_d0 : Shape.Concatenates [S1, S9999999] S10000000 0
  natLt_1_32 : 1 < 32
  bcast_S_S_ : S_.BroadcastsInDim S_ (![] : Fin 0 → Fin S_.rank)
  reduceWindows_S10000000_S10000000_w10000000s1p9999999_0 : S10000000.ReduceWindows (![10000000] : Fin 1 → Nat) ![1] ![9999999] ![0] S10000000
  transposes_S2x10000000_S10000000x2_1_0 : S2x10000000.Transposes [1, 0] S10000000x2
  bcast_S_S10000000x2 : S_.BroadcastsInDim S10000000x2 (![] : Fin 0 → Fin S10000000x2.rank)
  transposes_S10000000x2_S2x10000000_1_0 : S10000000x2.Transposes [1, 0] S2x10000000
  gather_S10000000_S10000000x1_S10000000_n_0_n_n_0_1_1_wf : GatherDims.WF S10000000 S10000000x1 S10000000 [] [0] [] [0] [] 1 ![1]
  gather_S2x10000000_S10000000x1_S2x10000000_0_1_n_n_1_1_21_wf : GatherDims.WF S2x10000000 S10000000x1 S2x10000000 [0] [1] [] [1] [] 1 ![2, 1]
  scatter_S10000000x2_S10000000x1_S10000000x2_1_0_0_1_wf : ScatterDims.WF S10000000x2 S10000000x1 S10000000x2 [1] [0] [0] 1
  scatter_S10000000_S10000000x1_S10000000_n_0_0_1_wf : ScatterDims.WF S10000000 S10000000x1 S10000000 [] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x5.size a ≤ S2x5.size a
  hwx0_0 : ∀ i : grid0.Coords, EltTy.bits .f32 = 32 ∨ (Rect.block (s := S2x5) S2x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x80000.size a ≤ S5x2000000.size a
  hwx0_1 : ∀ i : grid0.Coords, EltTy.bits .f32 = 32 ∨ (Rect.block (s := S5x2000000) S5x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x5x80000.size a ≤ S2x5x2000000.size a
  hwx0_2 : ∀ i : grid0.Coords, EltTy.bits .f32 = 32 ∨ (Rect.block (s := S2x5x2000000) S2x5x80000.size (cc0_transform_2 i) (hinb0_2 i)).WholeWords (EltTy.packing .f32)

variable [Facts₀]

def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S10000000_S10000000x1_S10000000_n_0_n_n_0_1_1 : GatherDims S10000000 S10000000x1 S10000000 where
  offsetDims := []
  collapsedSliceDims := [0]
  operandBatchingDims := []
  startIndicesBatchingDims := []
  startIndexMap := [0]
  indexVectorDim := 1
  sliceSizes := ![1]
  wf := gather_S10000000_S10000000x1_S10000000_n_0_n_n_0_1_1_wf
def gather_S2x10000000_S10000000x1_S2x10000000_0_1_n_n_1_1_21 : GatherDims S2x10000000 S10000000x1 S2x10000000 where
  offsetDims := [0]
  collapsedSliceDims := [1]
  operandBatchingDims := []
  startIndicesBatchingDims := []
  startIndexMap := [1]
  indexVectorDim := 1
  sliceSizes := ![2, 1]
  wf := gather_S2x10000000_S10000000x1_S2x10000000_0_1_n_n_1_1_21_wf
def scatter_S10000000x2_S10000000x1_S10000000x2_1_0_0_1 : ScatterDims S10000000x2 S10000000x1 S10000000x2 where
  updateWindowDims := [1]
  insertedWindowDims := [0]
  scatterDimsToOperandDims := [0]
  indexVectorDim := 1
  wf := scatter_S10000000x2_S10000000x1_S10000000x2_1_0_0_1_wf
def scatter_S10000000_S10000000x1_S10000000_n_0_0_1 : ScatterDims S10000000 S10000000x1 S10000000 where
  updateWindowDims := []
  insertedWindowDims := [0]
  scatterDimsToOperandDims := [0]
  indexVectorDim := 1
  wf := scatter_S10000000_S10000000x1_S10000000_n_0_0_1_wf

abbrev win0_0 : Pipeline.Window sig grid0 :=
  Pipeline.Window.ofSpec (Memref.whole main_v10) S2x5.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2x5x80000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S5x2x2000000 : Shape := ⟨3, ![5, 2, 2000000]⟩
abbrev S5x2000000 : Shape := ⟨2, ![5, 2000000]⟩
abbrev S2x5 : Shape := ⟨2, ![2, 5]⟩
abbrev S_ : Shape := ⟨0, ![]⟩
abbrev S2 : Shape := ⟨1, ![2]⟩
abbrev S2x1 : Shape := ⟨2, ![2, 1]⟩
abbrev S5x1x2000000 : Shape := ⟨3, ![5, 1, 2000000]⟩
abbrev S10000000 : Shape := ⟨1, ![10000000]⟩
abbrev S1x5x2000000 : Shape := ⟨3, ![1, 5, 2000000]⟩
abbrev S2x5x1 : Shape := ⟨3, ![2, 5, 1]⟩
abbrev S2x5x2000000 : Shape := ⟨3, ![2, 5, 2000000]⟩
abbrev S2x10000000 : Shape := ⟨2, ![2, 10000000]⟩
abbrev S10000000x1 : Shape := ⟨2, ![10000000, 1]⟩
abbrev S1 : Shape := ⟨1, ![1]⟩
abbrev S9999999 : Shape := ⟨1, ![9999999]⟩
abbrev S10000000x2 : Shape := ⟨2, ![10000000, 2]⟩

abbrev nBuf : Space → Nat
  | .hbm => 105
  | .vmem => 0
  | .smem => 0
  | _ => 0

abbrev bufTy : (tb : Table) → Fin (tcTables nBuf tb) → BufTy
  | .hbm, ⟨0, _⟩ => ⟨S5x2x2000000, .i32⟩
  | .hbm, ⟨1, _⟩ => ⟨S5x2000000, .f32⟩
  | .hbm, ⟨2, _⟩ => ⟨S2x5, .f32⟩
  | .hbm, ⟨3, _⟩ => ⟨S_, .f32⟩
  | .hbm, ⟨4, _⟩ => ⟨S2, .f32⟩
  | .hbm, ⟨5, _⟩ => ⟨S_, .f32⟩
  | .hbm, ⟨6, _⟩ => ⟨S2, .f32⟩
  | .hbm, ⟨7, _⟩ => ⟨S2, .f32⟩
  | .hbm, ⟨8, _⟩ => ⟨S2x1, .f32⟩
  | .hbm, ⟨9, _⟩ => ⟨S2x5, .f32⟩
  | .hbm, ⟨10, _⟩ => ⟨S2x5, .f32⟩
  | .hbm, ⟨11, _⟩ => ⟨S2x5, .f32⟩
  | .hbm, ⟨12, _⟩ => ⟨S_, .f32⟩
  | .hbm, ⟨13, _⟩ => ⟨S2, .f32⟩
  | .hbm, ⟨14, _⟩ => ⟨S2x1, .f32⟩
  | .hbm, ⟨15, _⟩ => ⟨S2x5, .f32⟩
  | .hbm, ⟨16, _⟩ => ⟨S2x5, .f32⟩
  | .hbm, ⟨17, _⟩ => ⟨S5x1x2000000, .i32⟩
  | .hbm, ⟨18, _⟩ => ⟨S5x2000000, .i32⟩
  | .hbm, ⟨19, _⟩ => ⟨S10000000, .i32⟩
  | .hbm, ⟨20, _⟩ => ⟨S5x1x2000000, .i32⟩
  | .hbm, ⟨21, _⟩ => ⟨S5x2000000, .i32⟩
  | .hbm, ⟨22, _⟩ => ⟨S10000000, .i32⟩
  | .hbm, ⟨23, _⟩ => ⟨S1x5x2000000, .f32⟩
  | .hbm, ⟨24, _⟩ => ⟨S2x5x1, .f32⟩
  | .hbm, ⟨25, _⟩ => ⟨S2x5x2000000, .f32⟩
  | .hbm, ⟨26, _⟩ => ⟨S2x5x2000000, .f32⟩
  | .hbm, ⟨27, _⟩ => ⟨S2x5x2000000, .f32⟩
  | .hbm, ⟨28, _⟩ => ⟨S2x10000000, .f32⟩
  | .hbm, ⟨29, _⟩ => ⟨S10000000, .i32⟩
  | .hbm, ⟨30, _⟩ => ⟨S10000000, .i32⟩
  | .hbm, ⟨31, _⟩ => ⟨S10000000, .i32⟩
  | .hbm, ⟨32, _⟩ => ⟨S10000000, .i32⟩
  | .hbm, ⟨33, _⟩ => ⟨S_, .i32⟩
  | .hbm, ⟨34, _⟩ => ⟨S10000000, .i32⟩
  | .hbm, ⟨35, _⟩ => ⟨S10000000, .i1⟩
  | .hbm, ⟨36, _⟩ => ⟨S_, .i32⟩
  | .hbm, ⟨37, _⟩ => ⟨S10000000, .i32⟩
  | .hbm, ⟨38, _⟩ => ⟨S10000000, .i32⟩
  | .hbm, ⟨39, _⟩ => ⟨S10000000, .i32⟩
  | .hbm, ⟨40, _⟩ => ⟨S10000000x1, .i32⟩
  | .hbm, ⟨41, _⟩ => ⟨S10000000, .i32⟩
  | .hbm, ⟨42, _⟩ => ⟨S_, .i32⟩
  | .hbm, ⟨43, _⟩ => ⟨S10000000, .i32⟩
  | .hbm, ⟨44, _⟩ => ⟨S10000000, .i1⟩
  | .hbm, ⟨45, _⟩ => ⟨S_, .i32⟩
  | .hbm, ⟨46, _⟩ => ⟨S10000000, .i32⟩
  | .hbm, ⟨47, _⟩ => ⟨S10000000, .i32⟩
  | .hbm, ⟨48, _⟩ => ⟨S10000000, .i32⟩
  | .hbm, ⟨49, _⟩ => ⟨S10000000x1, .i32⟩
  | .hbm, ⟨50, _⟩ => ⟨S10000000, .i32⟩
  | .hbm, ⟨51, _⟩ => ⟨S_, .i32⟩
  | .hbm, ⟨52, _⟩ => ⟨S10000000, .i32⟩
  | .hbm, ⟨53, _⟩ => ⟨S10000000, .i1⟩
  | .hbm, ⟨54, _⟩ => ⟨S_, .i32⟩
  | .hbm, ⟨55, _⟩ => ⟨S10000000, .i32⟩
  | .hbm, ⟨56, _⟩ => ⟨S10000000, .i32⟩
  | .hbm, ⟨57, _⟩ => ⟨S10000000, .i32⟩
  | .hbm, ⟨58, _⟩ => ⟨S10000000x1, .i32⟩
  | .hbm, ⟨59, _⟩ => ⟨S2x10000000, .f32⟩
  | .hbm, ⟨60, _⟩ => ⟨S_, .i1⟩
  | .hbm, ⟨61, _⟩ => ⟨S1, .i1⟩
  | .hbm, ⟨62, _⟩ => ⟨S9999999, .i32⟩
  | .hbm, ⟨63, _⟩ => ⟨S9999999, .i32⟩
  | .hbm, ⟨64, _⟩ => ⟨S9999999, .i1⟩
  | .hbm, ⟨65, _⟩ => ⟨S9999999, .i32⟩
  | .hbm, ⟨66, _⟩ => ⟨S9999999, .i32⟩
  | .hbm, ⟨67, _⟩ => ⟨S9999999, .i1⟩
  | .hbm, ⟨68, _⟩ => ⟨S9999999, .i1⟩
  | .hbm, ⟨69, _⟩ => ⟨S10000000, .i1⟩
  | .hbm, ⟨70, _⟩ => ⟨S10000000, .i32⟩
  | .hbm, ⟨71, _⟩ => ⟨S_, .i32⟩
  | .hbm, ⟨72, _⟩ => ⟨S_, .i32⟩
  | .hbm, ⟨73, _⟩ => ⟨S10000000, .i32⟩
  | .hbm, ⟨74, _⟩ => ⟨S_, .i32⟩
  | .hbm, ⟨75, _⟩ => ⟨S10000000, .i32⟩
  | .hbm, ⟨76, _⟩ => ⟨S10000000, .i32⟩
  | .hbm, ⟨77, _⟩ => ⟨S10000000x2, .f32⟩
  | .hbm, ⟨78, _⟩ => ⟨S_, .f32⟩
  | .hbm, ⟨79, _⟩ => ⟨S10000000x2, .f32⟩
  | .hbm, ⟨80, _⟩ => ⟨S10000000x1, .i32⟩
  | .hbm, ⟨81, _⟩ => ⟨S10000000x2, .f32⟩
  | .hbm, ⟨82, _⟩ => ⟨S_, .i32⟩
  | .hbm, ⟨83, _⟩ => ⟨S10000000, .i32⟩
  | .hbm, ⟨84, _⟩ => ⟨S_, .i32⟩
  | .hbm, ⟨85, _⟩ => ⟨S10000000, .i32⟩
  | .hbm, ⟨86, _⟩ => ⟨S10000000, .i1⟩
  | .hbm, ⟨87, _⟩ => ⟨S_, .i32⟩
  | .hbm, ⟨88, _⟩ => ⟨S10000000, .i32⟩
  | .hbm, ⟨89, _⟩ => ⟨S10000000, .i32⟩
  | .hbm, ⟨90, _⟩ => ⟨S10000000, .i32⟩
  | .hbm, ⟨91, _⟩ => ⟨S10000000x1, .i32⟩
  | .hbm, ⟨92, _⟩ => ⟨S10000000, .i32⟩
  | .hbm, ⟨93, _⟩ => ⟨S_, .i32⟩
  | .hbm, ⟨94, _⟩ => ⟨S10000000, .i32⟩
  | .hbm, ⟨95, _⟩ => ⟨S_, .i32⟩
  | .hbm, ⟨96, _⟩ => ⟨S10000000, .i32⟩
  | .hbm, ⟨97, _⟩ => ⟨S10000000, .i1⟩
  | .hbm, ⟨98, _⟩ => ⟨S_, .i32⟩
  | .hbm, ⟨99, _⟩ => ⟨S10000000, .i32⟩
  | .hbm, ⟨100, _⟩ => ⟨S10000000, .i32⟩
  | .hbm, ⟨101, _⟩ => ⟨S10000000, .i32⟩
  | .hbm, ⟨102, _⟩ => ⟨S10000000x1, .i32⟩
  | .hbm, ⟨103, _⟩ => ⟨S10000000, .i32⟩
  | .hbm, ⟨104, _⟩ => ⟨S2x10000000, .f32⟩
  | _, _ => ⟨S5x2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_call0_v1_0 : Ref sig .tc := ⟨.hbm, 30, rfl⟩
abbrev main_call0_v1_1 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call1_call0_c : Ref sig .tc := ⟨.hbm, 71, rfl⟩
abbrev main_call1_call0_v0 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_10 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_13 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]

class Facts₀ : Prop where
  reducesTo_S2x5_S2_d1 : S2x5.ReducesTo [1] S2
  h_S_ : 0 < S_.numel
  bcast_S_S2 : S_.BroadcastsInDim S2 (![] : Fin 0 → Fin S2.rank)
  bcast_S2_S2x1_0 : S2.BroadcastsInDim S2x1 (![0] : Fin 1 → Fin S2x1.rank)
  bcast_S2x1_S2x5_0_1 : S2x1.BroadcastsInDim S2x5 (![0, 1] : Fin 2 → Fin S2x5.rank)
  slices_S5x2x2000000_S5x1x2000000_0_0_0 : S5x2x2000000.Slices ![0, 0, 0] S5x1x2000000
  shapeCasts_S5x1x2000000_S5x2000000 : S5x1x2000000.ShapeCasts S5x2000000
  shapeCasts_S5x2000000_S10000000 : S5x2000000.ShapeCasts S10000000
  slices_S5x2x2000000_S5x1x2000000_0_1_0 : S5x2x2000000.Slices ![0, 1, 0] S5x1x2000000
  bcast_S5x2000000_S1x5x2000000_1_2 : S5x2000000.BroadcastsInDim S1x5x2000000 (![1, 2] : Fin 2 → Fin S1x5x2000000.rank)
  bcast_S2x5_S2x5x1_0_1 : S2x5.BroadcastsInDim S2x5x1 (![0, 1] : Fin 2 → Fin S2x5x1.rank)
  bcast_S1x5x2000000_S2x5x2000000_0_1_2 : S1x5x2000000.BroadcastsInDim S2x5x2000000 (![0, 1, 2] : Fin 3 → Fin S2x5x2000000.rank)
  bcast_S2x5x1_S2x5x2000000_0_1_2 : S2x5x1.BroadcastsInDim S2x5x2000000 (![0, 1, 2] : Fin 3 → Fin S2x5x2000000.rank)
  shapeCasts_S2x5x2000000_S2x10000000 : S2x5x2000000.ShapeCasts S2x10000000
  bcast_S_S10000000 : S_.BroadcastsInDim S10000000 (![] : Fin 0 → Fin S10000000.rank)
  bcast_S10000000_S10000000x1_0 : S10000000.BroadcastsInDim S10000000x1 (![0] : Fin 1 → Fin S10000000x1.rank)
  bcast_S_S1 : S_.BroadcastsInDim S1 (![] : Fin 0 → Fin S1.rank)
  slices_S10000000_S9999999_1 : S10000000.Slices ![1] S9999999
  slices_S10000000_S9999999_0 : S10000000.Slices ![0] S9999999
  concatenates_S1_S9999999_S10000000_d0 : Shape.Concatenates [S1, S9999999] S10000000 0
  natLt_1_32 : 1 < 32
  bcast_S_S_ : S_.BroadcastsInDim S_ (![] : Fin 0 → Fin S_.rank)
  reduceWindows_S10000000_S10000000_w10000000s1p9999999_0 : S10000000.ReduceWindows (![10000000] : Fin 1 → Nat) ![1] ![9999999] ![0] S10000000
  transposes_S2x10000000_S10000000x2_1_0 : S2x10000000.Transposes [1, 0] S10000000x2
  bcast_S_S10000000x2 : S_.BroadcastsInDim S10000000x2 (![] : Fin 0 → Fin S10000000x2.rank)
  transposes_S10000000x2_S2x10000000_1_0 : S10000000x2.Transposes [1, 0] S2x10000000
  gather_S10000000_S10000000x1_S10000000_n_0_n_n_0_1_1_wf : GatherDims.WF S10000000 S10000000x1 S10000000 [] [0] [] [0] [] 1 ![1]
  gather_S2x10000000_S10000000x1_S2x10000000_0_1_n_n_1_1_21_wf : GatherDims.WF S2x10000000 S10000000x1 S2x10000000 [0] [1] [] [1] [] 1 ![2, 1]
  scatter_S10000000x2_S10000000x1_S10000000x2_1_0_0_1_wf : ScatterDims.WF S10000000x2 S10000000x1 S10000000x2 [1] [0] [0] 1
  scatter_S10000000_S10000000x1_S10000000_n_0_0_1_wf : ScatterDims.WF S10000000 S10000000x1 S10000000 [] [0] [0] 1

variable [Facts₀]

def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S10000000_S10000000x1_S10000000_n_0_n_n_0_1_1 : GatherDims S10000000 S10000000x1 S10000000 where
  offsetDims := []
  collapsedSliceDims := [0]
  operandBatchingDims := []
  startIndicesBatchingDims := []
  startIndexMap := [0]
  indexVectorDim := 1
  sliceSizes := ![1]
  wf := gather_S10000000_S10000000x1_S10000000_n_0_n_n_0_1_1_wf
def gather_S2x10000000_S10000000x1_S2x10000000_0_1_n_n_1_1_21 : GatherDims S2x10000000 S10000000x1 S2x10000000 where
  offsetDims := [0]
  collapsedSliceDims := [1]
  operandBatchingDims := []
  startIndicesBatchingDims := []
  startIndexMap := [1]
  indexVectorDim := 1
  sliceSizes := ![2, 1]
  wf := gather_S2x10000000_S10000000x1_S2x10000000_0_1_n_n_1_1_21_wf
def scatter_S10000000x2_S10000000x1_S10000000x2_1_0_0_1 : ScatterDims S10000000x2 S10000000x1 S10000000x2 where
  updateWindowDims := [1]
  insertedWindowDims := [0]
  scatterDimsToOperandDims := [0]
  indexVectorDim := 1
  wf := scatter_S10000000x2_S10000000x1_S10000000x2_1_0_0_1_wf
def scatter_S10000000_S10000000x1_S10000000_n_0_0_1 : ScatterDims S10000000 S10000000x1 S10000000 where
  updateWindowDims := []
  insertedWindowDims := [0]
  scatterDimsToOperandDims := [0]
  indexVectorDim := 1
  wf := scatter_S10000000_S10000000x1_S10000000_n_0_0_1_wf

class Facts : Prop extends Facts₀ where

variable [Facts]
-- ==== Proof.HostSidesB.lean ====
/-
  The host lines on either side of the one pallas call of `Kernel`'s @main.

  @main is twenty host operations (the softmax of the weights and the two flattened index columns), the call that
  forms every product edge_value[c, e] * filt[o, c] block by block, and then seventy-seven host operations in five
  stretches (a reshape, the lexicographic sort, the gathers and the segment marks, the running count, the
  scatters).  Here: the contents the call finds in each buffer (the fold of the first twenty operations over the
  launch memory), that @main is those operations, the call, and the later stretches in order, and three facts
  about the later stretches the launch theorem asks for: each touches only unscoped TensorCore buffers, none
  allocates, and none writes one of the three arrays the call stages (the softmax, edge_value, the products) nor an
  argument array.  Each operation writes only its own result buffer, so the last fact is a comparison of buffer
  numbers, operation by operation.
-/
import proofs.«133797_j11905649344580_1_alg».proof.Proof.Gen.Kernel.Launch
import Idealize.ShloMosaic.Lib.Pipeline.FrameBody
import Idealize.ShloMosaic.Lib.Pipeline.FrameSuffix

noncomputable section

namespace Cert.Kernel.HostSides

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- The five stretches of host operations after the call, in order. -/
abbrev later : List (List (HloOp τ sig (Elt F))) := [hostOps1, hostOps1_1, hostOps1_2, hostOps1_3, hostOps1_4]

/-- Core `c`'s buffer contents when the call is reached: the twenty operations before it, folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## No operation allocates -/

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-! ## @main around the call -/

/-- @main is the operations before the call, the call, and the later stretches: it reduces to the call continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact fresh0) main_chain

/-- A member of the later stretches is a member of one of the five. -/
theorem mem_later {ops : List (HloOp τ sig (Elt F))} (h : ops ∈ (later : List (List (HloOp τ sig (Elt F))))) :
    ops = hostOps1 ∨ ops = hostOps1_1 ∨ ops = hostOps1_2 ∨ ops = hostOps1_3 ∨ ops = hostOps1_4 := by
  simpa only [List.mem_cons, List.mem_nil_iff, or_false] using h

/-- The later operations touch the call's arrays and the buffers that bypass it only. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_later hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  rcases mem_later hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-! ## What the operations leave alone -/

/-- An operation leaves the three argument arrays, the softmax and the products alone. -/
abbrev Spares (op : HloOp τ sig (Elt F)) : Prop :=
  Proc.devRef .tc main_arg0 ∉ op.writes ∧ Proc.devRef .tc main_arg1 ∉ op.writes ∧ Proc.devRef .tc main_arg2 ∉ op.writes
    ∧ Proc.devRef .tc main_v10 ∉ op.writes ∧ Proc.devRef .tc main_v17 ∉ op.writes

/-- The operations before the call leave the argument arrays alone. -/
theorem spares0 : (hostOps0 : List (HloOp τ sig (Elt F))).Forall fun op =>
    Proc.devRef .tc main_arg0 ∉ op.writes ∧ Proc.devRef .tc main_arg1 ∉ op.writes ∧ Proc.devRef .tc main_arg2 ∉ op.writes := by
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

theorem spares1 : (hostOps1 : List (HloOp τ sig (Elt F))).Forall Spares := by
  simp only [hostOps1, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)
theorem spares1_1 : (hostOps1_1 : List (HloOp τ sig (Elt F))).Forall Spares := by
  simp only [hostOps1_1, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)
theorem spares1_2 : (hostOps1_2 : List (HloOp τ sig (Elt F))).Forall Spares := by
  simp only [hostOps1_2, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)
theorem spares1_3 : (hostOps1_3 : List (HloOp τ sig (Elt F))).Forall Spares := by
  simp only [hostOps1_3, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)
theorem spares1_4 : (hostOps1_4 : List (HloOp τ sig (Elt F))).Forall Spares := by
  simp only [hostOps1_4, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- Every later operation spares the five. -/
theorem later_spares : ∀ ops ∈ (later : List (List (HloOp τ sig (Elt F)))), ∀ op ∈ ops, Spares op := by
  intro ops hops op hop
  rcases mem_later hops with rfl | rfl | rfl | rfl | rfl
  · exact (List.forall_iff_forall_mem.mp spares1) op hop
  · exact (List.forall_iff_forall_mem.mp spares1_1) op hop
  · exact (List.forall_iff_forall_mem.mp spares1_2) op hop
  · exact (List.forall_iff_forall_mem.mp spares1_3) op hop
  · exact (List.forall_iff_forall_mem.mp spares1_4) op hop

/-- The call's three arrays are the softmax, edge_value and the products. -/
theorem arrRef_0 : Pipeline.arrRef spec0 0 = main_v10 := rfl
theorem arrRef_1 : Pipeline.arrRef spec0 1 = main_arg1 := rfl
theorem arrRef_2 : Pipeline.arrRef spec0 2 = main_v17 := rfl

/-- No later operation writes an array of the call. -/
theorem later_keeps : ∀ ops ∈ (later : List (List (HloOp τ sig (Elt F)))), ∀ op ∈ ops,
    ∀ w, Proc.devRef .tc (Pipeline.arrRef spec0 w) ∉ op.writes := by
  intro ops hops op hop w
  obtain ⟨-, h1, -, h10, h17⟩ := later_spares ops hops op hop
  fin_cases w
  · exact h10
  · exact h1
  · exact h17

/-! ## The argument arrays, at the call and at the end -/

/-- A buffer no later operation writes is, after them, what the call left in it. -/
theorem after_later_of_spared {b : Ref sig .tc} (W : Valuation τ sig (Elt F))
    (h : ∀ ops ∈ (later : List (List (HloOp τ sig (Elt F)))), ∀ op ∈ ops, Proc.devRef .tc b ∉ op.writes) :
    StableHlo.after (later (F := F)).flatten W (Proc.devRef .tc b) = W (Proc.devRef .tc b) :=
  StableHlo.after_of_forall_not_mem _ _ fun op hop => by
    obtain ⟨ops, hops, hop'⟩ := List.mem_flatten.mp hop
    exact h ops hops op hop'

theorem V_main_arg0 (c : Dev nD) : V m c main_arg0 = m ((c : Thread nD τ).loc main_arg0) :=
  StableHlo.after_of_forall_not_mem (b := Proc.devRef .tc main_arg0) _ _ fun op hop =>
    ((List.forall_iff_forall_mem.mp spares0) op (by simpa only [List.flatten_cons, List.flatten_nil, List.append_nil] using hop)).1
theorem V_main_arg1 (c : Dev nD) : V m c main_arg1 = m ((c : Thread nD τ).loc main_arg1) :=
  StableHlo.after_of_forall_not_mem (b := Proc.devRef .tc main_arg1) _ _ fun op hop =>
    ((List.forall_iff_forall_mem.mp spares0) op (by simpa only [List.flatten_cons, List.flatten_nil, List.append_nil] using hop)).2.1
theorem V_main_arg2 (c : Dev nD) : V m c main_arg2 = m ((c : Thread nD τ).loc main_arg2) :=
  StableHlo.after_of_forall_not_mem (b := Proc.devRef .tc main_arg2) _ _ fun op hop =>
    ((List.forall_iff_forall_mem.mp spares0) op (by simpa only [List.flatten_cons, List.flatten_nil, List.append_nil] using hop)).2.2

/-- `main_arg0` is no array of the call and no later operation writes it: it ends as launched. -/
theorem W_main_arg0 (dats : (p : Fin 1) → (c : Dev nD) → Pipeline.Dat τ (Elt F) Unit ℕ (UR sig nD τ) ℕ (cfgs p) c) (c : Dev nD) :
    Pipeline.afterTail₀ cfgs dats 0 (V0 m) later c main_arg0 = m ((c : Thread nD τ).loc main_arg0) := by
  unfold Pipeline.afterTail₀
  rw [after_later_of_spared _ (fun ops hops op hop => (later_spares ops hops op hop).1),
    Pipeline.withArrays_of_ne _ c (V0 m c) _ main_arg0 (by exact (by decide : ∀ w, Pipeline.arrRef spec0 w ≠ main_arg0))]
  exact V_main_arg0 m c

/-- The same for `main_arg2`. -/
theorem W_main_arg2 (dats : (p : Fin 1) → (c : Dev nD) → Pipeline.Dat τ (Elt F) Unit ℕ (UR sig nD τ) ℕ (cfgs p) c) (c : Dev nD) :
    Pipeline.afterTail₀ cfgs dats 0 (V0 m) later c main_arg2 = m ((c : Thread nD τ).loc main_arg2) := by
  unfold Pipeline.afterTail₀
  rw [after_later_of_spared _ (fun ops hops op hop => (later_spares ops hops op hop).2.2.1),
    Pipeline.withArrays_of_ne _ c (V0 m c) _ main_arg2 (by exact (by decide : ∀ w, Pipeline.arrRef spec0 w ≠ main_arg2))]
  exact V_main_arg2 m c

end Cert.Kernel.HostSides

end
-- ==== Proof.CombineRunB.lean ====
/-
  The one pallas call of `Kernel`'s @main, run: what each grid point leaves, and the frame.

  The call has three windows over a grid of 25 points along the edge axis.  Window 0 is the whole 2 x 5 softmax
  (the same block at every point), window 1 is columns 80000 t .. 80000 t + 79999 of the 5 x 2000000 edge values,
  window 2 is the same columns of the 2 x 5 x 2000000 products, written back at every point.  The body loads the
  two input blocks whole, multiplies them entry by entry after laying the first along the edge axis and the second
  along the output-channel axis, and stores the result over the whole output block (it also loads the output
  block once, and does nothing with what it read).  So after the body the two input buffers hold their blocks
  unchanged and the output buffer holds the one stored piece, a function of the two input blocks alone; nothing is
  carried from one point to the next.  With that as the proof data, the launch theorem for a call followed by host
  operations gives the run of @main: at the end each staged array holds what the write-backs made of it and every
  other unscoped buffer holds what the later operations computed from the call's exit contents.  The frame follows:
  edge_value is a staged INPUT, so it ends at its entry contents, which no earlier operation wrote; the other two
  arguments bypass the call and no operation writes them.
-/
import proofs.«133797_j11905649344580_1_alg».proof.Proof.HostSidesB
import proofs.«133797_j11905649344580_1_alg».proof.Proof.Gen.Kernel.Skeleton
import proofs.«133797_j11905649344580_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.CombineRun

open Cert.Kernel Cert.Kernel.Gen Cert.Kernel.HostSides
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the previous point, and the body left the block in place.  Window 0
    (the softmax, fetched at the first point only): -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 (the edge values, fetched at every point): -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole output block, as the one rectangle the body stores through. -/
abbrev whole2 : Rect S2x5x80000 := Rect.unit (s := S2x5x80000) ![0, 0, 0] S2x5x80000.size inb_S2x5x80000_S2x5x80000_0_0_0
/-- The whole softmax block and the whole edge-value block, as the rectangles the body loads through. -/
abbrev whole0 : Rect S2x5 := Rect.unit (s := S2x5) ![0, 0] S2x5.size inb_S2x5_S2x5_0_0
abbrev whole1 : Rect S5x80000 := Rect.unit (s := S5x80000) ![0, 0] S5x80000.size inb_S5x80000_S5x80000_0_0

/-- The output buffer after the body: its one store, the products of the two loaded blocks. -/
def out2 (x0 : Vec F S2x5 .f32) (x1 : Vec F S5x80000 .f32) : Vec F S2x5x80000 .f32 :=
  View.canon [⟨whole2, k0_pay1 (View.ld x0 whole0) (View.ld x1 whole1)⟩]

/-- The one store covers the buffer. -/
theorem cover2 (p0 : Vec F S2x5x80000 .f32) (y : S2x5x80000.Idx) :
    ∃ pc ∈ ([⟨whole2, p0⟩] : List (View.Piece (Elt F) S2x5x80000 .f32)), y ∈ pc.1.set :=
  View.cover_of_tiled [⟨whole2, p0⟩] S2x5x80000.size (by rfl) y

/-! ## The body's triple -/

set_option maxHeartbeats 1000000 in
/-- The body on whole staging memrefs, the inputs' at contents `x0`, `x1` and the output's at anything, runs to the
    continuation with the inputs' as they were and the output's at `out2 x0 x1`. -/
theorem sound_kernel (c : Dev nD) (E : Set ℕ) (i : grid0.Coords)
    (arg1 : Memref sig .tc .vmem S2x5 .f32) (harg1 : arg1.IsWhole) (arg2 : Memref sig .tc .vmem S5x80000 .f32) (harg2 : arg2.IsWhole)
    (arg3 : Memref sig .tc .vmem S2x5x80000 .f32) (harg3 : arg3.IsWhole)
    (x0 : Vec F S2x5 .f32) (x1 : Vec F S5x80000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The proof data -/

/-- The proof data of the call on core `c`: the arrays as the call finds them; after the body at point `t` each input
    buffer at its block and the output buffer at `out2` of the two input blocks; the invariant the untouched scoped
    rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input memrefs hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and at the end each staged
    array holds what the write-backs made of it and every other unscoped buffer what the later operations computed
    from the call's exit contents. -/
theorem run_main : θ_run defs (onTc (τ := τ) (main (F := F))) (s₀ m ρ)
    (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c)⟩)
    (run_main m ρ)

end Cert.Kernel.CombineRun

end
-- ==== Proof.HostSidesI.lean ====
/-
  The host lines on either side of the one pallas call of `KernelIdeal`'s @main.

  @main is twenty host operations (the softmax of the weights and the two flattened index columns), the call that
  forms every product edge_value[c, e] * filt[o, c] block by block, and then seventy-seven host operations in five
  stretches (a reshape, the lexicographic sort, the gathers and the segment marks, the running count, the
  scatters).  Here: the contents the call finds in each buffer (the fold of the first twenty operations over the
  launch memory), that @main is those operations, the call, and the later stretches in order, and three facts
  about the later stretches the launch theorem asks for: each touches only unscoped TensorCore buffers, none
  allocates, and none writes one of the three arrays the call stages (the softmax, edge_value, the products) nor an
  argument array.  Each operation writes only its own result buffer, so the last fact is a comparison of buffer
  numbers, operation by operation.
-/
import proofs.«133797_j11905649344580_1_alg».proof.Proof.Gen.KernelIdeal.Launch
import Idealize.ShloMosaic.Lib.Pipeline.FrameBody
import Idealize.ShloMosaic.Lib.Pipeline.FrameSuffix

noncomputable section

namespace Cert.KernelIdeal.HostSides

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- The five stretches of host operations after the call, in order. -/
abbrev later : List (List (HloOp τ sig (Elt F))) := [hostOps1, hostOps1_1, hostOps1_2, hostOps1_3, hostOps1_4]

/-- Core `c`'s buffer contents when the call is reached: the twenty operations before it, folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## No operation allocates -/

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-! ## @main around the call -/

/-- @main is the operations before the call, the call, and the later stretches: it reduces to the call continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact fresh0) main_chain

/-- A member of the later stretches is a member of one of the five. -/
theorem mem_later {ops : List (HloOp τ sig (Elt F))} (h : ops ∈ (later : List (List (HloOp τ sig (Elt F))))) :
    ops = hostOps1 ∨ ops = hostOps1_1 ∨ ops = hostOps1_2 ∨ ops = hostOps1_3 ∨ ops = hostOps1_4 := by
  simpa only [List.mem_cons, List.mem_nil_iff, or_false] using h

/-- The later operations touch the call's arrays and the buffers that bypass it only. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_later hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  rcases mem_later hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-! ## What the operations leave alone -/

/-- An operation leaves the three argument arrays, the softmax and the products alone. -/
abbrev Spares (op : HloOp τ sig (Elt F)) : Prop :=
  Proc.devRef .tc main_arg0 ∉ op.writes ∧ Proc.devRef .tc main_arg1 ∉ op.writes ∧ Proc.devRef .tc main_arg2 ∉ op.writes
    ∧ Proc.devRef .tc main_v10 ∉ op.writes ∧ Proc.devRef .tc main_v17 ∉ op.writes

/-- The operations before the call leave the argument arrays alone. -/
theorem spares0 : (hostOps0 : List (HloOp τ sig (Elt F))).Forall fun op =>
    Proc.devRef .tc main_arg0 ∉ op.writes ∧ Proc.devRef .tc main_arg1 ∉ op.writes ∧ Proc.devRef .tc main_arg2 ∉ op.writes := by
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

theorem spares1 : (hostOps1 : List (HloOp τ sig (Elt F))).Forall Spares := by
  simp only [hostOps1, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)
theorem spares1_1 : (hostOps1_1 : List (HloOp τ sig (Elt F))).Forall Spares := by
  simp only [hostOps1_1, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)
theorem spares1_2 : (hostOps1_2 : List (HloOp τ sig (Elt F))).Forall Spares := by
  simp only [hostOps1_2, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)
theorem spares1_3 : (hostOps1_3 : List (HloOp τ sig (Elt F))).Forall Spares := by
  simp only [hostOps1_3, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)
theorem spares1_4 : (hostOps1_4 : List (HloOp τ sig (Elt F))).Forall Spares := by
  simp only [hostOps1_4, Spares, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- Every later operation spares the five. -/
theorem later_spares : ∀ ops ∈ (later : List (List (HloOp τ sig (Elt F)))), ∀ op ∈ ops, Spares op := by
  intro ops hops op hop
  rcases mem_later hops with rfl | rfl | rfl | rfl | rfl
  · exact (List.forall_iff_forall_mem.mp spares1) op hop
  · exact (List.forall_iff_forall_mem.mp spares1_1) op hop
  · exact (List.forall_iff_forall_mem.mp spares1_2) op hop
  · exact (List.forall_iff_forall_mem.mp spares1_3) op hop
  · exact (List.forall_iff_forall_mem.mp spares1_4) op hop

/-- The call's three arrays are the softmax, edge_value and the products. -/
theorem arrRef_0 : Pipeline.arrRef spec0 0 = main_v10 := rfl
theorem arrRef_1 : Pipeline.arrRef spec0 1 = main_arg1 := rfl
theorem arrRef_2 : Pipeline.arrRef spec0 2 = main_v17 := rfl

/-- No later operation writes an array of the call. -/
theorem later_keeps : ∀ ops ∈ (later : List (List (HloOp τ sig (Elt F)))), ∀ op ∈ ops,
    ∀ w, Proc.devRef .tc (Pipeline.arrRef spec0 w) ∉ op.writes := by
  intro ops hops op hop w
  obtain ⟨-, h1, -, h10, h17⟩ := later_spares ops hops op hop
  fin_cases w
  · exact h10
  · exact h1
  · exact h17

/-! ## The argument arrays, at the call and at the end -/

/-- A buffer no later operation writes is, after them, what the call left in it. -/
theorem after_later_of_spared {b : Ref sig .tc} (W : Valuation τ sig (Elt F))
    (h : ∀ ops ∈ (later : List (List (HloOp τ sig (Elt F)))), ∀ op ∈ ops, Proc.devRef .tc b ∉ op.writes) :
    StableHlo.after (later (F := F)).flatten W (Proc.devRef .tc b) = W (Proc.devRef .tc b) :=
  StableHlo.after_of_forall_not_mem _ _ fun op hop => by
    obtain ⟨ops, hops, hop'⟩ := List.mem_flatten.mp hop
    exact h ops hops op hop'

theorem V_main_arg0 (c : Dev nD) : V m c main_arg0 = m ((c : Thread nD τ).loc main_arg0) :=
  StableHlo.after_of_forall_not_mem (b := Proc.devRef .tc main_arg0) _ _ fun op hop =>
    ((List.forall_iff_forall_mem.mp spares0) op (by simpa only [List.flatten_cons, List.flatten_nil, List.append_nil] using hop)).1
theorem V_main_arg1 (c : Dev nD) : V m c main_arg1 = m ((c : Thread nD τ).loc main_arg1) :=
  StableHlo.after_of_forall_not_mem (b := Proc.devRef .tc main_arg1) _ _ fun op hop =>
    ((List.forall_iff_forall_mem.mp spares0) op (by simpa only [List.flatten_cons, List.flatten_nil, List.append_nil] using hop)).2.1
theorem V_main_arg2 (c : Dev nD) : V m c main_arg2 = m ((c : Thread nD τ).loc main_arg2) :=
  StableHlo.after_of_forall_not_mem (b := Proc.devRef .tc main_arg2) _ _ fun op hop =>
    ((List.forall_iff_forall_mem.mp spares0) op (by simpa only [List.flatten_cons, List.flatten_nil, List.append_nil] using hop)).2.2

/-- `main_arg0` is no array of the call and no later operation writes it: it ends as launched. -/
theorem W_main_arg0 (dats : (p : Fin 1) → (c : Dev nD) → Pipeline.Dat τ (Elt F) Unit ℕ (UR sig nD τ) ℕ (cfgs p) c) (c : Dev nD) :
    Pipeline.afterTail₀ cfgs dats 0 (V0 m) later c main_arg0 = m ((c : Thread nD τ).loc main_arg0) := by
  unfold Pipeline.afterTail₀
  rw [after_later_of_spared _ (fun ops hops op hop => (later_spares ops hops op hop).1),
    Pipeline.withArrays_of_ne _ c (V0 m c) _ main_arg0 (by exact (by decide : ∀ w, Pipeline.arrRef spec0 w ≠ main_arg0))]
  exact V_main_arg0 m c

/-- The same for `main_arg2`. -/
theorem W_main_arg2 (dats : (p : Fin 1) → (c : Dev nD) → Pipeline.Dat τ (Elt F) Unit ℕ (UR sig nD τ) ℕ (cfgs p) c) (c : Dev nD) :
    Pipeline.afterTail₀ cfgs dats 0 (V0 m) later c main_arg2 = m ((c : Thread nD τ).loc main_arg2) := by
  unfold Pipeline.afterTail₀
  rw [after_later_of_spared _ (fun ops hops op hop => (later_spares ops hops op hop).2.2.1),
    Pipeline.withArrays_of_ne _ c (V0 m c) _ main_arg2 (by exact (by decide : ∀ w, Pipeline.arrRef spec0 w ≠ main_arg2))]
  exact V_main_arg2 m c

end Cert.KernelIdeal.HostSides

end
-- ==== Proof.CombineRunI.lean ====
/-
  The one pallas call of `KernelIdeal`'s @main, run: what each grid point leaves, and the frame.

  The call has three windows over a grid of 25 points along the edge axis.  Window 0 is the whole 2 x 5 softmax
  (the same block at every point), window 1 is columns 80000 t .. 80000 t + 79999 of the 5 x 2000000 edge values,
  window 2 is the same columns of the 2 x 5 x 2000000 products, written back at every point.  The body loads the
  two input blocks whole, multiplies them entry by entry after laying the first along the edge axis and the second
  along the output-channel axis, and stores the result over the whole output block (it also loads the output
  block once, and does nothing with what it read).  So after the body the two input buffers hold their blocks
  unchanged and the output buffer holds the one stored piece, a function of the two input blocks alone; nothing is
  carried from one point to the next.  With that as the proof data, the launch theorem for a call followed by host
  operations gives the run of @main: at the end each staged array holds what the write-backs made of it and every
  other unscoped buffer holds what the later operations computed from the call's exit contents.  The frame follows:
  edge_value is a staged INPUT, so it ends at its entry contents, which no earlier operation wrote; the other two
  arguments bypass the call and no operation writes them.
-/
import proofs.«133797_j11905649344580_1_alg».proof.Proof.HostSidesI
import proofs.«133797_j11905649344580_1_alg».proof.Proof.Gen.KernelIdeal.Skeleton
import proofs.«133797_j11905649344580_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.CombineRun

open Cert.KernelIdeal Cert.KernelIdeal.Gen Cert.KernelIdeal.HostSides
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the previous point, and the body left the block in place.  Window 0
    (the softmax, fetched at the first point only): -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 (the edge values, fetched at every point): -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole output block, as the one rectangle the body stores through. -/
abbrev whole2 : Rect S2x5x80000 := Rect.unit (s := S2x5x80000) ![0, 0, 0] S2x5x80000.size inb_S2x5x80000_S2x5x80000_0_0_0
/-- The whole softmax block and the whole edge-value block, as the rectangles the body loads through. -/
abbrev whole0 : Rect S2x5 := Rect.unit (s := S2x5) ![0, 0] S2x5.size inb_S2x5_S2x5_0_0
abbrev whole1 : Rect S5x80000 := Rect.unit (s := S5x80000) ![0, 0] S5x80000.size inb_S5x80000_S5x80000_0_0

/-- The output buffer after the body: its one store, the products of the two loaded blocks. -/
def out2 (x0 : Vec F S2x5 .f32) (x1 : Vec F S5x80000 .f32) : Vec F S2x5x80000 .f32 :=
  View.canon [⟨whole2, k0_pay1 (View.ld x0 whole0) (View.ld x1 whole1)⟩]

/-- The one store covers the buffer. -/
theorem cover2 (p0 : Vec F S2x5x80000 .f32) (y : S2x5x80000.Idx) :
    ∃ pc ∈ ([⟨whole2, p0⟩] : List (View.Piece (Elt F) S2x5x80000 .f32)), y ∈ pc.1.set :=
  View.cover_of_tiled [⟨whole2, p0⟩] S2x5x80000.size (by rfl) y

/-! ## The body's triple -/

set_option maxHeartbeats 1000000 in
/-- The body on whole staging memrefs, the inputs' at contents `x0`, `x1` and the output's at anything, runs to the
    continuation with the inputs' as they were and the output's at `out2 x0 x1`. -/
theorem sound_kernel (c : Dev nD) (E : Set ℕ) (i : grid0.Coords)
    (arg1 : Memref sig .tc .vmem S2x5 .f32) (harg1 : arg1.IsWhole) (arg2 : Memref sig .tc .vmem S5x80000 .f32) (harg2 : arg2.IsWhole)
    (arg3 : Memref sig .tc .vmem S2x5x80000 .f32) (harg3 : arg3.IsWhole)
    (x0 : Vec F S2x5 .f32) (x1 : Vec F S5x80000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The proof data -/

/-- The proof data of the call on core `c`: the arrays as the call finds them; after the body at point `t` each input
    buffer at its block and the output buffer at `out2` of the two input blocks; the invariant the untouched scoped
    rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input memrefs hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and at the end each staged
    array holds what the write-backs made of it and every other unscoped buffer what the later operations computed
    from the call's exit contents. -/
theorem run_main : θ_run defs (onTc (τ := τ) (main (F := F))) (s₀ m ρ)
    (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c)⟩)
    (run_main m ρ)

end Cert.KernelIdeal.CombineRun

end
-- ==== Proof.ProductsValue.lean ====
/-
  What the call leaves in its output array: every product edge_value[c, e] * filt[o, c].

  At grid point t the body's one store holds, at block index (o, c, e), the product of the edge-value block at
  (c, e) and the softmax block at (o, c): the two broadcasts lay the first along the output-channel axis and the
  second along the edge axis, and the reshapes in front of them only add unit axes.  The edge-value block at point
  t is columns 80000 t .. 80000 t + 79999, the softmax block is the whole 2 x 5 array at every point, and the output
  block is the same columns of the 2 x 5 x 2000000 array; so what point t writes back is block t of ONE function of
  the two arrays the call found, G (o, c, e) = edge_value (c, e) * filt (o, c).  The 25 blocks tile the edge axis
  (column e lies in block e / 80000), every point writes back, and therefore after the call the output array is G.
-/
import proofs.«133797_j11905649344580_1_alg».proof.Proof.CombineRunI
import Idealize.ShloMosaic.Lib.ValueIdx
import Idealize.ShloMosaic.Lib.Pipeline.Value

set_option maxRecDepth 16384

noncomputable section

namespace Cert.KernelIdeal.Products

open Cert.KernelIdeal Cert.KernelIdeal.Gen Cert.KernelIdeal.HostSides Cert.KernelIdeal.CombineRun
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The products, as one function of the edge values and the softmax: entry (o, c, e) is ev (c, e) * filt (o, c). -/
abbrev G (ev : S5x2000000.Idx → Elt F .f32) (filt : S2x5.Idx → Elt F .f32) : S2x5x2000000.Idx → Elt F .f32 :=
  fun i => FloatOps.mulf (ev (ix2 (i 1) (i 2))) (filt (ix2 (i 0) (i 1)))

/-- The body's stored value at block index (o, k, e): the edge-value block at (k, e) times the softmax block at (o, k). -/
theorem pay_apply (x0 : Vec F S2x5 .f32) (x1 : Vec F S5x80000 .f32) (o : Fin 2) (k : Fin 5) (e : Fin 80000) :
    k0_pay1 x0 x1 (ix3 o k e) = FloatOps.mulf (x1 (ix2 k e)) (x0 (ix2 o k)) := by
  unfold k0_pay1
  refine congrArg₂ FloatOps.mulf ?_ ?_
  · refine (broadcastTo_apply _ _ (ix3 o k e) (ix3 (0 : Fin 1) k e)
      (fun a => by match a with | ⟨0, _⟩ => rfl | ⟨1, _⟩ => rfl | ⟨2, _⟩ => rfl)).trans ?_
    refine shapeCast_apply x1 _ (ix3 (0 : Fin 1) k e) (ix2 k e) ?_
    rw [Shape.rowMajor_val_two, Shape.rowMajor_val_three]
    show k.val * 80000 + e.val = ((0 : Nat) * 5 + k.val) * 80000 + e.val
    omega
  · refine (broadcastTo_apply _ _ (ix3 o k e) (ix3 o k (0 : Fin 1))
      (fun a => by match a with | ⟨0, _⟩ => rfl | ⟨1, _⟩ => rfl | ⟨2, _⟩ => rfl)).trans ?_
    refine (shapeCast_apply _ _ (ix3 o k (0 : Fin 1)) (ix2 o k) ?_).trans ?_
    · rw [Shape.rowMajor_val_two, Shape.rowMajor_val_three]
      show o.val * 5 + k.val = (o.val * 5 + k.val) * 1 + (0 : Nat)
      omega
    · exact congrFun (shapeCast_self x0 _) (ix2 o k)

/-- The printed index maps over the grid: the softmax block stays at (0, 0), the edge-value block is at (0, t), the
    output block at (0, 0, t). -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 3) = 0 ∧ win0_2.index t (1 : Fin 3) = 0 ∧ win0_2.index t (2 : Fin 3) = t.val :=
  (by decide +kernel : ∀ t : Fin grid0.N, _)

/-- What point `t` writes back is block `t` of `G` of the two arrays the call found. -/
theorem flushed_eq (c : Dev nD) (t : Fin cfg0.N) :
    (dats m 0 c).flushed 2 t = ((cfg0.win 2).blk t).view.read (Elt F) (G (V m c main_arg1) (V m c main_v10)) := by
  show (cfg0.win 2).cut (grid0.coords t) ((dats m 0 c).after 2 t) = _
  rw [after2]
  unfold out2
  rw [View.canon_unit_zero zeros3]
  simp only [View.ld_unit_zero (S := S2x5) zeros2, View.ld_unit_zero (S := S5x80000) zeros2]
  obtain ⟨e0, e1, e2, e3, e4, e5, e6⟩ := idx_facts t
  funext j
  obtain ⟨o, k, e, rfl⟩ : ∃ (o : Fin 2) (k : Fin 5) (e : Fin 80000), j = ix3 o k e := ⟨j 0, j 1, j 2, eq_ix3 j⟩
  refine (pay_apply (iblk m c 0 t) (iblk m c 1 t) o k e).trans ?_
  show FloatOps.mulf (V m c main_arg1 (((cfg0.win 1).blk t).view.emb (ix2 k e))) (V m c main_v10 (((cfg0.win 0).blk t).view.emb (ix2 o k)))
    = FloatOps.mulf (V m c main_arg1 (ix2 ((((cfg0.win 2).blk t).view.emb (ix3 o k e)) 1) ((((cfg0.win 2).blk t).view.emb (ix3 o k e)) 2)))
        (V m c main_v10 (ix2 ((((cfg0.win 2).blk t).view.emb (ix3 o k e)) 0) ((((cfg0.win 2).blk t).view.emb (ix3 o k e)) 1)))
  have h1 : ((cfg0.win 1).blk t).view.emb (ix2 k e)
      = ix2 ((((cfg0.win 2).blk t).view.emb (ix3 o k e)) 1) ((((cfg0.win 2).blk t).view.emb (ix3 o k e)) 2) := by
    funext a; apply Fin.ext
    match a with
    | ⟨0, _⟩ => show win0_1.index t (0 : Fin 2) * 5 + 1 * k.val = win0_2.index t (1 : Fin 3) * 5 + 1 * k.val; omega
    | ⟨1, _⟩ => show win0_1.index t (1 : Fin 2) * 80000 + 1 * e.val = win0_2.index t (2 : Fin 3) * 80000 + 1 * e.val; omega
  have h0 : ((cfg0.win 0).blk t).view.emb (ix2 o k)
      = ix2 ((((cfg0.win 2).blk t).view.emb (ix3 o k e)) 0) ((((cfg0.win 2).blk t).view.emb (ix3 o k e)) 1) := by
    funext a; apply Fin.ext
    match a with
    | ⟨0, _⟩ => show win0_0.index t (0 : Fin 2) * 2 + 1 * o.val = win0_2.index t (0 : Fin 3) * 2 + 1 * o.val; omega
    | ⟨1, _⟩ => show win0_0.index t (1 : Fin 2) * 5 + 1 * k.val = win0_2.index t (1 : Fin 3) * 5 + 1 * k.val; omega
  rw [h1, h0] <;> rfl

/-- An index of the output array is in point `t`'s block iff each coordinate is in the block's range on its axis. -/
theorem mem_blk (t : Fin cfg0.N) (i : S2x5x2000000.Idx) :
    i ∈ ((cfg0.win 2).blk t).view.set ↔ ∀ a : Fin 3, win0_2.index t a * S2x5x80000.size a ≤ (i a).val
      ∧ (i a).val < win0_2.index t a * S2x5x80000.size a + S2x5x80000.size a := by
  show i ∈ ((View.whole main_v17).slice (win0_2.rect t)).set ↔ _
  rw [View.set_slice_whole, Rect.mem_set_unit]
  exact Iff.rfl

/-- Every index of the output array lies in the block of the point its edge coordinate falls in. -/
theorem cover (i : S2x5x2000000.Idx) : ∃ t : Fin cfg0.N, (cfg0.win 2).flush t = true ∧ i ∈ ((cfg0.win 2).blk t).view.set := by
  have hi0 : (i 0).val < 2 := (i 0).isLt
  have hi1 : (i 1).val < 5 := (i 1).isLt
  have hi2 : (i 2).val < 2000000 := (i 2).isLt
  have hN : cfg0.N = 25 := N_0
  have ht : (i 2).val / 80000 < cfg0.N := by rw [hN]; omega
  refine ⟨⟨(i 2).val / 80000, ht⟩, flush0_2 _, ?_⟩
  rw [mem_blk]
  obtain ⟨-, -, -, -, e4, e5, e6⟩ := idx_facts ⟨(i 2).val / 80000, ht⟩
  intro a
  match a with
  | ⟨0, _⟩ => show win0_2.index ⟨(i 2).val / 80000, ht⟩ (0 : Fin 3) * 2 ≤ (i 0).val ∧ (i 0).val < win0_2.index ⟨(i 2).val / 80000, ht⟩ (0 : Fin 3) * 2 + 2; omega
  | ⟨1, _⟩ => show win0_2.index ⟨(i 2).val / 80000, ht⟩ (1 : Fin 3) * 5 ≤ (i 1).val ∧ (i 1).val < win0_2.index ⟨(i 2).val / 80000, ht⟩ (1 : Fin 3) * 5 + 5; omega
  | ⟨2, _⟩ =>
    show win0_2.index ⟨(i 2).val / 80000, ht⟩ (2 : Fin 3) * 80000 ≤ (i 2).val ∧ (i 2).val < win0_2.index ⟨(i 2).val / 80000, ht⟩ (2 : Fin 3) * 80000 + 80000
    have e6' : win0_2.index ⟨(i 2).val / 80000, ht⟩ (2 : Fin 3) = (i 2).val / 80000 := e6
    omega

/-- After the call the output array holds the products of the edge values and the softmax the call found. -/
theorem final (c : Dev nD) : (dats m 0 c).arrAt 2 cfg0.N = G (V m c main_arg1) (V m c main_v10) :=
  (dats m 0 c).arrAt_eq_of_cover 2 (G (V m c main_arg1) (V m c main_v10)) (fun t _ => flushed_eq m c t) cover

end Cert.KernelIdeal.Products

end
-- ==== Proof.KernelNamed.lean ====
/-
  The idealized kernel's run with its three results named.

  At the end of @main each result buffer (the coalesced rows, the coalesced columns, the summed values) is an
  unscoped buffer that is no array of the call, so it holds what the seventy-seven later operations compute from the
  contents the call leaves: the staged arrays at what the write-backs made of them, in particular the output array at
  the products (edge_value (c, e) * filt (o, c)), and every other buffer at what the twenty earlier operations left.
-/
import proofs.«133797_j11905649344580_1_alg».proof.Proof.ProductsValue

noncomputable section

namespace Cert.KernelIdeal.Named

open Cert.KernelIdeal Cert.KernelIdeal.Gen Cert.KernelIdeal.HostSides Cert.KernelIdeal.CombineRun Cert.KernelIdeal.Products
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Core `c`'s buffer contents when the call returns: the staged arrays as the write-backs left them, every other
    buffer as the earlier operations left it. -/
abbrev exit (c : Dev nD) : Valuation τ sig (Elt F) :=
  Pipeline.withArrays spec0 c (V0 m c) fun w => (dats m 0 c).arrAt w cfg0.N

/-- The contents of buffer `b` at the end of @main: the later operations, folded over the call's exit contents. -/
abbrev last (c : Dev nD) (b : Ref sig .tc) : Buf (Elt F) ((c.tc : Thread nD τ).loc b) :=
  StableHlo.after (later (F := F)).flatten (exit m c) (Proc.devRef .tc b)

/-- At the call's exit the output array holds the products. -/
theorem exit_v17 (c : Dev nD) : exit m c (Proc.devRef .tc main_v17) = G (V m c main_arg1) (V m c main_v10) :=
  (Pipeline.withArrays_arr spec0 launch0.win.arr_inj c (V0 m c) _ 2).trans (final m c)

/-- The two flattened index columns bypass the call. -/
theorem exit_v13 (c : Dev nD) : exit m c (Proc.devRef .tc main_v13) = V m c main_v13 :=
  Pipeline.withArrays_of_ne _ c (V0 m c) _ main_v13 (by exact (by decide : ∀ w, Pipeline.arrRef spec0 w ≠ main_v13))
theorem exit_v16 (c : Dev nD) : exit m c (Proc.devRef .tc main_v16) = V m c main_v16 :=
  Pipeline.withArrays_of_ne _ c (V0 m c) _ main_v16 (by exact (by decide : ∀ w, Pipeline.arrRef spec0 w ≠ main_v16))

/-- Every weakly fair execution of @main terminates with the three results at what the later operations compute from
    the call's exit contents, and the arguments unchanged. -/
theorem run : θ_run defs (onTc (τ := τ) (main (F := F))) ⟨m, fun _ => 0, ρ⟩ fun r => ∀ c : Dev nD,
      r.2.mem ((c.tc : Thread nD τ).loc main_v65) = last m c main_v65
      ∧ r.2.mem ((c.tc : Thread nD τ).loc main_v73) = last m c main_v73
      ∧ r.2.mem ((c.tc : Thread nD τ).loc main_v74) = last m c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).2 main_v65 (Pipeline.mem_restRefs_of main_v65 (by decide) (by decide)),
     (h c).2 main_v73 (Pipeline.mem_restRefs_of main_v73 (by decide) (by decide)),
     (h c).2 main_v74 (Pipeline.mem_restRefs_of main_v74 (by decide) (by decide)),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c)⟩)
    (run_main m ρ)

end Cert.KernelIdeal.Named

end
-- ==== Proof.RefRun.lean ====
/- The reference program's @main as the list of its host operations, in program order, and its run read back.
   @main is a straight line of StableHLO operations with two calls: @lexsort (an iota and the three results of one
   stable sort under the lexicographic comparator) and @cumsum, which only calls @cumsum_0 (a zero, its broadcast,
   and a windowed sum whose window reaches back over every earlier element). A call executes the callee's body on
   the operands, so the straight line lists the callee's operations at the call site, over that call's own buffers.
   Every weakly fair execution of @main terminates, and each TensorCore buffer then holds the fold of the
   operations' results over the contents the launch found; no operation writes one of the three argument arrays,
   so each of them ends as it began. -/
import proofs.«133797_j11905649344580_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's first 25 operations, in program order: the softmax of the 2x5 filter over its second axis, the two index
    planes of the 5x2x2000000 array flattened to 10000000 keys each, and the values as a 2x5x2000000 array: the
    5x2000000 array and the softmaxed filter, each broadcast to that shape, multiplied elementwise (`main_v21`). -/
abbrev opsHead : List (HloOp τ sig (Elt F)) :=
  [ StableHlo.nullary main_cst (constant S_ .f32 0xFF800000#32),
    StableHlo.binary main_arg2 main_cst main_v0 ((fun x v => Host.reduce FloatOps.maximumf x v reducesTo_S2x5_S2_d1 h_S_) : (⟨S2x5, .f32⟩ : BufTy).Contents (Elt F) → (⟨S_, .f32⟩ : BufTy).Contents (Elt F) → (⟨S2, .f32⟩ : BufTy).Contents (Elt F)),
    StableHlo.nullary main_cst_0 (constant S_ .f32 0xFF800000#32),
    StableHlo.unary main_cst_0 main_v1 (broadcastInDim S2 ![] bcast_S_S2 : (⟨S_, .f32⟩ : BufTy).Contents (Elt F) → (⟨S2, .f32⟩ : BufTy).Contents (Elt F)),
    StableHlo.binary main_v1 main_v0 main_v2 (maximumf : (⟨S2, .f32⟩ : BufTy).Contents (Elt F) → (⟨S2, .f32⟩ : BufTy).Contents (Elt F) → (⟨S2, .f32⟩ : BufTy).Contents (Elt F)),
    StableHlo.unary main_v2 main_v3 (broadcastInDim S2x1 ![0] bcast_S2_S2x1_0 : (⟨S2, .f32⟩ : BufTy).Contents (Elt F) → (⟨S2x1, .f32⟩ : BufTy).Contents (Elt F)),
    StableHlo.unary main_v3 main_v4 (broadcastInDim S2x5 ![0, 1] bcast_S2x1_S2x5_0_1 : (⟨S2x1, .f32⟩ : BufTy).Contents (Elt F) → (⟨S2x5, .f32⟩ : BufTy).Contents (Elt F)),
    StableHlo.binary main_arg2 main_v4 main_v5 (subf : (⟨S2x5, .f32⟩ : BufTy).Contents (Elt F) → (⟨S2x5, .f32⟩ : BufTy).Contents (Elt F) → (⟨S2x5, .f32⟩ : BufTy).Contents (Elt F)),
    StableHlo.unary main_v5 main_v6 (Host.exp : (⟨S2x5, .f32⟩ : BufTy).Contents (Elt F) → (⟨S2x5, .f32⟩ : BufTy).Contents (Elt F)),
    StableHlo.nullary main_cst_1 (constant S_ .f32 0x00000000#32),
    StableHlo.binary main_v6 main_cst_1 main_v7 ((fun x v => Host.reduceAdd x v reducesTo_S2x5_S2_d1 h_S_) : (⟨S2x5, .f32⟩ : BufTy).Contents (Elt F) → (⟨S_, .f32⟩ : BufTy).Contents (Elt F) → (⟨S2, .f32⟩ : BufTy).Contents (Elt F)),
    StableHlo.unary main_v7 main_v8 (broadcastInDim S2x1 ![0] bcast_S2_S2x1_0 : (⟨S2, .f32⟩ : BufTy).Contents (Elt F) → (⟨S2x1, .f32⟩ : BufTy).Contents (Elt F)),
    StableHlo.unary main_v8 main_v9 (broadcastInDim S2x5 ![0, 1] bcast_S2x1_S2x5_0_1 : (⟨S2x1, .f32⟩ : BufTy).Contents (Elt F) → (⟨S2x5, .f32⟩ : BufTy).Contents (Elt F)),
    StableHlo.binary main_v6 main_v9 main_v10 (Host.divf : (⟨S2x5, .f32⟩ : BufTy).Contents (Elt F) → (⟨S2x5, .f32⟩ : BufTy).Contents (Elt F) → (⟨S2x5, .f32⟩ : BufTy).Contents (Elt F)),
    StableHlo.unary main_arg0 main_v11 ((extractStridedSlice S5x1x2000000 ![0, 0, 0] · slices_S5x2x2000000_S5x1x2000000_0_0_0) : (⟨S5x2x2000000, .i32⟩ : BufTy).Contents (Elt F) → (⟨S5x1x2000000, .i32⟩ : BufTy).Contents (Elt F)),
    StableHlo.reshape main_v11 main_v12 rfl shapeCasts_S5x1x2000000_S5x2000000,
    StableHlo.reshape main_v12 main_v13 rfl shapeCasts_S5x2000000_S10000000,
    StableHlo.unary main_arg0 main_v14 ((extractStridedSlice S5x1x2000000 ![0, 1, 0] · slices_S5x2x2000000_S5x1x2000000_0_1_0) : (⟨S5x2x2000000, .i32⟩ : BufTy).Contents (Elt F) → (⟨S5x1x2000000, .i32⟩ : BufTy).Contents (Elt F)),
    StableHlo.reshape main_v14 main_v15 rfl shapeCasts_S5x1x2000000_S5x2000000,
    StableHlo.reshape main_v15 main_v16 rfl shapeCasts_S5x2000000_S10000000,
    StableHlo.unary main_arg1 main_v17 (broadcastInDim S1x5x2000000 ![1, 2] bcast_S5x2000000_S1x5x2000000_1_2 : (⟨S5x2000000, .f32⟩ : BufTy).Contents (Elt F) → (⟨S1x5x2000000, .f32⟩ : BufTy).Contents (Elt F)),
    StableHlo.unary main_v10 main_v18 (broadcastInDim S2x5x1 ![0, 1] bcast_S2x5_S2x5x1_0_1 : (⟨S2x5, .f32⟩ : BufTy).Contents (Elt F) → (⟨S2x5x1, .f32⟩ : BufTy).Contents (Elt F)),
    StableHlo.unary main_v17 main_v19 (broadcastInDim S2x5x2000000 ![0, 1, 2] bcast_S1x5x2000000_S2x5x2000000_0_1_2 : (⟨S1x5x2000000, .f32⟩ : BufTy).Contents (Elt F) → (⟨S2x5x2000000, .f32⟩ : BufTy).Contents (Elt F)),
    StableHlo.unary main_v18 main_v20 (broadcastInDim S2x5x2000000 ![0, 1, 2] bcast_S2x5x1_S2x5x2000000_0_1_2 : (⟨S2x5x1, .f32⟩ : BufTy).Contents (Elt F) → (⟨S2x5x2000000, .f32⟩ : BufTy).Contents (Elt F)),
    StableHlo.binary main_v19 main_v20 main_v21 (mulf : (⟨S2x5x2000000, .f32⟩ : BufTy).Contents (Elt F) → (⟨S2x5x2000000, .f32⟩ : BufTy).Contents (Elt F) → (⟨S2x5x2000000, .f32⟩ : BufTy).Contents (Elt F)) ]

/-- the 77 operations after them, in program order, the three called functions' operations inline at their call
    sites: the values flattened to 2x10000000; the 4 of @lexsort on the two key vectors; 38 of @main (the sorted order
    applied to both key vectors and to the values by three gathers, a negative index first wrapped by the length; then
    the mark of each position whose key pair differs from its predecessor's, the first position marked); the 3 of
    @cumsum's call of @cumsum_0 on the marks; and 31 of @main (the running count less one is each position's segment;
    the values are summed by segment with a scatter-add into zeros, and each key vector is scattered by segment into
    zeros, the later write winning). -/
abbrev opsTail : List (HloOp τ sig (Elt F)) :=
  ( StableHlo.reshape main_v21 main_v22 rfl shapeCasts_S2x5x2000000_S2x10000000
  :: StableHlo.TRef.nullary (.of main_call0_v0 : StableHlo.TRef sig ⟨S10000000, .i32⟩) (iotaInDim S10000000 32 0)
  :: StableHlo.TRef.ternary (.of main_v13 : StableHlo.TRef sig ⟨S10000000, .i32⟩) (.of main_v16 : StableHlo.TRef sig ⟨S10000000, .i32⟩) (.of main_call0_v0 : StableHlo.TRef sig ⟨S10000000, .i32⟩) (.of main_call0_v1_0 : StableHlo.TRef sig ⟨S10000000, .i32⟩) (fun x y z => (Host.sort3 S10000000 0 comparator_i32_i32_i32_d0 x y z).1)
  :: StableHlo.TRef.ternary (.of main_v13 : StableHlo.TRef sig ⟨S10000000, .i32⟩) (.of main_v16 : StableHlo.TRef sig ⟨S10000000, .i32⟩) (.of main_call0_v0 : StableHlo.TRef sig ⟨S10000000, .i32⟩) (.of main_call0_v1_1 : StableHlo.TRef sig ⟨S10000000, .i32⟩) (fun x y z => (Host.sort3 S10000000 0 comparator_i32_i32_i32_d0 x y z).2.1)
  :: StableHlo.TRef.ternary (.of main_v13 : StableHlo.TRef sig ⟨S10000000, .i32⟩) (.of main_v16 : StableHlo.TRef sig ⟨S10000000, .i32⟩) (.of main_call0_v0 : StableHlo.TRef sig ⟨S10000000, .i32⟩) (.of main_v23 : StableHlo.TRef sig ⟨S10000000, .i32⟩) (fun x y z => (Host.sort3 S10000000 0 comparator_i32_i32_i32_d0 x y z).2.2)
  :: StableHlo.nullary main_c (constantI S_ 32 0#32)
  :: StableHlo.unary main_c main_v24 (broadcastInDim S10000000 ![] bcast_S_S10000000 : (⟨S_, .i32⟩ : BufTy).Contents (Elt F) → (⟨S10000000, .i32⟩ : BufTy).Contents (Elt F))
  :: StableHlo.binary main_v23 main_v24 main_v25 (cmpi .slt : (⟨S10000000, .i32⟩ : BufTy).Contents (Elt F) → (⟨S10000000, .i32⟩ : BufTy).Contents (Elt F) → (⟨S10000000, .i1⟩ : BufTy).Contents (Elt F))
  :: StableHlo.nullary main_c_2 (constantI S_ 32 10000000#32)
  :: StableHlo.unary main_c_2 main_v26 (broadcastInDim S10000000 ![] bcast_S_S10000000 : (⟨S_, .i32⟩ : BufTy).Contents (Elt F) → (⟨S10000000, .i32⟩ : BufTy).Contents (Elt F))
  :: StableHlo.binary main_v23 main_v26 main_v27 (addi : (⟨S10000000, .i32⟩ : BufTy).Contents (Elt F) → (⟨S10000000, .i32⟩ : BufTy).Contents (Elt F) → (⟨S10000000, .i32⟩ : BufTy).Contents (Elt F))
  :: StableHlo.ternary main_v25 main_v27 main_v23 main_v28 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v28 main_v29 (broadcastInDim S10000000x1 ![0] bcast_S10000000_S10000000x1_0 : (⟨S10000000, .i32⟩ : BufTy).Contents (Elt F) → (⟨S10000000x1, .i32⟩ : BufTy).Contents (Elt F))
  :: StableHlo.binary main_v13 main_v29 main_v30 ((fun x i => Host.gather gather_S10000000_S10000000x1_S10000000_n_0_n_n_0_1_1 x i) : (⟨S10000000, .i32⟩ : BufTy).Contents (Elt F) → (⟨S10000000x1, .i32⟩ : BufTy).Contents (Elt F) → (⟨S10000000, .i32⟩ : BufTy).Contents (Elt F))
  :: StableHlo.nullary main_c_3 (constantI S_ 32 0#32)
  :: StableHlo.unary main_c_3 main_v31 (broadcastInDim S10000000 ![] bcast_S_S10000000 : (⟨S_, .i32⟩ : BufTy).Contents (Elt F) → (⟨S10000000, .i32⟩ : BufTy).Contents (Elt F))
  :: StableHlo.binary main_v23 main_v31 main_v32 (cmpi .slt : (⟨S10000000, .i32⟩ : BufTy).Contents (Elt F) → (⟨S10000000, .i32⟩ : BufTy).Contents (Elt F) → (⟨S10000000, .i1⟩ : BufTy).Contents (Elt F))
  :: StableHlo.nullary main_c_4 (constantI S_ 32 10000000#32)
  :: StableHlo.unary main_c_4 main_v33 (broadcastInDim S10000000 ![] bcast_S_S10000000 : (⟨S_, .i32⟩ : BufTy).Contents (Elt F) → (⟨S10000000, .i32⟩ : BufTy).Contents (Elt F))
  :: StableHlo.binary main_v23 main_v33 main_v34 (addi : (⟨S10000000, .i32⟩ : BufTy).Contents (Elt F) → (⟨S10000000, .i32⟩ : BufTy).Contents (Elt F) → (⟨S10000000, .i32⟩ : BufTy).Contents (Elt F))
  :: StableHlo.ternary main_v32 main_v34 main_v23 main_v35 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v35 main_v36 (broadcastInDim S10000000x1 ![0] bcast_S10000000_S10000000x1_0 : (⟨S10000000, .i32⟩ : BufTy).Contents (Elt F) → (⟨S10000000x1, .i32⟩ : BufTy).Contents (Elt F))
  :: StableHlo.binary main_v16 main_v36 main_v37 ((fun x i => Host.gather gather_S10000000_S10000000x1_S10000000_n_0_n_n_0_1_1 x i) : (⟨S10000000, .i32⟩ : BufTy).Contents (Elt F) → (⟨S10000000x1, .i32⟩ : BufTy).Contents (Elt F) → (⟨S10000000, .i32⟩ : BufTy).Contents (Elt F))
  :: StableHlo.nullary main_c_5 (constantI S_ 32 0#32)
  :: StableHlo.unary main_c_5 main_v38 (broadcastInDim S10000000 ![] bcast_S_S10000000 : (⟨S_, .i32⟩ : BufTy).Contents (Elt F) → (⟨S10000000, .i32⟩ : BufTy).Contents (Elt F))
  :: StableHlo.binary main_v23 main_v38 main_v39 (cmpi .slt : (⟨S10000000, .i32⟩ : BufTy).Contents (Elt F) → (⟨S10000000, .i32⟩ : BufTy).Contents (Elt F) → (⟨S10000000, .i1⟩ : BufTy).Contents (Elt F))
  :: StableHlo.nullary main_c_6 (constantI S_ 32 10000000#32)
  :: StableHlo.unary main_c_6 main_v40 (broadcastInDim S10000000 ![] bcast_S_S10000000 : (⟨S_, .i32⟩ : BufTy).Contents (Elt F) → (⟨S10000000, .i32⟩ : BufTy).Contents (Elt F))
  :: StableHlo.binary main_v23 main_v40 main_v41 (addi : (⟨S10000000, .i32⟩ : BufTy).Contents (Elt F) → (⟨S10000000, .i32⟩ : BufTy).Contents (Elt F) → (⟨S10000000, .i32⟩ : BufTy).Contents (Elt F))
  :: StableHlo.ternary main_v39 main_v41 main_v23 main_v42 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v42 main_v43 (broadcastInDim S10000000x1 ![0] bcast_S10000000_S10000000x1_0 : (⟨S10000000, .i32⟩ : BufTy).Contents (Elt F) → (⟨S10000000x1, .i32⟩ : BufTy).Contents (Elt F))
  :: StableHlo.binary main_v22 main_v43 main_v44 ((fun x i => Host.gather gather_S2x10000000_S10000000x1_S2x10000000_0_1_n_n_1_1_21 x i) : (⟨S2x10000000, .f32⟩ : BufTy).Contents (Elt F) → (⟨S10000000x1, .i32⟩ : BufTy).Contents (Elt F) → (⟨S2x10000000, .f32⟩ : BufTy).Contents (Elt F))
  :: StableHlo.nullary main_c_7 (constantI S_ 1 1#1)
  :: StableHlo.unary main_c_7 main_v45 (broadcastInDim S1 ![] bcast_S_S1 : (⟨S_, .i1⟩ : BufTy).Contents (Elt F) → (⟨S1, .i1⟩ : BufTy).Contents (Elt F))
  :: StableHlo.unary main_v30 main_v46 ((extractStridedSlice S9999999 ![1] · slices_S10000000_S9999999_1) : (⟨S10000000, .i32⟩ : BufTy).Contents (Elt F) → (⟨S9999999, .i32⟩ : BufTy).Contents (Elt F))
  :: StableHlo.unary main_v30 main_v47 ((extractStridedSlice S9999999 ![0] · slices_S10000000_S9999999_0) : (⟨S10000000, .i32⟩ : BufTy).Contents (Elt F) → (⟨S9999999, .i32⟩ : BufTy).Contents (Elt F))
  :: StableHlo.binary main_v46 main_v47 main_v48 (cmpi .ne : (⟨S9999999, .i32⟩ : BufTy).Contents (Elt F) → (⟨S9999999, .i32⟩ : BufTy).Contents (Elt F) → (⟨S9999999, .i1⟩ : BufTy).Contents (Elt F))
  :: StableHlo.unary main_v37 main_v49 ((extractStridedSlice S9999999 ![1] · slices_S10000000_S9999999_1) : (⟨S10000000, .i32⟩ : BufTy).Contents (Elt F) → (⟨S9999999, .i32⟩ : BufTy).Contents (Elt F))
  :: StableHlo.unary main_v37 main_v50 ((extractStridedSlice S9999999 ![0] · slices_S10000000_S9999999_0) : (⟨S10000000, .i32⟩ : BufTy).Contents (Elt F) → (⟨S9999999, .i32⟩ : BufTy).Contents (Elt F))
  :: StableHlo.binary main_v49 main_v50 main_v51 (cmpi .ne : (⟨S9999999, .i32⟩ : BufTy).Contents (Elt F) → (⟨S9999999, .i32⟩ : BufTy).Contents (Elt F) → (⟨S9999999, .i1⟩ : BufTy).Contents (Elt F))
  :: StableHlo.binary main_v48 main_v51 main_v52 (ori : (⟨S9999999, .i1⟩ : BufTy).Contents (Elt F) → (⟨S9999999, .i1⟩ : BufTy).Contents (Elt F) → (⟨S9999999, .i1⟩ : BufTy).Contents (Elt F))
  :: StableHlo.binary main_v45 main_v52 main_v53 ((fun a b => concatenate S10000000 0 [⟨S1, a⟩, ⟨S9999999, b⟩] concatenates_S1_S9999999_S10000000_d0) : (⟨S1, .i1⟩ : BufTy).Contents (Elt F) → (⟨S9999999, .i1⟩ : BufTy).Contents (Elt F) → (⟨S10000000, .i1⟩ : BufTy).Contents (Elt F))
  :: StableHlo.unary main_v53 main_v54 ((extui 32 · natLt_1_32) : (⟨S10000000, .i1⟩ : BufTy).Contents (Elt F) → (⟨S10000000, .i32⟩ : BufTy).Contents (Elt F))
  :: StableHlo.TRef.nullary (.of main_call1_call0_c : StableHlo.TRef sig ⟨S_, .i32⟩) (constantI S_ 32 0#32)
  :: StableHlo.TRef.unary (.of main_call1_call0_c : StableHlo.TRef sig ⟨S_, .i32⟩) (.of main_call1_call0_v0 : StableHlo.TRef sig ⟨S_, .i32⟩) (broadcastInDim S_ ![] bcast_S_S_)
  :: StableHlo.TRef.binary (.of main_v54 : StableHlo.TRef sig ⟨S10000000, .i32⟩) (.of main_call1_call0_v0 : StableHlo.TRef sig ⟨S_, .i32⟩) (.of main_v55 : StableHlo.TRef sig ⟨S10000000, .i32⟩) (fun x v => Host.reduceWindow IntOp.addi ![10000000] ![1] ![9999999] ![0] x v reduceWindows_S10000000_S10000000_w10000000s1p9999999_0 h_S_)
  :: StableHlo.nullary main_c_8 (constantI S_ 32 1#32)
  :: StableHlo.unary main_c_8 main_v56 (broadcastInDim S10000000 ![] bcast_S_S10000000 : (⟨S_, .i32⟩ : BufTy).Contents (Elt F) → (⟨S10000000, .i32⟩ : BufTy).Contents (Elt F))
  :: StableHlo.binary main_v55 main_v56 main_v57 (subi : (⟨S10000000, .i32⟩ : BufTy).Contents (Elt F) → (⟨S10000000, .i32⟩ : BufTy).Contents (Elt F) → (⟨S10000000, .i32⟩ : BufTy).Contents (Elt F))
  :: StableHlo.unary main_v44 main_v58 ((transpose S10000000x2 [1, 0] · transposes_S2x10000000_S10000000x2_1_0) : (⟨S2x10000000, .f32⟩ : BufTy).Contents (Elt F) → (⟨S10000000x2, .f32⟩ : BufTy).Contents (Elt F))
  :: StableHlo.nullary main_cst_9 (constant S_ .f32 0x00000000#32)
  :: StableHlo.unary main_cst_9 main_v59 (broadcastInDim S10000000x2 ![] bcast_S_S10000000x2 : (⟨S_, .f32⟩ : BufTy).Contents (Elt F) → (⟨S10000000x2, .f32⟩ : BufTy).Contents (Elt F))
  :: StableHlo.unary main_v57 main_v60 (broadcastInDim S10000000x1 ![0] bcast_S10000000_S10000000x1_0 : (⟨S10000000, .i32⟩ : BufTy).Contents (Elt F) → (⟨S10000000x1, .i32⟩ : BufTy).Contents (Elt F))
  :: StableHlo.ternary main_v59 main_v60 main_v58 main_v61 ((fun x i u => Host.scatterAdd scatter_S10000000x2_S10000000x1_S10000000x2_1_0_0_1 x i u) : (⟨S10000000x2, .f32⟩ : BufTy).Contents (Elt F) → (⟨S10000000x1, .i32⟩ : BufTy).Contents (Elt F) → (⟨S10000000x2, .f32⟩ : BufTy).Contents (Elt F) → (⟨S10000000x2, .f32⟩ : BufTy).Contents (Elt F))
  :: StableHlo.nullary main_c_10 (constantI S_ 32 0#32)
  :: StableHlo.unary main_c_10 main_v62 (broadcastInDim S10000000 ![] bcast_S_S10000000 : (⟨S_, .i32⟩ : BufTy).Contents (Elt F) → (⟨S10000000, .i32⟩ : BufTy).Contents (Elt F))
  :: StableHlo.nullary main_c_11 (constantI S_ 32 0#32)
  :: StableHlo.unary main_c_11 main_v63 (broadcastInDim S10000000 ![] bcast_S_S10000000 : (⟨S_, .i32⟩ : BufTy).Contents (Elt F) → (⟨S10000000, .i32⟩ : BufTy).Contents (Elt F))
  :: StableHlo.binary main_v57 main_v63 main_v64 (cmpi .slt : (⟨S10000000, .i32⟩ : BufTy).Contents (Elt F) → (⟨S10000000, .i32⟩ : BufTy).Contents (Elt F) → (⟨S10000000, .i1⟩ : BufTy).Contents (Elt F))
  :: StableHlo.nullary main_c_12 (constantI S_ 32 10000000#32)
  :: StableHlo.unary main_c_12 main_v65 (broadcastInDim S10000000 ![] bcast_S_S10000000 : (⟨S_, .i32⟩ : BufTy).Contents (Elt F) → (⟨S10000000, .i32⟩ : BufTy).Contents (Elt F))
  :: StableHlo.binary main_v57 main_v65 main_v66 (addi : (⟨S10000000, .i32⟩ : BufTy).Contents (Elt F) → (⟨S10000000, .i32⟩ : BufTy).Contents (Elt F) → (⟨S10000000, .i32⟩ : BufTy).Contents (Elt F))
  :: StableHlo.ternary main_v64 main_v66 main_v57 main_v67 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v67 main_v68 (broadcastInDim S10000000x1 ![0] bcast_S10000000_S10000000x1_0 : (⟨S10000000, .i32⟩ : BufTy).Contents (Elt F) → (⟨S10000000x1, .i32⟩ : BufTy).Contents (Elt F))
  :: StableHlo.ternary main_v62 main_v68 main_v30 main_v69 ((fun x i u => Host.scatter scatter_S10000000_S10000000x1_S10000000_n_0_0_1 (fun _ b => b) x i u) : (⟨S10000000, .i32⟩ : BufTy).Contents (Elt F) → (⟨S10000000x1, .i32⟩ : BufTy).Contents (Elt F) → (⟨S10000000, .i32⟩ : BufTy).Contents (Elt F) → (⟨S10000000, .i32⟩ : BufTy).Contents (Elt F))
  :: StableHlo.nullary main_c_13 (constantI S_ 32 0#32)
  :: StableHlo.unary main_c_13 main_v70 (broadcastInDim S10000000 ![] bcast_S_S10000000 : (⟨S_, .i32⟩ : BufTy).Contents (Elt F) → (⟨S10000000, .i32⟩ : BufTy).Contents (Elt F))
  :: StableHlo.nullary main_c_14 (constantI S_ 32 0#32)
  :: StableHlo.unary main_c_14 main_v71 (broadcastInDim S10000000 ![] bcast_S_S10000000 : (⟨S_, .i32⟩ : BufTy).Contents (Elt F) → (⟨S10000000, .i32⟩ : BufTy).Contents (Elt F))
  :: StableHlo.binary main_v57 main_v71 main_v72 (cmpi .slt : (⟨S10000000, .i32⟩ : BufTy).Contents (Elt F) → (⟨S10000000, .i32⟩ : BufTy).Contents (Elt F) → (⟨S10000000, .i1⟩ : BufTy).Contents (Elt F))
  :: StableHlo.nullary main_c_15 (constantI S_ 32 10000000#32)
  :: StableHlo.unary main_c_15 main_v73 (broadcastInDim S10000000 ![] bcast_S_S10000000 : (⟨S_, .i32⟩ : BufTy).Contents (Elt F) → (⟨S10000000, .i32⟩ : BufTy).Contents (Elt F))
  :: StableHlo.binary main_v57 main_v73 main_v74 (addi : (⟨S10000000, .i32⟩ : BufTy).Contents (Elt F) → (⟨S10000000, .i32⟩ : BufTy).Contents (Elt F) → (⟨S10000000, .i32⟩ : BufTy).Contents (Elt F))
  :: StableHlo.ternary main_v72 main_v74 main_v57 main_v75 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v75 main_v76 (broadcastInDim S10000000x1 ![0] bcast_S10000000_S10000000x1_0 : (⟨S10000000, .i32⟩ : BufTy).Contents (Elt F) → (⟨S10000000x1, .i32⟩ : BufTy).Contents (Elt F))
  :: StableHlo.ternary main_v70 main_v76 main_v37 main_v77 ((fun x i u => Host.scatter scatter_S10000000_S10000000x1_S10000000_n_0_0_1 (fun _ b => b) x i u) : (⟨S10000000, .i32⟩ : BufTy).Contents (Elt F) → (⟨S10000000x1, .i32⟩ : BufTy).Contents (Elt F) → (⟨S10000000, .i32⟩ : BufTy).Contents (Elt F) → (⟨S10000000, .i32⟩ : BufTy).Contents (Elt F))
  :: StableHlo.unary main_v61 main_v78 ((transpose S2x10000000 [1, 0] · transposes_S10000000x2_S2x10000000_1_0) : (⟨S10000000x2, .f32⟩ : BufTy).Contents (Elt F) → (⟨S2x10000000, .f32⟩ : BufTy).Contents (Elt F))
  :: [] )

/-- every host operation of @main in program order, the three called functions' operations inline at their call sites:
    the first 25, through the elementwise product, then the remaining 77 -/
abbrev ops : List (HloOp τ sig (Elt F)) := opsHead ++ opsTail

set_option maxRecDepth 8192 in
/-- @main is that straight line. Its two halves (`main_part0`, then `main_part1`) run in order, and each call is its callee's body applied to
    the call's buffers, so unfolding the halves and the three functions and re-associating the sequencing
    (a bind of a bind is a bind under the continuation; a `pure` closing a body is dropped) leaves, on both sides, one
    chain of single-operation steps ending in `pure`; on the right the concatenation of the two literal lists computes
    to one list. Both sides are closed terms and the equation is by computation. -/
theorem main_eq (c : Dev nD) : main (F := F) c = seq ops := by
  chain_rfl

/-- the signature scopes no TensorCore buffer -/
theorem scopedRefs_eq : (Finset.univ.filter fun b : Ref sig .tc => b.isScoped) = ∅ := by decide
/-- and no semaphore -/
theorem scopedSems_eq : (Finset.univ.filter fun sm : SemLoc sig => sm.isScoped .tc) = ∅ := by decide

/-- each operation touches TensorCore references only: its operands' and its result's -/
theorem opsHead_sub : (opsHead : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., reshape_bufs_sub .., unary_bufs_sub .., reshape_bufs_sub .., reshape_bufs_sub .., unary_bufs_sub .., unary_bufs_sub .., unary_bufs_sub .., unary_bufs_sub .., binary_bufs_sub ..⟩
set_option maxRecDepth 8192 in
theorem opsTail_sub : (opsTail : List (HloOp τ sig (Elt F))).Forall fun op => op.bufs ⊆ tcRefs τ sig :=
  ⟨reshape_bufs_sub .., nullary_bufs_sub .., ternary_bufs_sub .., ternary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., binary_bufs_sub .., unary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub ..⟩
/-- a member of the concatenation is a member of one of the two pieces -/
theorem ops_sub : (ops : List (HloOp τ sig (Elt F))).Forall fun op => op.bufs ⊆ tcRefs τ sig :=
  List.forall_iff_forall_mem.mpr fun op h =>
    (List.mem_append.mp h).elim (List.forall_iff_forall_mem.mp opsHead_sub op) (List.forall_iff_forall_mem.mp opsTail_sub op)

/-- each operation determines its result from its operands: none allocates a buffer of unspecified contents -/
theorem opsHead_fresh : (opsHead : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
set_option maxRecDepth 8192 in
theorem opsTail_fresh : (opsTail : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ := fun op h =>
  (List.mem_append.mp h).elim (List.forall_iff_forall_mem.mp opsHead_fresh op) (List.forall_iff_forall_mem.mp opsTail_fresh op)

/-- On every device, for any float values, from any memory with zero counters: every weakly fair execution of @main
    terminates, and every final state has each TensorCore buffer at the fold of the operations' results over the
    contents the launch found. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! no operation writes an argument array: each operation writes exactly its result buffer, and every result buffer
    is a reference other than the three arguments', in either piece, so the fold leaves each argument's contents as
    it found them -/

set_option maxRecDepth 8192 in
theorem kept_arg0 (V : Valuation τ sig (Elt F)) :
    after (ops (F := F)) V (Proc.devRef .tc main_arg0) = V (Proc.devRef .tc main_arg0) := by
  have hHead : (opsHead : List (HloOp τ sig (Elt F))).Forall fun op => Proc.devRef (τ := τ) .tc main_arg0 ∉ op.writes := by
    simp only [List.Forall, nullary_writes, unary_writes, binary_writes, ternary_writes, reshape_writes, Finset.mem_singleton]
    repeat' apply And.intro
    all_goals exact devRef_ne_of_ne (by decide)
  have hTail : (opsTail : List (HloOp τ sig (Elt F))).Forall fun op => Proc.devRef (τ := τ) .tc main_arg0 ∉ op.writes := by
    simp only [List.Forall, nullary_writes, unary_writes, binary_writes, ternary_writes, reshape_writes, Finset.mem_singleton]
    repeat' apply And.intro
    all_goals exact devRef_ne_of_ne (by decide)
  exact after_of_forall_not_mem (b := Proc.devRef .tc main_arg0) _ _ fun op h =>
    (List.mem_append.mp h).elim (List.forall_iff_forall_mem.mp hHead op) (List.forall_iff_forall_mem.mp hTail op)

set_option maxRecDepth 8192 in
theorem kept_arg1 (V : Valuation τ sig (Elt F)) :
    after (ops (F := F)) V (Proc.devRef .tc main_arg1) = V (Proc.devRef .tc main_arg1) := by
  have hHead : (opsHead : List (HloOp τ sig (Elt F))).Forall fun op => Proc.devRef (τ := τ) .tc main_arg1 ∉ op.writes := by
    simp only [List.Forall, nullary_writes, unary_writes, binary_writes, ternary_writes, reshape_writes, Finset.mem_singleton]
    repeat' apply And.intro
    all_goals exact devRef_ne_of_ne (by decide)
  have hTail : (opsTail : List (HloOp τ sig (Elt F))).Forall fun op => Proc.devRef (τ := τ) .tc main_arg1 ∉ op.writes := by
    simp only [List.Forall, nullary_writes, unary_writes, binary_writes, ternary_writes, reshape_writes, Finset.mem_singleton]
    repeat' apply And.intro
    all_goals exact devRef_ne_of_ne (by decide)
  exact after_of_forall_not_mem (b := Proc.devRef .tc main_arg1) _ _ fun op h =>
    (List.mem_append.mp h).elim (List.forall_iff_forall_mem.mp hHead op) (List.forall_iff_forall_mem.mp hTail op)

set_option maxRecDepth 8192 in
theorem kept_arg2 (V : Valuation τ sig (Elt F)) :
    after (ops (F := F)) V (Proc.devRef .tc main_arg2) = V (Proc.devRef .tc main_arg2) := by
  have hHead : (opsHead : List (HloOp τ sig (Elt F))).Forall fun op => Proc.devRef (τ := τ) .tc main_arg2 ∉ op.writes := by
    simp only [List.Forall, nullary_writes, unary_writes, binary_writes, ternary_writes, reshape_writes, Finset.mem_singleton]
    repeat' apply And.intro
    all_goals exact devRef_ne_of_ne (by decide)
  have hTail : (opsTail : List (HloOp τ sig (Elt F))).Forall fun op => Proc.devRef (τ := τ) .tc main_arg2 ∉ op.writes := by
    simp only [List.Forall, nullary_writes, unary_writes, binary_writes, ternary_writes, reshape_writes, Finset.mem_singleton]
    repeat' apply And.intro
    all_goals exact devRef_ne_of_ne (by decide)
  exact after_of_forall_not_mem (b := Proc.devRef .tc main_arg2) _ _ fun op h =>
    (List.mem_append.mp h).elim (List.forall_iff_forall_mem.mp hHead op) (List.forall_iff_forall_mem.mp hTail op)

end Cert.ReferenceIdeal.RefRun

end
-- ==== Proof.Heads.lean ====
/-
  Where the two programs' later operations start from: the same three arrays.

  Before its pallas call the kernel's @main computes, by twenty host operations, the softmax of the weights and the two
  flattened index columns (rows and columns of every edge type, concatenated).  The reference's @main starts with the
  same twenty operations and then forms the products by four broadcasts and one multiply: the edge values are laid
  along a new leading axis and then along the output channels, the softmax along a new trailing axis and then along
  the edges, and the two are multiplied entry by entry.  Read at an index (o, c, e) that product is
  edge_value (c, e) * filt (o, c): the function the kernel's call leaves in its output array.  So from launch
  memories that agree on the three arguments, the products and the two index columns agree.
-/
import proofs.«133797_j11905649344580_1_alg».proof.Proof.ProductsValue
import proofs.«133797_j11905649344580_1_alg».proof.Proof.RefRun
import Idealize.ShloMosaic.Lib.StableHlo.Run
import Idealize.ShloMosaic.Lib.ValueIdx
import Idealize.ShloMosaic.Lib.Pipeline.Value

set_option maxRecDepth 16384

noncomputable section

namespace Cert.Heads

open Idealize.ShloMosaic Idealize.ShloMosaic.TcCoe Idealize.ShloMosaic.StableHlo Idealize.ShloMosaic.ValueIdx Idealize.SL.Sem
open Cert.ReferenceIdeal (S5x2000000 S2x5 S2x5x2000000 S1x5x2000000 S2x5x1)
open Cert.KernelIdeal.Products (G)

variable {F : FTy → Type} [FloatOps F]

/-- The reference's spelling of the products — two broadcasts of each factor, then the entrywise product — is `G`. -/
theorem products_eq (ev : S5x2000000.Idx → Elt F .f32) (filt : S2x5.Idx → Elt F .f32)
    (h1 : S5x2000000.BroadcastsInDim S1x5x2000000 ![1, 2]) (h2 : S1x5x2000000.BroadcastsInDim S2x5x2000000 ![0, 1, 2])
    (h3 : S2x5.BroadcastsInDim S2x5x1 ![0, 1]) (h4 : S2x5x1.BroadcastsInDim S2x5x2000000 ![0, 1, 2]) :
    G ev filt = mulf (broadcastInDim S2x5x2000000 ![0, 1, 2] h2 (broadcastInDim S1x5x2000000 ![1, 2] h1 ev))
                     (broadcastInDim S2x5x2000000 ![0, 1, 2] h4 (broadcastInDim S2x5x1 ![0, 1] h3 filt)) := by
  funext i
  obtain ⟨o, k, e, rfl⟩ : ∃ (o : Fin 2) (k : Fin 5) (e : Fin 2000000), i = ix3 o k e := ⟨i 0, i 1, i 2, eq_ix3 i⟩
  show FloatOps.mulf (ev (ix2 k e)) (filt (ix2 o k))
    = FloatOps.mulf (broadcastInDim S2x5x2000000 ![0, 1, 2] h2 (broadcastInDim S1x5x2000000 ![1, 2] h1 ev) (ix3 o k e))
        (broadcastInDim S2x5x2000000 ![0, 1, 2] h4 (broadcastInDim S2x5x1 ![0, 1] h3 filt) (ix3 o k e))
  refine congrArg₂ FloatOps.mulf ?_ ?_
  · symm
    refine (broadcastInDim_apply _ h2 _ (ix3 o k e) (ix3 (0 : Fin 1) k e)
      (fun a => by match a with | ⟨0, _⟩ => rfl | ⟨1, _⟩ => rfl | ⟨2, _⟩ => rfl)).trans ?_
    exact broadcastInDim_apply _ h1 ev (ix3 (0 : Fin 1) k e) (ix2 k e)
      (fun a => by match a with | ⟨0, _⟩ => rfl | ⟨1, _⟩ => rfl)
  · symm
    refine (broadcastInDim_apply _ h4 _ (ix3 o k e) (ix3 o k (0 : Fin 1))
      (fun a => by match a with | ⟨0, _⟩ => rfl | ⟨1, _⟩ => rfl | ⟨2, _⟩ => rfl)).trans ?_
    exact broadcastInDim_apply _ h3 filt (ix3 o k (0 : Fin 1)) (ix2 o k)
      (fun a => by match a with | ⟨0, _⟩ => rfl | ⟨1, _⟩ => rfl)

variable (M : Valuation Cert.KernelIdeal.τ Cert.KernelIdeal.sig (Elt F))
  (M' : Valuation Cert.ReferenceIdeal.τ Cert.ReferenceIdeal.sig (Elt F))

set_option maxHeartbeats 2000000 in
/-- The flattened row indices: the same slice and two reshapes of edge_index in both programs. -/
theorem rows (h0 : M (Proc.devRef .tc Cert.KernelIdeal.main_arg0) = M' (Proc.devRef .tc Cert.ReferenceIdeal.main_arg0)) :
    after (List.flatten [Cert.KernelIdeal.Gen.hostOps0 (F := F)]) M (Proc.devRef .tc Cert.KernelIdeal.main_v13)
      = after (Cert.ReferenceIdeal.RefRun.opsHead (F := F)) M' (Proc.devRef .tc Cert.ReferenceIdeal.main_v13) := by
  simp only [Cert.KernelIdeal.Gen.hostOps0, Cert.ReferenceIdeal.RefRun.opsHead,
    List.flatten_cons, List.flatten_nil, List.append_nil, List.cons_append, List.nil_append]
  after_results_simp
  simp only [h0]
  rfl

set_option maxHeartbeats 2000000 in
/-- The flattened column indices, likewise. -/
theorem cols (h0 : M (Proc.devRef .tc Cert.KernelIdeal.main_arg0) = M' (Proc.devRef .tc Cert.ReferenceIdeal.main_arg0)) :
    after (List.flatten [Cert.KernelIdeal.Gen.hostOps0 (F := F)]) M (Proc.devRef .tc Cert.KernelIdeal.main_v16)
      = after (Cert.ReferenceIdeal.RefRun.opsHead (F := F)) M' (Proc.devRef .tc Cert.ReferenceIdeal.main_v16) := by
  simp only [Cert.KernelIdeal.Gen.hostOps0, Cert.ReferenceIdeal.RefRun.opsHead,
    List.flatten_cons, List.flatten_nil, List.append_nil, List.cons_append, List.nil_append]
  after_results_simp
  simp only [h0]
  rfl

set_option maxHeartbeats 2000000 in
/-- The products: `G` of the kernel's edge values and softmax is what the reference's multiply leaves. -/
theorem products (h1 : M (Proc.devRef .tc Cert.KernelIdeal.main_arg1) = M' (Proc.devRef .tc Cert.ReferenceIdeal.main_arg1))
    (h2 : M (Proc.devRef .tc Cert.KernelIdeal.main_arg2) = M' (Proc.devRef .tc Cert.ReferenceIdeal.main_arg2)) :
    G (M (Proc.devRef .tc Cert.KernelIdeal.main_arg1))
        (after (List.flatten [Cert.KernelIdeal.Gen.hostOps0 (F := F)]) M (Proc.devRef .tc Cert.KernelIdeal.main_v10))
      = after (Cert.ReferenceIdeal.RefRun.opsHead (F := F)) M' (Proc.devRef .tc Cert.ReferenceIdeal.main_v21) := by
  simp only [Cert.KernelIdeal.Gen.hostOps0, Cert.ReferenceIdeal.RefRun.opsHead,
    List.flatten_cons, List.flatten_nil, List.append_nil, List.cons_append, List.nil_append]
  after_results_simp
  simp only [h1, h2]
  exact products_eq _ _ _ _ _ _

end Cert.Heads

end
-- ==== Proof.RefStretches.lean ====
/-
  The reference's operations after its multiply, cut into the five stretches the kernel's @main has after its call:
  the reshape of the products, the lexicographic sort, the gathers and segment marks, the running count, and the sums
  and scatters by segment.  The list after the multiply is their concatenation, so its fold is the five folds in turn.
-/
import proofs.«133797_j11905649344580_1_alg».proof.Proof.RefRun
import Idealize.ShloMosaic.Lib.Pipeline.Frame

set_option maxRecDepth 16384

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-- 1 operation: the reshape of the products to 2 x 10000000. -/
abbrev reshapeOps : List (HloOp τ sig (Elt F)) :=
  ( StableHlo.reshape main_v21 main_v22 rfl shapeCasts_S2x5x2000000_S2x10000000
  :: [] )

/-- 4 operations: the lexicographic sort: an iota and the three results of one stable sort keyed by (row, column). -/
abbrev sortOps : List (HloOp τ sig (Elt F)) :=
  ( StableHlo.TRef.nullary (.of main_call0_v0 : StableHlo.TRef sig ⟨S10000000, .i32⟩) (iotaInDim S10000000 32 0)
  :: StableHlo.TRef.ternary (.of main_v13 : StableHlo.TRef sig ⟨S10000000, .i32⟩) (.of main_v16 : StableHlo.TRef sig ⟨S10000000, .i32⟩) (.of main_call0_v0 : StableHlo.TRef sig ⟨S10000000, .i32⟩) (.of main_call0_v1_0 : StableHlo.TRef sig ⟨S10000000, .i32⟩) (fun x y z => (Host.sort3 S10000000 0 comparator_i32_i32_i32_d0 x y z).1)
  :: StableHlo.TRef.ternary (.of main_v13 : StableHlo.TRef sig ⟨S10000000, .i32⟩) (.of main_v16 : StableHlo.TRef sig ⟨S10000000, .i32⟩) (.of main_call0_v0 : StableHlo.TRef sig ⟨S10000000, .i32⟩) (.of main_call0_v1_1 : StableHlo.TRef sig ⟨S10000000, .i32⟩) (fun x y z => (Host.sort3 S10000000 0 comparator_i32_i32_i32_d0 x y z).2.1)
  :: StableHlo.TRef.ternary (.of main_v13 : StableHlo.TRef sig ⟨S10000000, .i32⟩) (.of main_v16 : StableHlo.TRef sig ⟨S10000000, .i32⟩) (.of main_call0_v0 : StableHlo.TRef sig ⟨S10000000, .i32⟩) (.of main_v23 : StableHlo.TRef sig ⟨S10000000, .i32⟩) (fun x y z => (Host.sort3 S10000000 0 comparator_i32_i32_i32_d0 x y z).2.2)
  :: [] )

/-- 38 operations: the three gathers by the sort order and the marks of where a new (row, column) run starts, as integers. -/
abbrev marksOps : List (HloOp τ sig (Elt F)) :=
  ( StableHlo.nullary main_c (constantI S_ 32 0#32)
  :: StableHlo.unary main_c main_v24 (broadcastInDim S10000000 ![] bcast_S_S10000000 : (⟨S_, .i32⟩ : BufTy).Contents (Elt F) → (⟨S10000000, .i32⟩ : BufTy).Contents (Elt F))
  :: StableHlo.binary main_v23 main_v24 main_v25 (cmpi .slt : (⟨S10000000, .i32⟩ : BufTy).Contents (Elt F) → (⟨S10000000, .i32⟩ : BufTy).Contents (Elt F) → (⟨S10000000, .i1⟩ : BufTy).Contents (Elt F))
  :: StableHlo.nullary main_c_2 (constantI S_ 32 10000000#32)
  :: StableHlo.unary main_c_2 main_v26 (broadcastInDim S10000000 ![] bcast_S_S10000000 : (⟨S_, .i32⟩ : BufTy).Contents (Elt F) → (⟨S10000000, .i32⟩ : BufTy).Contents (Elt F))
  :: StableHlo.binary main_v23 main_v26 main_v27 (addi : (⟨S10000000, .i32⟩ : BufTy).Contents (Elt F) → (⟨S10000000, .i32⟩ : BufTy).Contents (Elt F) → (⟨S10000000, .i32⟩ : BufTy).Contents (Elt F))
  :: StableHlo.ternary main_v25 main_v27 main_v23 main_v28 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v28 main_v29 (broadcastInDim S10000000x1 ![0] bcast_S10000000_S10000000x1_0 : (⟨S10000000, .i32⟩ : BufTy).Contents (Elt F) → (⟨S10000000x1, .i32⟩ : BufTy).Contents (Elt F))
  :: StableHlo.binary main_v13 main_v29 main_v30 ((fun x i => Host.gather gather_S10000000_S10000000x1_S10000000_n_0_n_n_0_1_1 x i) : (⟨S10000000, .i32⟩ : BufTy).Contents (Elt F) → (⟨S10000000x1, .i32⟩ : BufTy).Contents (Elt F) → (⟨S10000000, .i32⟩ : BufTy).Contents (Elt F))
  :: StableHlo.nullary main_c_3 (constantI S_ 32 0#32)
  :: StableHlo.unary main_c_3 main_v31 (broadcastInDim S10000000 ![] bcast_S_S10000000 : (⟨S_, .i32⟩ : BufTy).Contents (Elt F) → (⟨S10000000, .i32⟩ : BufTy).Contents (Elt F))
  :: StableHlo.binary main_v23 main_v31 main_v32 (cmpi .slt : (⟨S10000000, .i32⟩ : BufTy).Contents (Elt F) → (⟨S10000000, .i32⟩ : BufTy).Contents (Elt F) → (⟨S10000000, .i1⟩ : BufTy).Contents (Elt F))
  :: StableHlo.nullary main_c_4 (constantI S_ 32 10000000#32)
  :: StableHlo.unary main_c_4 main_v33 (broadcastInDim S10000000 ![] bcast_S_S10000000 : (⟨S_, .i32⟩ : BufTy).Contents (Elt F) → (⟨S10000000, .i32⟩ : BufTy).Contents (Elt F))
  :: StableHlo.binary main_v23 main_v33 main_v34 (addi : (⟨S10000000, .i32⟩ : BufTy).Contents (Elt F) → (⟨S10000000, .i32⟩ : BufTy).Contents (Elt F) → (⟨S10000000, .i32⟩ : BufTy).Contents (Elt F))
  :: StableHlo.ternary main_v32 main_v34 main_v23 main_v35 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v35 main_v36 (broadcastInDim S10000000x1 ![0] bcast_S10000000_S10000000x1_0 : (⟨S10000000, .i32⟩ : BufTy).Contents (Elt F) → (⟨S10000000x1, .i32⟩ : BufTy).Contents (Elt F))
  :: StableHlo.binary main_v16 main_v36 main_v37 ((fun x i => Host.gather gather_S10000000_S10000000x1_S10000000_n_0_n_n_0_1_1 x i) : (⟨S10000000, .i32⟩ : BufTy).Contents (Elt F) → (⟨S10000000x1, .i32⟩ : BufTy).Contents (Elt F) → (⟨S10000000, .i32⟩ : BufTy).Contents (Elt F))
  :: StableHlo.nullary main_c_5 (constantI S_ 32 0#32)
  :: StableHlo.unary main_c_5 main_v38 (broadcastInDim S10000000 ![] bcast_S_S10000000 : (⟨S_, .i32⟩ : BufTy).Contents (Elt F) → (⟨S10000000, .i32⟩ : BufTy).Contents (Elt F))
  :: StableHlo.binary main_v23 main_v38 main_v39 (cmpi .slt : (⟨S10000000, .i32⟩ : BufTy).Contents (Elt F) → (⟨S10000000, .i32⟩ : BufTy).Contents (Elt F) → (⟨S10000000, .i1⟩ : BufTy).Contents (Elt F))
  :: StableHlo.nullary main_c_6 (constantI S_ 32 10000000#32)
  :: StableHlo.unary main_c_6 main_v40 (broadcastInDim S10000000 ![] bcast_S_S10000000 : (⟨S_, .i32⟩ : BufTy).Contents (Elt F) → (⟨S10000000, .i32⟩ : BufTy).Contents (Elt F))
  :: StableHlo.binary main_v23 main_v40 main_v41 (addi : (⟨S10000000, .i32⟩ : BufTy).Contents (Elt F) → (⟨S10000000, .i32⟩ : BufTy).Contents (Elt F) → (⟨S10000000, .i32⟩ : BufTy).Contents (Elt F))
  :: StableHlo.ternary main_v39 main_v41 main_v23 main_v42 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v42 main_v43 (broadcastInDim S10000000x1 ![0] bcast_S10000000_S10000000x1_0 : (⟨S10000000, .i32⟩ : BufTy).Contents (Elt F) → (⟨S10000000x1, .i32⟩ : BufTy).Contents (Elt F))
  :: StableHlo.binary main_v22 main_v43 main_v44 ((fun x i => Host.gather gather_S2x10000000_S10000000x1_S2x10000000_0_1_n_n_1_1_21 x i) : (⟨S2x10000000, .f32⟩ : BufTy).Contents (Elt F) → (⟨S10000000x1, .i32⟩ : BufTy).Contents (Elt F) → (⟨S2x10000000, .f32⟩ : BufTy).Contents (Elt F))
  :: StableHlo.nullary main_c_7 (constantI S_ 1 1#1)
  :: StableHlo.unary main_c_7 main_v45 (broadcastInDim S1 ![] bcast_S_S1 : (⟨S_, .i1⟩ : BufTy).Contents (Elt F) → (⟨S1, .i1⟩ : BufTy).Contents (Elt F))
  :: StableHlo.unary main_v30 main_v46 ((extractStridedSlice S9999999 ![1] · slices_S10000000_S9999999_1) : (⟨S10000000, .i32⟩ : BufTy).Contents (Elt F) → (⟨S9999999, .i32⟩ : BufTy).Contents (Elt F))
  :: StableHlo.unary main_v30 main_v47 ((extractStridedSlice S9999999 ![0] · slices_S10000000_S9999999_0) : (⟨S10000000, .i32⟩ : BufTy).Contents (Elt F) → (⟨S9999999, .i32⟩ : BufTy).Contents (Elt F))
  :: StableHlo.binary main_v46 main_v47 main_v48 (cmpi .ne : (⟨S9999999, .i32⟩ : BufTy).Contents (Elt F) → (⟨S9999999, .i32⟩ : BufTy).Contents (Elt F) → (⟨S9999999, .i1⟩ : BufTy).Contents (Elt F))
  :: StableHlo.unary main_v37 main_v49 ((extractStridedSlice S9999999 ![1] · slices_S10000000_S9999999_1) : (⟨S10000000, .i32⟩ : BufTy).Contents (Elt F) → (⟨S9999999, .i32⟩ : BufTy).Contents (Elt F))
  :: StableHlo.unary main_v37 main_v50 ((extractStridedSlice S9999999 ![0] · slices_S10000000_S9999999_0) : (⟨S10000000, .i32⟩ : BufTy).Contents (Elt F) → (⟨S9999999, .i32⟩ : BufTy).Contents (Elt F))
  :: StableHlo.binary main_v49 main_v50 main_v51 (cmpi .ne : (⟨S9999999, .i32⟩ : BufTy).Contents (Elt F) → (⟨S9999999, .i32⟩ : BufTy).Contents (Elt F) → (⟨S9999999, .i1⟩ : BufTy).Contents (Elt F))
  :: StableHlo.binary main_v48 main_v51 main_v52 (ori : (⟨S9999999, .i1⟩ : BufTy).Contents (Elt F) → (⟨S9999999, .i1⟩ : BufTy).Contents (Elt F) → (⟨S9999999, .i1⟩ : BufTy).Contents (Elt F))
  :: StableHlo.binary main_v45 main_v52 main_v53 ((fun a b => concatenate S10000000 0 [⟨S1, a⟩, ⟨S9999999, b⟩] concatenates_S1_S9999999_S10000000_d0) : (⟨S1, .i1⟩ : BufTy).Contents (Elt F) → (⟨S9999999, .i1⟩ : BufTy).Contents (Elt F) → (⟨S10000000, .i1⟩ : BufTy).Contents (Elt F))
  :: StableHlo.unary main_v53 main_v54 ((extui 32 · natLt_1_32) : (⟨S10000000, .i1⟩ : BufTy).Contents (Elt F) → (⟨S10000000, .i32⟩ : BufTy).Contents (Elt F))
  :: [] )

/-- 3 operations: the running count of the marks. -/
abbrev countOps : List (HloOp τ sig (Elt F)) :=
  ( StableHlo.TRef.nullary (.of main_call1_call0_c : StableHlo.TRef sig ⟨S_, .i32⟩) (constantI S_ 32 0#32)
  :: StableHlo.TRef.unary (.of main_call1_call0_c : StableHlo.TRef sig ⟨S_, .i32⟩) (.of main_call1_call0_v0 : StableHlo.TRef sig ⟨S_, .i32⟩) (broadcastInDim S_ ![] bcast_S_S_)
  :: StableHlo.TRef.binary (.of main_v54 : StableHlo.TRef sig ⟨S10000000, .i32⟩) (.of main_call1_call0_v0 : StableHlo.TRef sig ⟨S_, .i32⟩) (.of main_v55 : StableHlo.TRef sig ⟨S10000000, .i32⟩) (fun x v => Host.reduceWindow IntOp.addi ![10000000] ![1] ![9999999] ![0] x v reduceWindows_S10000000_S10000000_w10000000s1p9999999_0 h_S_)
  :: [] )

/-- 31 operations: the segment numbers, the sums of the values by segment and the two scatters of the keys by segment. -/
abbrev sumsOps : List (HloOp τ sig (Elt F)) :=
  ( StableHlo.nullary main_c_8 (constantI S_ 32 1#32)
  :: StableHlo.unary main_c_8 main_v56 (broadcastInDim S10000000 ![] bcast_S_S10000000 : (⟨S_, .i32⟩ : BufTy).Contents (Elt F) → (⟨S10000000, .i32⟩ : BufTy).Contents (Elt F))
  :: StableHlo.binary main_v55 main_v56 main_v57 (subi : (⟨S10000000, .i32⟩ : BufTy).Contents (Elt F) → (⟨S10000000, .i32⟩ : BufTy).Contents (Elt F) → (⟨S10000000, .i32⟩ : BufTy).Contents (Elt F))
  :: StableHlo.unary main_v44 main_v58 ((transpose S10000000x2 [1, 0] · transposes_S2x10000000_S10000000x2_1_0) : (⟨S2x10000000, .f32⟩ : BufTy).Contents (Elt F) → (⟨S10000000x2, .f32⟩ : BufTy).Contents (Elt F))
  :: StableHlo.nullary main_cst_9 (constant S_ .f32 0x00000000#32)
  :: StableHlo.unary main_cst_9 main_v59 (broadcastInDim S10000000x2 ![] bcast_S_S10000000x2 : (⟨S_, .f32⟩ : BufTy).Contents (Elt F) → (⟨S10000000x2, .f32⟩ : BufTy).Contents (Elt F))
  :: StableHlo.unary main_v57 main_v60 (broadcastInDim S10000000x1 ![0] bcast_S10000000_S10000000x1_0 : (⟨S10000000, .i32⟩ : BufTy).Contents (Elt F) → (⟨S10000000x1, .i32⟩ : BufTy).Contents (Elt F))
  :: StableHlo.ternary main_v59 main_v60 main_v58 main_v61 ((fun x i u => Host.scatterAdd scatter_S10000000x2_S10000000x1_S10000000x2_1_0_0_1 x i u) : (⟨S10000000x2, .f32⟩ : BufTy).Contents (Elt F) → (⟨S10000000x1, .i32⟩ : BufTy).Contents (Elt F) → (⟨S10000000x2, .f32⟩ : BufTy).Contents (Elt F) → (⟨S10000000x2, .f32⟩ : BufTy).Contents (Elt F))
  :: StableHlo.nullary main_c_10 (constantI S_ 32 0#32)
  :: StableHlo.unary main_c_10 main_v62 (broadcastInDim S10000000 ![] bcast_S_S10000000 : (⟨S_, .i32⟩ : BufTy).Contents (Elt F) → (⟨S10000000, .i32⟩ : BufTy).Contents (Elt F))
  :: StableHlo.nullary main_c_11 (constantI S_ 32 0#32)
  :: StableHlo.unary main_c_11 main_v63 (broadcastInDim S10000000 ![] bcast_S_S10000000 : (⟨S_, .i32⟩ : BufTy).Contents (Elt F) → (⟨S10000000, .i32⟩ : BufTy).Contents (Elt F))
  :: StableHlo.binary main_v57 main_v63 main_v64 (cmpi .slt : (⟨S10000000, .i32⟩ : BufTy).Contents (Elt F) → (⟨S10000000, .i32⟩ : BufTy).Contents (Elt F) → (⟨S10000000, .i1⟩ : BufTy).Contents (Elt F))
  :: StableHlo.nullary main_c_12 (constantI S_ 32 10000000#32)
  :: StableHlo.unary main_c_12 main_v65 (broadcastInDim S10000000 ![] bcast_S_S10000000 : (⟨S_, .i32⟩ : BufTy).Contents (Elt F) → (⟨S10000000, .i32⟩ : BufTy).Contents (Elt F))
  :: StableHlo.binary main_v57 main_v65 main_v66 (addi : (⟨S10000000, .i32⟩ : BufTy).Contents (Elt F) → (⟨S10000000, .i32⟩ : BufTy).Contents (Elt F) → (⟨S10000000, .i32⟩ : BufTy).Contents (Elt F))
  :: StableHlo.ternary main_v64 main_v66 main_v57 main_v67 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v67 main_v68 (broadcastInDim S10000000x1 ![0] bcast_S10000000_S10000000x1_0 : (⟨S10000000, .i32⟩ : BufTy).Contents (Elt F) → (⟨S10000000x1, .i32⟩ : BufTy).Contents (Elt F))
  :: StableHlo.ternary main_v62 main_v68 main_v30 main_v69 ((fun x i u => Host.scatter scatter_S10000000_S10000000x1_S10000000_n_0_0_1 (fun _ b => b) x i u) : (⟨S10000000, .i32⟩ : BufTy).Contents (Elt F) → (⟨S10000000x1, .i32⟩ : BufTy).Contents (Elt F) → (⟨S10000000, .i32⟩ : BufTy).Contents (Elt F) → (⟨S10000000, .i32⟩ : BufTy).Contents (Elt F))
  :: StableHlo.nullary main_c_13 (constantI S_ 32 0#32)
  :: StableHlo.unary main_c_13 main_v70 (broadcastInDim S10000000 ![] bcast_S_S10000000 : (⟨S_, .i32⟩ : BufTy).Contents (Elt F) → (⟨S10000000, .i32⟩ : BufTy).Contents (Elt F))
  :: StableHlo.nullary main_c_14 (constantI S_ 32 0#32)
  :: StableHlo.unary main_c_14 main_v71 (broadcastInDim S10000000 ![] bcast_S_S10000000 : (⟨S_, .i32⟩ : BufTy).Contents (Elt F) → (⟨S10000000, .i32⟩ : BufTy).Contents (Elt F))
  :: StableHlo.binary main_v57 main_v71 main_v72 (cmpi .slt : (⟨S10000000, .i32⟩ : BufTy).Contents (Elt F) → (⟨S10000000, .i32⟩ : BufTy).Contents (Elt F) → (⟨S10000000, .i1⟩ : BufTy).Contents (Elt F))
  :: StableHlo.nullary main_c_15 (constantI S_ 32 10000000#32)
  :: StableHlo.unary main_c_15 main_v73 (broadcastInDim S10000000 ![] bcast_S_S10000000 : (⟨S_, .i32⟩ : BufTy).Contents (Elt F) → (⟨S10000000, .i32⟩ : BufTy).Contents (Elt F))
  :: StableHlo.binary main_v57 main_v73 main_v74 (addi : (⟨S10000000, .i32⟩ : BufTy).Contents (Elt F) → (⟨S10000000, .i32⟩ : BufTy).Contents (Elt F) → (⟨S10000000, .i32⟩ : BufTy).Contents (Elt F))
  :: StableHlo.ternary main_v72 main_v74 main_v57 main_v75 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v75 main_v76 (broadcastInDim S10000000x1 ![0] bcast_S10000000_S10000000x1_0 : (⟨S10000000, .i32⟩ : BufTy).Contents (Elt F) → (⟨S10000000x1, .i32⟩ : BufTy).Contents (Elt F))
  :: StableHlo.ternary main_v70 main_v76 main_v37 main_v77 ((fun x i u => Host.scatter scatter_S10000000_S10000000x1_S10000000_n_0_0_1 (fun _ b => b) x i u) : (⟨S10000000, .i32⟩ : BufTy).Contents (Elt F) → (⟨S10000000x1, .i32⟩ : BufTy).Contents (Elt F) → (⟨S10000000, .i32⟩ : BufTy).Contents (Elt F) → (⟨S10000000, .i32⟩ : BufTy).Contents (Elt F))
  :: StableHlo.unary main_v61 main_v78 ((transpose S2x10000000 [1, 0] · transposes_S10000000x2_S2x10000000_1_0) : (⟨S10000000x2, .f32⟩ : BufTy).Contents (Elt F) → (⟨S2x10000000, .f32⟩ : BufTy).Contents (Elt F))
  :: [] )

/-- The operations after the multiply are the five stretches in order. -/
theorem opsTail_eq : (Cert.ReferenceIdeal.RefRun.opsTail (F := F)) = reshapeOps ++ (sortOps ++ (marksOps ++ (countOps ++ sumsOps))) := rfl

/-- So their fold is the five folds in turn. -/
theorem after_opsTail (X : Valuation τ sig (Elt F)) :
    after (Cert.ReferenceIdeal.RefRun.opsTail (F := F)) X
      = after sumsOps (after countOps (after marksOps (after sortOps (after reshapeOps X)))) := by
  rw [opsTail_eq]
  simp only [StableHlo.after_append]

end Cert.ReferenceIdeal.Stretches

end
-- ==== Proof.AgreeReshape.lean ====
/-
  The reshape of the products: the same regrouping of the same array; the two index columns pass through.

  The kernel's program and the reference run this stretch on buffers that differ only in their numbers.  Each
  operation reads results of earlier operations of the stretch and a few buffers computed before it; if those few
  hold the same contents in the two programs, so does every buffer a later stretch reads.
-/
import proofs.«133797_j11905649344580_1_alg».proof.Proof.Gen.KernelIdeal.Launch
import proofs.«133797_j11905649344580_1_alg».proof.Proof.RefStretches
import Idealize.ShloMosaic.Lib.StableHlo.Run

set_option maxRecDepth 16384

noncomputable section

namespace Cert.Agree.Reshape

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v17 : W (Proc.devRef .tc Cert.KernelIdeal.main_v17) = X (Proc.devRef .tc Cert.ReferenceIdeal.main_v21))
  (h_v13 : W (Proc.devRef .tc Cert.KernelIdeal.main_v13) = X (Proc.devRef .tc Cert.ReferenceIdeal.main_v13))
  (h_v16 : W (Proc.devRef .tc Cert.KernelIdeal.main_v16) = X (Proc.devRef .tc Cert.ReferenceIdeal.main_v16))

include h_v17 h_v13 h_v16 in
set_option maxHeartbeats 1000000 in
theorem v18 :
    after (Cert.KernelIdeal.Gen.hostOps1 (F := F)) W (Proc.devRef .tc Cert.KernelIdeal.main_v18)
      = after (Cert.ReferenceIdeal.Stretches.reshapeOps (F := F)) X (Proc.devRef .tc Cert.ReferenceIdeal.main_v22) := by
  simp only [Cert.KernelIdeal.Gen.hostOps1, Cert.ReferenceIdeal.Stretches.reshapeOps]
  after_results_simp
  try simp only [h_v17, h_v13, h_v16]
  try rfl

include h_v17 h_v13 h_v16 in
set_option maxHeartbeats 1000000 in
theorem v13 :
    after (Cert.KernelIdeal.Gen.hostOps1 (F := F)) W (Proc.devRef .tc Cert.KernelIdeal.main_v13)
      = after (Cert.ReferenceIdeal.Stretches.reshapeOps (F := F)) X (Proc.devRef .tc Cert.ReferenceIdeal.main_v13) := by
  simp only [Cert.KernelIdeal.Gen.hostOps1, Cert.ReferenceIdeal.Stretches.reshapeOps]
  after_results_simp
  try simp only [h_v17, h_v13, h_v16]
  try rfl

include h_v17 h_v13 h_v16 in
set_option maxHeartbeats 1000000 in
theorem v16 :
    after (Cert.KernelIdeal.Gen.hostOps1 (F := F)) W (Proc.devRef .tc Cert.KernelIdeal.main_v16)
      = after (Cert.ReferenceIdeal.Stretches.reshapeOps (F := F)) X (Proc.devRef .tc Cert.ReferenceIdeal.main_v16) := by
  simp only [Cert.KernelIdeal.Gen.hostOps1, Cert.ReferenceIdeal.Stretches.reshapeOps]
  after_results_simp
  try simp only [h_v17, h_v13, h_v16]
  try rfl

end Cert.Agree.Reshape

end
-- ==== Proof.AgreeSort.lean ====
/-
  The lexicographic sort: the same stable sort of the same two key columns and the same iota; the columns and the reshaped products pass through.

  The kernel's program and the reference run this stretch on buffers that differ only in their numbers.  Each
  operation reads results of earlier operations of the stretch and a few buffers computed before it; if those few
  hold the same contents in the two programs, so does every buffer a later stretch reads.
-/
import proofs.«133797_j11905649344580_1_alg».proof.Proof.Gen.KernelIdeal.Launch
import proofs.«133797_j11905649344580_1_alg».proof.Proof.RefStretches
import Idealize.ShloMosaic.Lib.StableHlo.Run

set_option maxRecDepth 16384

noncomputable section

namespace Cert.Agree.Sort

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v13 : W (Proc.devRef .tc Cert.KernelIdeal.main_v13) = X (Proc.devRef .tc Cert.ReferenceIdeal.main_v13))
  (h_v16 : W (Proc.devRef .tc Cert.KernelIdeal.main_v16) = X (Proc.devRef .tc Cert.ReferenceIdeal.main_v16))
  (h_v18 : W (Proc.devRef .tc Cert.KernelIdeal.main_v18) = X (Proc.devRef .tc Cert.ReferenceIdeal.main_v22))

include h_v13 h_v16 h_v18 in
set_option maxHeartbeats 1000000 in
theorem v19 :
    after (Cert.KernelIdeal.Gen.hostOps1_1 (F := F)) W (Proc.devRef .tc Cert.KernelIdeal.main_v19)
      = after (Cert.ReferenceIdeal.Stretches.sortOps (F := F)) X (Proc.devRef .tc Cert.ReferenceIdeal.main_v23) := by
  simp only [Cert.KernelIdeal.Gen.hostOps1_1, Cert.ReferenceIdeal.Stretches.sortOps]
  after_results_simp
  try simp only [h_v13, h_v16, h_v18]
  try rfl

include h_v13 h_v16 h_v18 in
set_option maxHeartbeats 1000000 in
theorem v13 :
    after (Cert.KernelIdeal.Gen.hostOps1_1 (F := F)) W (Proc.devRef .tc Cert.KernelIdeal.main_v13)
      = after (Cert.ReferenceIdeal.Stretches.sortOps (F := F)) X (Proc.devRef .tc Cert.ReferenceIdeal.main_v13) := by
  simp only [Cert.KernelIdeal.Gen.hostOps1_1, Cert.ReferenceIdeal.Stretches.sortOps]
  after_results_simp
  try simp only [h_v13, h_v16, h_v18]
  try rfl

include h_v13 h_v16 h_v18 in
set_option maxHeartbeats 1000000 in
theorem v16 :
    after (Cert.KernelIdeal.Gen.hostOps1_1 (F := F)) W (Proc.devRef .tc Cert.KernelIdeal.main_v16)
      = after (Cert.ReferenceIdeal.Stretches.sortOps (F := F)) X (Proc.devRef .tc Cert.ReferenceIdeal.main_v16) := by
  simp only [Cert.KernelIdeal.Gen.hostOps1_1, Cert.ReferenceIdeal.Stretches.sortOps]
  after_results_simp
  try simp only [h_v13, h_v16, h_v18]
  try rfl

include h_v13 h_v16 h_v18 in
set_option maxHeartbeats 1000000 in
theorem v18 :
    after (Cert.KernelIdeal.Gen.hostOps1_1 (F := F)) W (Proc.devRef .tc Cert.KernelIdeal.main_v18)
      = after (Cert.ReferenceIdeal.Stretches.sortOps (F := F)) X (Proc.devRef .tc Cert.ReferenceIdeal.main_v22) := by
  simp only [Cert.KernelIdeal.Gen.hostOps1_1, Cert.ReferenceIdeal.Stretches.sortOps]
  after_results_simp
  try simp only [h_v13, h_v16, h_v18]
  try rfl

end Cert.Agree.Sort

end
-- ==== Proof.KerMarksCut.lean ====
/-
  The kernel's thirty-eight host operations between the sort and the running count, cut into five pieces: the three gathers by the sort order (rows, columns, values), the comparisons of the sorted rows and columns with themselves shifted by one position, and the joining of a leading one to those comparisons.
-/
import proofs.«133797_j11905649344580_1_alg».proof.Proof.Gen.KernelIdeal.Launch
import Idealize.ShloMosaic.Lib.Pipeline.Frame

set_option maxRecDepth 16384

noncomputable section

namespace Cert.KernelIdeal.MarksCut

open Cert.KernelIdeal Cert.KernelIdeal.Gen Idealize.ShloMosaic Idealize.ShloMosaic.TcCoe Idealize.SL.Sem Idealize.ShloMosaic.StableHlo

variable {F : FTy → Type} [FloatOps F]

/-- 9 operations: the sort order made an index (negative entries wrapped), then the rows gathered by it. -/
abbrev gatherRows : List (HloOp τ sig (Elt F)) :=
  ( StableHlo.nullary main_c (constantI S_ 32 0#32)
  :: StableHlo.unary main_c main_v20 (broadcastInDim S10000000 ![] bcast_S_S10000000 : (⟨S_, .i32⟩ : BufTy).Contents (Elt F) → (⟨S10000000, .i32⟩ : BufTy).Contents (Elt F))
  :: StableHlo.binary main_v19 main_v20 main_v21 (cmpi .slt : (⟨S10000000, .i32⟩ : BufTy).Contents (Elt F) → (⟨S10000000, .i32⟩ : BufTy).Contents (Elt F) → (⟨S10000000, .i1⟩ : BufTy).Contents (Elt F))
  :: StableHlo.nullary main_c_2 (constantI S_ 32 10000000#32)
  :: StableHlo.unary main_c_2 main_v22 (broadcastInDim S10000000 ![] bcast_S_S10000000 : (⟨S_, .i32⟩ : BufTy).Contents (Elt F) → (⟨S10000000, .i32⟩ : BufTy).Contents (Elt F))
  :: StableHlo.binary main_v19 main_v22 main_v23 (addi : (⟨S10000000, .i32⟩ : BufTy).Contents (Elt F) → (⟨S10000000, .i32⟩ : BufTy).Contents (Elt F) → (⟨S10000000, .i32⟩ : BufTy).Contents (Elt F))
  :: StableHlo.ternary main_v21 main_v23 main_v19 main_v24 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v24 main_v25 (broadcastInDim S10000000x1 ![0] bcast_S10000000_S10000000x1_0 : (⟨S10000000, .i32⟩ : BufTy).Contents (Elt F) → (⟨S10000000x1, .i32⟩ : BufTy).Contents (Elt F))
  :: StableHlo.binary main_v13 main_v25 main_v26 ((fun x i => Host.gather gather_S10000000_S10000000x1_S10000000_n_0_n_n_0_1_1 x i) : (⟨S10000000, .i32⟩ : BufTy).Contents (Elt F) → (⟨S10000000x1, .i32⟩ : BufTy).Contents (Elt F) → (⟨S10000000, .i32⟩ : BufTy).Contents (Elt F))
  :: [] )

/-- 9 operations: the same for the columns. -/
abbrev gatherCols : List (HloOp τ sig (Elt F)) :=
  ( StableHlo.nullary main_c_3 (constantI S_ 32 0#32)
  :: StableHlo.unary main_c_3 main_v27 (broadcastInDim S10000000 ![] bcast_S_S10000000 : (⟨S_, .i32⟩ : BufTy).Contents (Elt F) → (⟨S10000000, .i32⟩ : BufTy).Contents (Elt F))
  :: StableHlo.binary main_v19 main_v27 main_v28 (cmpi .slt : (⟨S10000000, .i32⟩ : BufTy).Contents (Elt F) → (⟨S10000000, .i32⟩ : BufTy).Contents (Elt F) → (⟨S10000000, .i1⟩ : BufTy).Contents (Elt F))
  :: StableHlo.nullary main_c_4 (constantI S_ 32 10000000#32)
  :: StableHlo.unary main_c_4 main_v29 (broadcastInDim S10000000 ![] bcast_S_S10000000 : (⟨S_, .i32⟩ : BufTy).Contents (Elt F) → (⟨S10000000, .i32⟩ : BufTy).Contents (Elt F))
  :: StableHlo.binary main_v19 main_v29 main_v30 (addi : (⟨S10000000, .i32⟩ : BufTy).Contents (Elt F) → (⟨S10000000, .i32⟩ : BufTy).Contents (Elt F) → (⟨S10000000, .i32⟩ : BufTy).Contents (Elt F))
  :: StableHlo.ternary main_v28 main_v30 main_v19 main_v31 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v31 main_v32 (broadcastInDim S10000000x1 ![0] bcast_S10000000_S10000000x1_0 : (⟨S10000000, .i32⟩ : BufTy).Contents (Elt F) → (⟨S10000000x1, .i32⟩ : BufTy).Contents (Elt F))
  :: StableHlo.binary main_v16 main_v32 main_v33 ((fun x i => Host.gather gather_S10000000_S10000000x1_S10000000_n_0_n_n_0_1_1 x i) : (⟨S10000000, .i32⟩ : BufTy).Contents (Elt F) → (⟨S10000000x1, .i32⟩ : BufTy).Contents (Elt F) → (⟨S10000000, .i32⟩ : BufTy).Contents (Elt F))
  :: [] )

/-- 9 operations: the same for the two channels of products. -/
abbrev gatherVals : List (HloOp τ sig (Elt F)) :=
  ( StableHlo.nullary main_c_5 (constantI S_ 32 0#32)
  :: StableHlo.unary main_c_5 main_v34 (broadcastInDim S10000000 ![] bcast_S_S10000000 : (⟨S_, .i32⟩ : BufTy).Contents (Elt F) → (⟨S10000000, .i32⟩ : BufTy).Contents (Elt F))
  :: StableHlo.binary main_v19 main_v34 main_v35 (cmpi .slt : (⟨S10000000, .i32⟩ : BufTy).Contents (Elt F) → (⟨S10000000, .i32⟩ : BufTy).Contents (Elt F) → (⟨S10000000, .i1⟩ : BufTy).Contents (Elt F))
  :: StableHlo.nullary main_c_6 (constantI S_ 32 10000000#32)
  :: StableHlo.unary main_c_6 main_v36 (broadcastInDim S10000000 ![] bcast_S_S10000000 : (⟨S_, .i32⟩ : BufTy).Contents (Elt F) → (⟨S10000000, .i32⟩ : BufTy).Contents (Elt F))
  :: StableHlo.binary main_v19 main_v36 main_v37 (addi : (⟨S10000000, .i32⟩ : BufTy).Contents (Elt F) → (⟨S10000000, .i32⟩ : BufTy).Contents (Elt F) → (⟨S10000000, .i32⟩ : BufTy).Contents (Elt F))
  :: StableHlo.ternary main_v35 main_v37 main_v19 main_v38 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v38 main_v39 (broadcastInDim S10000000x1 ![0] bcast_S10000000_S10000000x1_0 : (⟨S10000000, .i32⟩ : BufTy).Contents (Elt F) → (⟨S10000000x1, .i32⟩ : BufTy).Contents (Elt F))
  :: StableHlo.binary main_v18 main_v39 main_v40 ((fun x i => Host.gather gather_S2x10000000_S10000000x1_S2x10000000_0_1_n_n_1_1_21 x i) : (⟨S2x10000000, .f32⟩ : BufTy).Contents (Elt F) → (⟨S10000000x1, .i32⟩ : BufTy).Contents (Elt F) → (⟨S2x10000000, .f32⟩ : BufTy).Contents (Elt F))
  :: [] )

/-- 9 operations: a single one, and for each position after the first whether the sorted row or the sorted column differs from the one before. -/
abbrev shiftCompare : List (HloOp τ sig (Elt F)) :=
  ( StableHlo.nullary main_c_7 (constantI S_ 1 1#1)
  :: StableHlo.unary main_c_7 main_v41 (broadcastInDim S1 ![] bcast_S_S1 : (⟨S_, .i1⟩ : BufTy).Contents (Elt F) → (⟨S1, .i1⟩ : BufTy).Contents (Elt F))
  :: StableHlo.unary main_v26 main_v42 ((extractStridedSlice S9999999 ![1] · slices_S10000000_S9999999_1) : (⟨S10000000, .i32⟩ : BufTy).Contents (Elt F) → (⟨S9999999, .i32⟩ : BufTy).Contents (Elt F))
  :: StableHlo.unary main_v26 main_v43 ((extractStridedSlice S9999999 ![0] · slices_S10000000_S9999999_0) : (⟨S10000000, .i32⟩ : BufTy).Contents (Elt F) → (⟨S9999999, .i32⟩ : BufTy).Contents (Elt F))
  :: StableHlo.binary main_v42 main_v43 main_v44 (cmpi .ne : (⟨S9999999, .i32⟩ : BufTy).Contents (Elt F) → (⟨S9999999, .i32⟩ : BufTy).Contents (Elt F) → (⟨S9999999, .i1⟩ : BufTy).Contents (Elt F))
  :: StableHlo.unary main_v33 main_v45 ((extractStridedSlice S9999999 ![1] · slices_S10000000_S9999999_1) : (⟨S10000000, .i32⟩ : BufTy).Contents (Elt F) → (⟨S9999999, .i32⟩ : BufTy).Contents (Elt F))
  :: StableHlo.unary main_v33 main_v46 ((extractStridedSlice S9999999 ![0] · slices_S10000000_S9999999_0) : (⟨S10000000, .i32⟩ : BufTy).Contents (Elt F) → (⟨S9999999, .i32⟩ : BufTy).Contents (Elt F))
  :: StableHlo.binary main_v45 main_v46 main_v47 (cmpi .ne : (⟨S9999999, .i32⟩ : BufTy).Contents (Elt F) → (⟨S9999999, .i32⟩ : BufTy).Contents (Elt F) → (⟨S9999999, .i1⟩ : BufTy).Contents (Elt F))
  :: StableHlo.binary main_v44 main_v47 main_v48 (ori : (⟨S9999999, .i1⟩ : BufTy).Contents (Elt F) → (⟨S9999999, .i1⟩ : BufTy).Contents (Elt F) → (⟨S9999999, .i1⟩ : BufTy).Contents (Elt F))
  :: [] )

/-- 2 operations: the single one put in front of those comparisons, and the result widened to integers. -/
abbrev joinMarks : List (HloOp τ sig (Elt F)) :=
  ( StableHlo.binary main_v41 main_v48 main_v49 ((fun a b => concatenate S10000000 0 [⟨S1, a⟩, ⟨S9999999, b⟩] concatenates_S1_S9999999_S10000000_d0) : (⟨S1, .i1⟩ : BufTy).Contents (Elt F) → (⟨S9999999, .i1⟩ : BufTy).Contents (Elt F) → (⟨S10000000, .i1⟩ : BufTy).Contents (Elt F))
  :: StableHlo.unary main_v49 main_v50 ((extui 32 · natLt_1_32) : (⟨S10000000, .i1⟩ : BufTy).Contents (Elt F) → (⟨S10000000, .i32⟩ : BufTy).Contents (Elt F))
  :: [] )

/-- The stretch is the five pieces in order. -/
theorem whole_eq : (Cert.KernelIdeal.Gen.hostOps1_2 (F := F)) = gatherRows ++ (gatherCols ++ (gatherVals ++ (shiftCompare ++ joinMarks))) := rfl

/-- So its fold is the five folds in turn. -/
theorem after_whole (X : Valuation τ sig (Elt F)) :
    after (Cert.KernelIdeal.Gen.hostOps1_2 (F := F)) X = after joinMarks (after shiftCompare (after gatherVals (after gatherCols (after gatherRows X)))) := by
  rw [whole_eq]
  simp only [StableHlo.after_append]

end Cert.KernelIdeal.MarksCut

end
-- ==== Proof.RefMarksCut.lean ====
/-
  The reference's thirty-eight host operations between the sort and the running count, cut into five pieces: the three gathers by the sort order (rows, columns, values), the comparisons of the sorted rows and columns with themselves shifted by one position, and the joining of a leading one to those comparisons.
-/
import proofs.«133797_j11905649344580_1_alg».proof.Proof.RefStretches
import Idealize.ShloMosaic.Lib.Pipeline.Frame

set_option maxRecDepth 16384

noncomputable section

namespace Cert.ReferenceIdeal.MarksCut

open Cert.ReferenceIdeal Cert.ReferenceIdeal.Gen Idealize.ShloMosaic Idealize.ShloMosaic.TcCoe Idealize.SL.Sem Idealize.ShloMosaic.StableHlo

variable {F : FTy → Type} [FloatOps F]

/-- 9 operations: the sort order made an index (negative entries wrapped), then the rows gathered by it. -/
abbrev gatherRows : List (HloOp τ sig (Elt F)) :=
  ( StableHlo.nullary main_c (constantI S_ 32 0#32)
  :: StableHlo.unary main_c main_v24 (broadcastInDim S10000000 ![] bcast_S_S10000000 : (⟨S_, .i32⟩ : BufTy).Contents (Elt F) → (⟨S10000000, .i32⟩ : BufTy).Contents (Elt F))
  :: StableHlo.binary main_v23 main_v24 main_v25 (cmpi .slt : (⟨S10000000, .i32⟩ : BufTy).Contents (Elt F) → (⟨S10000000, .i32⟩ : BufTy).Contents (Elt F) → (⟨S10000000, .i1⟩ : BufTy).Contents (Elt F))
  :: StableHlo.nullary main_c_2 (constantI S_ 32 10000000#32)
  :: StableHlo.unary main_c_2 main_v26 (broadcastInDim S10000000 ![] bcast_S_S10000000 : (⟨S_, .i32⟩ : BufTy).Contents (Elt F) → (⟨S10000000, .i32⟩ : BufTy).Contents (Elt F))
  :: StableHlo.binary main_v23 main_v26 main_v27 (addi : (⟨S10000000, .i32⟩ : BufTy).Contents (Elt F) → (⟨S10000000, .i32⟩ : BufTy).Contents (Elt F) → (⟨S10000000, .i32⟩ : BufTy).Contents (Elt F))
  :: StableHlo.ternary main_v25 main_v27 main_v23 main_v28 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v28 main_v29 (broadcastInDim S10000000x1 ![0] bcast_S10000000_S10000000x1_0 : (⟨S10000000, .i32⟩ : BufTy).Contents (Elt F) → (⟨S10000000x1, .i32⟩ : BufTy).Contents (Elt F))
  :: StableHlo.binary main_v13 main_v29 main_v30 ((fun x i => Host.gather gather_S10000000_S10000000x1_S10000000_n_0_n_n_0_1_1 x i) : (⟨S10000000, .i32⟩ : BufTy).Contents (Elt F) → (⟨S10000000x1, .i32⟩ : BufTy).Contents (Elt F) → (⟨S10000000, .i32⟩ : BufTy).Contents (Elt F))
  :: [] )

/-- 9 operations: the same for the columns. -/
abbrev gatherCols : List (HloOp τ sig (Elt F)) :=
  ( StableHlo.nullary main_c_3 (constantI S_ 32 0#32)
  :: StableHlo.unary main_c_3 main_v31 (broadcastInDim S10000000 ![] bcast_S_S10000000 : (⟨S_, .i32⟩ : BufTy).Contents (Elt F) → (⟨S10000000, .i32⟩ : BufTy).Contents (Elt F))
  :: StableHlo.binary main_v23 main_v31 main_v32 (cmpi .slt : (⟨S10000000, .i32⟩ : BufTy).Contents (Elt F) → (⟨S10000000, .i32⟩ : BufTy).Contents (Elt F) → (⟨S10000000, .i1⟩ : BufTy).Contents (Elt F))
  :: StableHlo.nullary main_c_4 (constantI S_ 32 10000000#32)
  :: StableHlo.unary main_c_4 main_v33 (broadcastInDim S10000000 ![] bcast_S_S10000000 : (⟨S_, .i32⟩ : BufTy).Contents (Elt F) → (⟨S10000000, .i32⟩ : BufTy).Contents (Elt F))
  :: StableHlo.binary main_v23 main_v33 main_v34 (addi : (⟨S10000000, .i32⟩ : BufTy).Contents (Elt F) → (⟨S10000000, .i32⟩ : BufTy).Contents (Elt F) → (⟨S10000000, .i32⟩ : BufTy).Contents (Elt F))
  :: StableHlo.ternary main_v32 main_v34 main_v23 main_v35 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v35 main_v36 (broadcastInDim S10000000x1 ![0] bcast_S10000000_S10000000x1_0 : (⟨S10000000, .i32⟩ : BufTy).Contents (Elt F) → (⟨S10000000x1, .i32⟩ : BufTy).Contents (Elt F))
  :: StableHlo.binary main_v16 main_v36 main_v37 ((fun x i => Host.gather gather_S10000000_S10000000x1_S10000000_n_0_n_n_0_1_1 x i) : (⟨S10000000, .i32⟩ : BufTy).Contents (Elt F) → (⟨S10000000x1, .i32⟩ : BufTy).Contents (Elt F) → (⟨S10000000, .i32⟩ : BufTy).Contents (Elt F))
  :: [] )

/-- 9 operations: the same for the two channels of products. -/
abbrev gatherVals : List (HloOp τ sig (Elt F)) :=
  ( StableHlo.nullary main_c_5 (constantI S_ 32 0#32)
  :: StableHlo.unary main_c_5 main_v38 (broadcastInDim S10000000 ![] bcast_S_S10000000 : (⟨S_, .i32⟩ : BufTy).Contents (Elt F) → (⟨S10000000, .i32⟩ : BufTy).Contents (Elt F))
  :: StableHlo.binary main_v23 main_v38 main_v39 (cmpi .slt : (⟨S10000000, .i32⟩ : BufTy).Contents (Elt F) → (⟨S10000000, .i32⟩ : BufTy).Contents (Elt F) → (⟨S10000000, .i1⟩ : BufTy).Contents (Elt F))
  :: StableHlo.nullary main_c_6 (constantI S_ 32 10000000#32)
  :: StableHlo.unary main_c_6 main_v40 (broadcastInDim S10000000 ![] bcast_S_S10000000 : (⟨S_, .i32⟩ : BufTy).Contents (Elt F) → (⟨S10000000, .i32⟩ : BufTy).Contents (Elt F))
  :: StableHlo.binary main_v23 main_v40 main_v41 (addi : (⟨S10000000, .i32⟩ : BufTy).Contents (Elt F) → (⟨S10000000, .i32⟩ : BufTy).Contents (Elt F) → (⟨S10000000, .i32⟩ : BufTy).Contents (Elt F))
  :: StableHlo.ternary main_v39 main_v41 main_v23 main_v42 (select : (⟨S10000000, .i1⟩ : BufTy).Contents (Elt F) → (⟨S10000000, .i32⟩ : BufTy).Contents (Elt F) → (⟨S10000000, .i32⟩ : BufTy).Contents (Elt F) → (⟨S10000000, .i32⟩ : BufTy).Contents (Elt F))
  :: StableHlo.unary main_v42 main_v43 (broadcastInDim S10000000x1 ![0] bcast_S10000000_S10000000x1_0 : (⟨S10000000, .i32⟩ : BufTy).Contents (Elt F) → (⟨S10000000x1, .i32⟩ : BufTy).Contents (Elt F))
  :: StableHlo.binary main_v22 main_v43 main_v44 ((fun x i => Host.gather gather_S2x10000000_S10000000x1_S2x10000000_0_1_n_n_1_1_21 x i) : (⟨S2x10000000, .f32⟩ : BufTy).Contents (Elt F) → (⟨S10000000x1, .i32⟩ : BufTy).Contents (Elt F) → (⟨S2x10000000, .f32⟩ : BufTy).Contents (Elt F))
  :: [] )

/-- 9 operations: a single one, and for each position after the first whether the sorted row or the sorted column differs from the one before. -/
abbrev shiftCompare : List (HloOp τ sig (Elt F)) :=
  ( StableHlo.nullary main_c_7 (constantI S_ 1 1#1)
  :: StableHlo.unary main_c_7 main_v45 (broadcastInDim S1 ![] bcast_S_S1 : (⟨S_, .i1⟩ : BufTy).Contents (Elt F) → (⟨S1, .i1⟩ : BufTy).Contents (Elt F))
  :: StableHlo.unary main_v30 main_v46 ((extractStridedSlice S9999999 ![1] · slices_S10000000_S9999999_1) : (⟨S10000000, .i32⟩ : BufTy).Contents (Elt F) → (⟨S9999999, .i32⟩ : BufTy).Contents (Elt F))
  :: StableHlo.unary main_v30 main_v47 ((extractStridedSlice S9999999 ![0] · slices_S10000000_S9999999_0) : (⟨S10000000, .i32⟩ : BufTy).Contents (Elt F) → (⟨S9999999, .i32⟩ : BufTy).Contents (Elt F))
  :: StableHlo.binary main_v46 main_v47 main_v48 (cmpi .ne : (⟨S9999999, .i32⟩ : BufTy).Contents (Elt F) → (⟨S9999999, .i32⟩ : BufTy).Contents (Elt F) → (⟨S9999999, .i1⟩ : BufTy).Contents (Elt F))
  :: StableHlo.unary main_v37 main_v49 ((extractStridedSlice S9999999 ![1] · slices_S10000000_S9999999_1) : (⟨S10000000, .i32⟩ : BufTy).Contents (Elt F) → (⟨S9999999, .i32⟩ : BufTy).Contents (Elt F))
  :: StableHlo.unary main_v37 main_v50 ((extractStridedSlice S9999999 ![0] · slices_S10000000_S9999999_0) : (⟨S10000000, .i32⟩ : BufTy).Contents (Elt F) → (⟨S9999999, .i32⟩ : BufTy).Contents (Elt F))
  :: StableHlo.binary main_v49 main_v50 main_v51 (cmpi .ne : (⟨S9999999, .i32⟩ : BufTy).Contents (Elt F) → (⟨S9999999, .i32⟩ : BufTy).Contents (Elt F) → (⟨S9999999, .i1⟩ : BufTy).Contents (Elt F))
  :: StableHlo.binary main_v48 main_v51 main_v52 (ori : (⟨S9999999, .i1⟩ : BufTy).Contents (Elt F) → (⟨S9999999, .i1⟩ : BufTy).Contents (Elt F) → (⟨S9999999, .i1⟩ : BufTy).Contents (Elt F))
  :: [] )

/-- 2 operations: the single one put in front of those comparisons, and the result widened to integers. -/
abbrev joinMarks : List (HloOp τ sig (Elt F)) :=
  ( StableHlo.binary main_v45 main_v52 main_v53 ((fun a b => concatenate S10000000 0 [⟨S1, a⟩, ⟨S9999999, b⟩] concatenates_S1_S9999999_S10000000_d0) : (⟨S1, .i1⟩ : BufTy).Contents (Elt F) → (⟨S9999999, .i1⟩ : BufTy).Contents (Elt F) → (⟨S10000000, .i1⟩ : BufTy).Contents (Elt F))
  :: StableHlo.unary main_v53 main_v54 ((extui 32 · natLt_1_32) : (⟨S10000000, .i1⟩ : BufTy).Contents (Elt F) → (⟨S10000000, .i32⟩ : BufTy).Contents (Elt F))
  :: [] )

/-- The stretch is the five pieces in order. -/
theorem whole_eq : (Cert.ReferenceIdeal.Stretches.marksOps (F := F)) = gatherRows ++ (gatherCols ++ (gatherVals ++ (shiftCompare ++ joinMarks))) := rfl

/-- So its fold is the five folds in turn. -/
theorem after_whole (X : Valuation τ sig (Elt F)) :
    after (Cert.ReferenceIdeal.Stretches.marksOps (F := F)) X = after joinMarks (after shiftCompare (after gatherVals (after gatherCols (after gatherRows X)))) := by
  rw [whole_eq]
  simp only [StableHlo.after_append]

end Cert.ReferenceIdeal.MarksCut

end
-- ==== Proof.AgreeGatherRows.lean ====
/-
  The rows gathered by the sort order: the same gather of the same column by the same order; the order, the other column and the reshaped products pass through.

  The kernel's program and the reference run this stretch on buffers that differ only in their numbers.  Each
  operation reads results of earlier operations of the stretch and a few buffers computed before it; if those few
  hold the same contents in the two programs, so does every buffer a later stretch reads.
-/
import proofs.«133797_j11905649344580_1_alg».proof.Proof.KerMarksCut
import proofs.«133797_j11905649344580_1_alg».proof.Proof.RefMarksCut
import Idealize.ShloMosaic.Lib.StableHlo.Run

set_option maxRecDepth 16384

noncomputable section

namespace Cert.Agree.GatherRows

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v19 : W (Proc.devRef .tc Cert.KernelIdeal.main_v19) = X (Proc.devRef .tc Cert.ReferenceIdeal.main_v23))
  (h_v13 : W (Proc.devRef .tc Cert.KernelIdeal.main_v13) = X (Proc.devRef .tc Cert.ReferenceIdeal.main_v13))
  (h_v16 : W (Proc.devRef .tc Cert.KernelIdeal.main_v16) = X (Proc.devRef .tc Cert.ReferenceIdeal.main_v16))
  (h_v18 : W (Proc.devRef .tc Cert.KernelIdeal.main_v18) = X (Proc.devRef .tc Cert.ReferenceIdeal.main_v22))

include h_v19 h_v13 h_v16 h_v18 in
set_option maxHeartbeats 1000000 in
theorem v26 :
    after (Cert.KernelIdeal.MarksCut.gatherRows (F := F)) W (Proc.devRef .tc Cert.KernelIdeal.main_v26)
      = after (Cert.ReferenceIdeal.MarksCut.gatherRows (F := F)) X (Proc.devRef .tc Cert.ReferenceIdeal.main_v30) := by
  simp only [Cert.KernelIdeal.MarksCut.gatherRows, Cert.ReferenceIdeal.MarksCut.gatherRows]
  after_results_simp
  try simp only [h_v19, h_v13, h_v16, h_v18]
  try rfl

include h_v19 h_v13 h_v16 h_v18 in
set_option maxHeartbeats 1000000 in
theorem v19 :
    after (Cert.KernelIdeal.MarksCut.gatherRows (F := F)) W (Proc.devRef .tc Cert.KernelIdeal.main_v19)
      = after (Cert.ReferenceIdeal.MarksCut.gatherRows (F := F)) X (Proc.devRef .tc Cert.ReferenceIdeal.main_v23) := by
  simp only [Cert.KernelIdeal.MarksCut.gatherRows, Cert.ReferenceIdeal.MarksCut.gatherRows]
  after_results_simp
  try simp only [h_v19, h_v13, h_v16, h_v18]
  try rfl

include h_v19 h_v13 h_v16 h_v18 in
set_option maxHeartbeats 1000000 in
theorem v16 :
    after (Cert.KernelIdeal.MarksCut.gatherRows (F := F)) W (Proc.devRef .tc Cert.KernelIdeal.main_v16)
      = after (Cert.ReferenceIdeal.MarksCut.gatherRows (F := F)) X (Proc.devRef .tc Cert.ReferenceIdeal.main_v16) := by
  simp only [Cert.KernelIdeal.MarksCut.gatherRows, Cert.ReferenceIdeal.MarksCut.gatherRows]
  after_results_simp
  try simp only [h_v19, h_v13, h_v16, h_v18]
  try rfl

include h_v19 h_v13 h_v16 h_v18 in
set_option maxHeartbeats 1000000 in
theorem v18 :
    after (Cert.KernelIdeal.MarksCut.gatherRows (F := F)) W (Proc.devRef .tc Cert.KernelIdeal.main_v18)
      = after (Cert.ReferenceIdeal.MarksCut.gatherRows (F := F)) X (Proc.devRef .tc Cert.ReferenceIdeal.main_v22) := by
  simp only [Cert.KernelIdeal.MarksCut.gatherRows, Cert.ReferenceIdeal.MarksCut.gatherRows]
  after_results_simp
  try simp only [h_v19, h_v13, h_v16, h_v18]
  try rfl

end Cert.Agree.GatherRows

end
-- ==== Proof.AgreeGatherCols.lean ====
/-
  The columns gathered by the sort order; the order, the reshaped products and the sorted rows pass through.

  The kernel's program and the reference run this stretch on buffers that differ only in their numbers.  Each
  operation reads results of earlier operations of the stretch and a few buffers computed before it; if those few
  hold the same contents in the two programs, so does every buffer a later stretch reads.
-/
import proofs.«133797_j11905649344580_1_alg».proof.Proof.KerMarksCut
import proofs.«133797_j11905649344580_1_alg».proof.Proof.RefMarksCut
import Idealize.ShloMosaic.Lib.StableHlo.Run

set_option maxRecDepth 16384

noncomputable section

namespace Cert.Agree.GatherCols

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v19 : W (Proc.devRef .tc Cert.KernelIdeal.main_v19) = X (Proc.devRef .tc Cert.ReferenceIdeal.main_v23))
  (h_v16 : W (Proc.devRef .tc Cert.KernelIdeal.main_v16) = X (Proc.devRef .tc Cert.ReferenceIdeal.main_v16))
  (h_v18 : W (Proc.devRef .tc Cert.KernelIdeal.main_v18) = X (Proc.devRef .tc Cert.ReferenceIdeal.main_v22))
  (h_v26 : W (Proc.devRef .tc Cert.KernelIdeal.main_v26) = X (Proc.devRef .tc Cert.ReferenceIdeal.main_v30))

include h_v19 h_v16 h_v18 h_v26 in
set_option maxHeartbeats 1000000 in
theorem v33 :
    after (Cert.KernelIdeal.MarksCut.gatherCols (F := F)) W (Proc.devRef .tc Cert.KernelIdeal.main_v33)
      = after (Cert.ReferenceIdeal.MarksCut.gatherCols (F := F)) X (Proc.devRef .tc Cert.ReferenceIdeal.main_v37) := by
  simp only [Cert.KernelIdeal.MarksCut.gatherCols, Cert.ReferenceIdeal.MarksCut.gatherCols]
  after_results_simp
  try simp only [h_v19, h_v16, h_v18, h_v26]
  try rfl

include h_v19 h_v16 h_v18 h_v26 in
set_option maxHeartbeats 1000000 in
theorem v19 :
    after (Cert.KernelIdeal.MarksCut.gatherCols (F := F)) W (Proc.devRef .tc Cert.KernelIdeal.main_v19)
      = after (Cert.ReferenceIdeal.MarksCut.gatherCols (F := F)) X (Proc.devRef .tc Cert.ReferenceIdeal.main_v23) := by
  simp only [Cert.KernelIdeal.MarksCut.gatherCols, Cert.ReferenceIdeal.MarksCut.gatherCols]
  after_results_simp
  try simp only [h_v19, h_v16, h_v18, h_v26]
  try rfl

include h_v19 h_v16 h_v18 h_v26 in
set_option maxHeartbeats 1000000 in
theorem v18 :
    after (Cert.KernelIdeal.MarksCut.gatherCols (F := F)) W (Proc.devRef .tc Cert.KernelIdeal.main_v18)
      = after (Cert.ReferenceIdeal.MarksCut.gatherCols (F := F)) X (Proc.devRef .tc Cert.ReferenceIdeal.main_v22) := by
  simp only [Cert.KernelIdeal.MarksCut.gatherCols, Cert.ReferenceIdeal.MarksCut.gatherCols]
  after_results_simp
  try simp only [h_v19, h_v16, h_v18, h_v26]
  try rfl

include h_v19 h_v16 h_v18 h_v26 in
set_option maxHeartbeats 1000000 in
theorem v26 :
    after (Cert.KernelIdeal.MarksCut.gatherCols (F := F)) W (Proc.devRef .tc Cert.KernelIdeal.main_v26)
      = after (Cert.ReferenceIdeal.MarksCut.gatherCols (F := F)) X (Proc.devRef .tc Cert.ReferenceIdeal.main_v30) := by
  simp only [Cert.KernelIdeal.MarksCut.gatherCols, Cert.ReferenceIdeal.MarksCut.gatherCols]
  after_results_simp
  try simp only [h_v19, h_v16, h_v18, h_v26]
  try rfl

end Cert.Agree.GatherCols

end
-- ==== Proof.AgreeGatherVals.lean ====
/-
  The two channels of products gathered by the sort order; the sorted rows and columns pass through.

  The kernel's program and the reference run this stretch on buffers that differ only in their numbers.  Each
  operation reads results of earlier operations of the stretch and a few buffers computed before it; if those few
  hold the same contents in the two programs, so does every buffer a later stretch reads.
-/
import proofs.«133797_j11905649344580_1_alg».proof.Proof.KerMarksCut
import proofs.«133797_j11905649344580_1_alg».proof.Proof.RefMarksCut
import Idealize.ShloMosaic.Lib.StableHlo.Run

set_option maxRecDepth 16384

noncomputable section

namespace Cert.Agree.GatherVals

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v19 : W (Proc.devRef .tc Cert.KernelIdeal.main_v19) = X (Proc.devRef .tc Cert.ReferenceIdeal.main_v23))
  (h_v18 : W (Proc.devRef .tc Cert.KernelIdeal.main_v18) = X (Proc.devRef .tc Cert.ReferenceIdeal.main_v22))
  (h_v26 : W (Proc.devRef .tc Cert.KernelIdeal.main_v26) = X (Proc.devRef .tc Cert.ReferenceIdeal.main_v30))
  (h_v33 : W (Proc.devRef .tc Cert.KernelIdeal.main_v33) = X (Proc.devRef .tc Cert.ReferenceIdeal.main_v37))

include h_v19 h_v18 h_v26 h_v33 in
set_option maxHeartbeats 1000000 in
theorem v40 :
    after (Cert.KernelIdeal.MarksCut.gatherVals (F := F)) W (Proc.devRef .tc Cert.KernelIdeal.main_v40)
      = after (Cert.ReferenceIdeal.MarksCut.gatherVals (F := F)) X (Proc.devRef .tc Cert.ReferenceIdeal.main_v44) := by
  simp only [Cert.KernelIdeal.MarksCut.gatherVals, Cert.ReferenceIdeal.MarksCut.gatherVals]
  after_results_simp
  try simp only [h_v19, h_v18, h_v26, h_v33]
  try rfl

include h_v19 h_v18 h_v26 h_v33 in
set_option maxHeartbeats 1000000 in
theorem v26 :
    after (Cert.KernelIdeal.MarksCut.gatherVals (F := F)) W (Proc.devRef .tc Cert.KernelIdeal.main_v26)
      = after (Cert.ReferenceIdeal.MarksCut.gatherVals (F := F)) X (Proc.devRef .tc Cert.ReferenceIdeal.main_v30) := by
  simp only [Cert.KernelIdeal.MarksCut.gatherVals, Cert.ReferenceIdeal.MarksCut.gatherVals]
  after_results_simp
  try simp only [h_v19, h_v18, h_v26, h_v33]
  try rfl

include h_v19 h_v18 h_v26 h_v33 in
set_option maxHeartbeats 1000000 in
theorem v33 :
    after (Cert.KernelIdeal.MarksCut.gatherVals (F := F)) W (Proc.devRef .tc Cert.KernelIdeal.main_v33)
      = after (Cert.ReferenceIdeal.MarksCut.gatherVals (F := F)) X (Proc.devRef .tc Cert.ReferenceIdeal.main_v37) := by
  simp only [Cert.KernelIdeal.MarksCut.gatherVals, Cert.ReferenceIdeal.MarksCut.gatherVals]
  after_results_simp
  try simp only [h_v19, h_v18, h_v26, h_v33]
  try rfl

end Cert.Agree.GatherVals

end
-- ==== Proof.AgreeShiftCompare.lean ====
/-
  The comparisons of the sorted rows and columns with themselves shifted by one position, and the single leading one: the same operations of the same two sorted arrays; the three sorted arrays pass through.

  The kernel's program and the reference run this stretch on buffers that differ only in their numbers.  Each
  operation reads results of earlier operations of the stretch and a few buffers computed before it; if those few
  hold the same contents in the two programs, so does every buffer a later stretch reads.
-/
import proofs.«133797_j11905649344580_1_alg».proof.Proof.KerMarksCut
import proofs.«133797_j11905649344580_1_alg».proof.Proof.RefMarksCut
import Idealize.ShloMosaic.Lib.StableHlo.Run

set_option maxRecDepth 16384

noncomputable section

namespace Cert.Agree.ShiftCompare

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v26 : W (Proc.devRef .tc Cert.KernelIdeal.main_v26) = X (Proc.devRef .tc Cert.ReferenceIdeal.main_v30))
  (h_v33 : W (Proc.devRef .tc Cert.KernelIdeal.main_v33) = X (Proc.devRef .tc Cert.ReferenceIdeal.main_v37))
  (h_v40 : W (Proc.devRef .tc Cert.KernelIdeal.main_v40) = X (Proc.devRef .tc Cert.ReferenceIdeal.main_v44))

include h_v26 h_v33 h_v40 in
set_option maxHeartbeats 1000000 in
theorem v41 :
    after (Cert.KernelIdeal.MarksCut.shiftCompare (F := F)) W (Proc.devRef .tc Cert.KernelIdeal.main_v41)
      = after (Cert.ReferenceIdeal.MarksCut.shiftCompare (F := F)) X (Proc.devRef .tc Cert.ReferenceIdeal.main_v45) := by
  simp only [Cert.KernelIdeal.MarksCut.shiftCompare, Cert.ReferenceIdeal.MarksCut.shiftCompare]
  after_results_simp
  try simp only [h_v26, h_v33, h_v40]
  try rfl

include h_v26 h_v33 h_v40 in
set_option maxHeartbeats 1000000 in
theorem v48 :
    after (Cert.KernelIdeal.MarksCut.shiftCompare (F := F)) W (Proc.devRef .tc Cert.KernelIdeal.main_v48)
      = after (Cert.ReferenceIdeal.MarksCut.shiftCompare (F := F)) X (Proc.devRef .tc Cert.ReferenceIdeal.main_v52) := by
  simp only [Cert.KernelIdeal.MarksCut.shiftCompare, Cert.ReferenceIdeal.MarksCut.shiftCompare]
  after_results_simp
  try simp only [h_v26, h_v33, h_v40]
  try rfl

include h_v26 h_v33 h_v40 in
set_option maxHeartbeats 1000000 in
theorem v26 :
    after (Cert.KernelIdeal.MarksCut.shiftCompare (F := F)) W (Proc.devRef .tc Cert.KernelIdeal.main_v26)
      = after (Cert.ReferenceIdeal.MarksCut.shiftCompare (F := F)) X (Proc.devRef .tc Cert.ReferenceIdeal.main_v30) := by
  simp only [Cert.KernelIdeal.MarksCut.shiftCompare, Cert.ReferenceIdeal.MarksCut.shiftCompare]
  after_results_simp
  try simp only [h_v26, h_v33, h_v40]
  try rfl

include h_v26 h_v33 h_v40 in
set_option maxHeartbeats 1000000 in
theorem v33 :
    after (Cert.KernelIdeal.MarksCut.shiftCompare (F := F)) W (Proc.devRef .tc Cert.KernelIdeal.main_v33)
      = after (Cert.ReferenceIdeal.MarksCut.shiftCompare (F := F)) X (Proc.devRef .tc Cert.ReferenceIdeal.main_v37) := by
  simp only [Cert.KernelIdeal.MarksCut.shiftCompare, Cert.ReferenceIdeal.MarksCut.shiftCompare]
  after_results_simp
  try simp only [h_v26, h_v33, h_v40]
  try rfl

include h_v26 h_v33 h_v40 in
set_option maxHeartbeats 1000000 in
theorem v40 :
    after (Cert.KernelIdeal.MarksCut.shiftCompare (F := F)) W (Proc.devRef .tc Cert.KernelIdeal.main_v40)
      = after (Cert.ReferenceIdeal.MarksCut.shiftCompare (F := F)) X (Proc.devRef .tc Cert.ReferenceIdeal.main_v44) := by
  simp only [Cert.KernelIdeal.MarksCut.shiftCompare, Cert.ReferenceIdeal.MarksCut.shiftCompare]
  after_results_simp
  try simp only [h_v26, h_v33, h_v40]
  try rfl

end Cert.Agree.ShiftCompare

end
-- ==== Proof.AgreeJoinMarks.lean ====
/-
  The marks: a leading one joined to the shifted comparisons and widened to integers — one function of the two operands, applied in both programs to the same operands; the three sorted arrays pass through.

  The kernel's program and the reference run this stretch on buffers that differ only in their numbers.  Each
  operation reads results of earlier operations of the stretch and a few buffers computed before it; if those few
  hold the same contents in the two programs, so does every buffer a later stretch reads.
-/
import proofs.«133797_j11905649344580_1_alg».proof.Proof.KerMarksCut
import proofs.«133797_j11905649344580_1_alg».proof.Proof.RefMarksCut
import Idealize.ShloMosaic.Lib.StableHlo.Run

set_option maxRecDepth 16384

noncomputable section

namespace Cert.Agree.JoinMarks

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v41 : W (Proc.devRef .tc Cert.KernelIdeal.main_v41) = X (Proc.devRef .tc Cert.ReferenceIdeal.main_v45))
  (h_v48 : W (Proc.devRef .tc Cert.KernelIdeal.main_v48) = X (Proc.devRef .tc Cert.ReferenceIdeal.main_v52))
  (h_v26 : W (Proc.devRef .tc Cert.KernelIdeal.main_v26) = X (Proc.devRef .tc Cert.ReferenceIdeal.main_v30))
  (h_v33 : W (Proc.devRef .tc Cert.KernelIdeal.main_v33) = X (Proc.devRef .tc Cert.ReferenceIdeal.main_v37))
  (h_v40 : W (Proc.devRef .tc Cert.KernelIdeal.main_v40) = X (Proc.devRef .tc Cert.ReferenceIdeal.main_v44))

include h_v41 h_v48 h_v26 h_v33 h_v40 in
set_option maxHeartbeats 1000000 in
theorem v26 :
    after (Cert.KernelIdeal.MarksCut.joinMarks (F := F)) W (Proc.devRef .tc Cert.KernelIdeal.main_v26)
      = after (Cert.ReferenceIdeal.MarksCut.joinMarks (F := F)) X (Proc.devRef .tc Cert.ReferenceIdeal.main_v30) := by
  simp only [Cert.KernelIdeal.MarksCut.joinMarks, Cert.ReferenceIdeal.MarksCut.joinMarks]
  after_results_simp
  try simp only [h_v41, h_v48, h_v26, h_v33, h_v40]
  try rfl

include h_v41 h_v48 h_v26 h_v33 h_v40 in
set_option maxHeartbeats 1000000 in
theorem v33 :
    after (Cert.KernelIdeal.MarksCut.joinMarks (F := F)) W (Proc.devRef .tc Cert.KernelIdeal.main_v33)
      = after (Cert.ReferenceIdeal.MarksCut.joinMarks (F := F)) X (Proc.devRef .tc Cert.ReferenceIdeal.main_v37) := by
  simp only [Cert.KernelIdeal.MarksCut.joinMarks, Cert.ReferenceIdeal.MarksCut.joinMarks]
  after_results_simp
  try simp only [h_v41, h_v48, h_v26, h_v33, h_v40]
  try rfl

include h_v41 h_v48 h_v26 h_v33 h_v40 in
set_option maxHeartbeats 1000000 in
theorem v40 :
    after (Cert.KernelIdeal.MarksCut.joinMarks (F := F)) W (Proc.devRef .tc Cert.KernelIdeal.main_v40)
      = after (Cert.ReferenceIdeal.MarksCut.joinMarks (F := F)) X (Proc.devRef .tc Cert.ReferenceIdeal.main_v44) := by
  simp only [Cert.KernelIdeal.MarksCut.joinMarks, Cert.ReferenceIdeal.MarksCut.joinMarks]
  after_results_simp
  try simp only [h_v41, h_v48, h_v26, h_v33, h_v40]
  try rfl

include h_v41 h_v48 h_v26 h_v33 h_v40 in
set_option maxHeartbeats 1000000 in
/-- The joined marks: both programs apply the same joining and widening to operands that agree. -/
theorem v50 :
    after (Cert.KernelIdeal.MarksCut.joinMarks (F := F)) W (Proc.devRef .tc Cert.KernelIdeal.main_v50)
      = after (Cert.ReferenceIdeal.MarksCut.joinMarks (F := F)) X (Proc.devRef .tc Cert.ReferenceIdeal.main_v54) := by
  simp only [Cert.KernelIdeal.MarksCut.joinMarks, Cert.ReferenceIdeal.MarksCut.joinMarks]
  after_results_simp
  exact congrArg₂ (fun (a : (⟨Cert.KernelIdeal.S1, .i1⟩ : BufTy).Contents (Elt F)) (b : (⟨Cert.KernelIdeal.S9999999, .i1⟩ : BufTy).Contents (Elt F)) =>
      extui 32 (concatenate Cert.KernelIdeal.S10000000 0 [⟨Cert.KernelIdeal.S1, a⟩, ⟨Cert.KernelIdeal.S9999999, b⟩] Cert.KernelIdeal.Gen.concatenates_S1_S9999999_S10000000_d0)
        Cert.KernelIdeal.Gen.natLt_1_32) h_v41 h_v48

end Cert.Agree.JoinMarks

end
-- ==== Proof.AgreeMarks.lean ====
/-
  The gathers by the sort order (rows, columns, values) and the marks of where a new (row, column) run starts: the
  same operations of the same order and the same three arrays, in the kernel's program and in the reference.

  The thirty-eight operations are five pieces; agreement of the sort order, the two index columns and the reshaped
  products is carried through them: the rows are gathered, then the columns, then the values; the gathered rows and
  columns are compared with themselves shifted by one position; and a leading one is joined to those comparisons.
-/
import proofs.«133797_j11905649344580_1_alg».proof.Proof.KerMarksCut
import proofs.«133797_j11905649344580_1_alg».proof.Proof.RefMarksCut
import proofs.«133797_j11905649344580_1_alg».proof.Proof.AgreeGatherRows
import proofs.«133797_j11905649344580_1_alg».proof.Proof.AgreeGatherCols
import proofs.«133797_j11905649344580_1_alg».proof.Proof.AgreeGatherVals
import proofs.«133797_j11905649344580_1_alg».proof.Proof.AgreeShiftCompare
import proofs.«133797_j11905649344580_1_alg».proof.Proof.AgreeJoinMarks
import Idealize.ShloMosaic.Lib.StableHlo.Run

noncomputable section

namespace Cert.Agree.Marks

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v19 : W (Proc.devRef .tc Cert.KernelIdeal.main_v19) = X (Proc.devRef .tc Cert.ReferenceIdeal.main_v23))
  (h_v13 : W (Proc.devRef .tc Cert.KernelIdeal.main_v13) = X (Proc.devRef .tc Cert.ReferenceIdeal.main_v13))
  (h_v16 : W (Proc.devRef .tc Cert.KernelIdeal.main_v16) = X (Proc.devRef .tc Cert.ReferenceIdeal.main_v16))
  (h_v18 : W (Proc.devRef .tc Cert.KernelIdeal.main_v18) = X (Proc.devRef .tc Cert.ReferenceIdeal.main_v22))

include h_v19 h_v13 h_v16 h_v18 in
/-- The sorted rows, columns and values and the run marks agree. -/
theorem all :
    (after (Cert.KernelIdeal.Gen.hostOps1_2 (F := F)) W (Proc.devRef .tc Cert.KernelIdeal.main_v26) = after (Cert.ReferenceIdeal.Stretches.marksOps (F := F)) X (Proc.devRef .tc Cert.ReferenceIdeal.main_v30))
    ∧ (after (Cert.KernelIdeal.Gen.hostOps1_2 (F := F)) W (Proc.devRef .tc Cert.KernelIdeal.main_v33) = after (Cert.ReferenceIdeal.Stretches.marksOps (F := F)) X (Proc.devRef .tc Cert.ReferenceIdeal.main_v37))
    ∧ (after (Cert.KernelIdeal.Gen.hostOps1_2 (F := F)) W (Proc.devRef .tc Cert.KernelIdeal.main_v40) = after (Cert.ReferenceIdeal.Stretches.marksOps (F := F)) X (Proc.devRef .tc Cert.ReferenceIdeal.main_v44))
    ∧ (after (Cert.KernelIdeal.Gen.hostOps1_2 (F := F)) W (Proc.devRef .tc Cert.KernelIdeal.main_v50) = after (Cert.ReferenceIdeal.Stretches.marksOps (F := F)) X (Proc.devRef .tc Cert.ReferenceIdeal.main_v54)) := by
  rw [Cert.KernelIdeal.MarksCut.after_whole, Cert.ReferenceIdeal.MarksCut.after_whole]
  have a26 := Cert.Agree.GatherRows.v26 W X h_v19 h_v13 h_v16 h_v18
  have a19 := Cert.Agree.GatherRows.v19 W X h_v19 h_v13 h_v16 h_v18
  have a16 := Cert.Agree.GatherRows.v16 W X h_v19 h_v13 h_v16 h_v18
  have a18 := Cert.Agree.GatherRows.v18 W X h_v19 h_v13 h_v16 h_v18
  have b33 := Cert.Agree.GatherCols.v33 _ _ a19 a16 a18 a26
  have b19 := Cert.Agree.GatherCols.v19 _ _ a19 a16 a18 a26
  have b18 := Cert.Agree.GatherCols.v18 _ _ a19 a16 a18 a26
  have b26 := Cert.Agree.GatherCols.v26 _ _ a19 a16 a18 a26
  have c40 := Cert.Agree.GatherVals.v40 _ _ b19 b18 b26 b33
  have c26 := Cert.Agree.GatherVals.v26 _ _ b19 b18 b26 b33
  have c33 := Cert.Agree.GatherVals.v33 _ _ b19 b18 b26 b33
  have d41 := Cert.Agree.ShiftCompare.v41 _ _ c26 c33 c40
  have d48 := Cert.Agree.ShiftCompare.v48 _ _ c26 c33 c40
  have d26 := Cert.Agree.ShiftCompare.v26 _ _ c26 c33 c40
  have d33 := Cert.Agree.ShiftCompare.v33 _ _ c26 c33 c40
  have d40 := Cert.Agree.ShiftCompare.v40 _ _ c26 c33 c40
  exact ⟨Cert.Agree.JoinMarks.v26 _ _ d41 d48 d26 d33 d40, Cert.Agree.JoinMarks.v33 _ _ d41 d48 d26 d33 d40,
    Cert.Agree.JoinMarks.v40 _ _ d41 d48 d26 d33 d40, Cert.Agree.JoinMarks.v50 _ _ d41 d48 d26 d33 d40⟩

include h_v19 h_v13 h_v16 h_v18 in
theorem v26 : after (Cert.KernelIdeal.Gen.hostOps1_2 (F := F)) W (Proc.devRef .tc Cert.KernelIdeal.main_v26) = after (Cert.ReferenceIdeal.Stretches.marksOps (F := F)) X (Proc.devRef .tc Cert.ReferenceIdeal.main_v30) :=
  (all W X h_v19 h_v13 h_v16 h_v18).1
include h_v19 h_v13 h_v16 h_v18 in
theorem v33 : after (Cert.KernelIdeal.Gen.hostOps1_2 (F := F)) W (Proc.devRef .tc Cert.KernelIdeal.main_v33) = after (Cert.ReferenceIdeal.Stretches.marksOps (F := F)) X (Proc.devRef .tc Cert.ReferenceIdeal.main_v37) :=
  (all W X h_v19 h_v13 h_v16 h_v18).2.1
include h_v19 h_v13 h_v16 h_v18 in
theorem v40 : after (Cert.KernelIdeal.Gen.hostOps1_2 (F := F)) W (Proc.devRef .tc Cert.KernelIdeal.main_v40) = after (Cert.ReferenceIdeal.Stretches.marksOps (F := F)) X (Proc.devRef .tc Cert.ReferenceIdeal.main_v44) :=
  (all W X h_v19 h_v13 h_v16 h_v18).2.2.1
include h_v19 h_v13 h_v16 h_v18 in
theorem v50 : after (Cert.KernelIdeal.Gen.hostOps1_2 (F := F)) W (Proc.devRef .tc Cert.KernelIdeal.main_v50) = after (Cert.ReferenceIdeal.Stretches.marksOps (F := F)) X (Proc.devRef .tc Cert.ReferenceIdeal.main_v54) :=
  (all W X h_v19 h_v13 h_v16 h_v18).2.2.2

end Cert.Agree.Marks

end
-- ==== Proof.AgreeCount.lean ====
/-
  The running count of the marks: the same windowed sum of the same marks; the sorted rows, columns and values pass through.

  The kernel's program and the reference run this stretch on buffers that differ only in their numbers.  Each
  operation reads results of earlier operations of the stretch and a few buffers computed before it; if those few
  hold the same contents in the two programs, so does every buffer a later stretch reads.
-/
import proofs.«133797_j11905649344580_1_alg».proof.Proof.Gen.KernelIdeal.Launch
import proofs.«133797_j11905649344580_1_alg».proof.Proof.RefStretches
import Idealize.ShloMosaic.Lib.StableHlo.Run

set_option maxRecDepth 16384

noncomputable section

namespace Cert.Agree.Count

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v50 : W (Proc.devRef .tc Cert.KernelIdeal.main_v50) = X (Proc.devRef .tc Cert.ReferenceIdeal.main_v54))
  (h_v26 : W (Proc.devRef .tc Cert.KernelIdeal.main_v26) = X (Proc.devRef .tc Cert.ReferenceIdeal.main_v30))
  (h_v33 : W (Proc.devRef .tc Cert.KernelIdeal.main_v33) = X (Proc.devRef .tc Cert.ReferenceIdeal.main_v37))
  (h_v40 : W (Proc.devRef .tc Cert.KernelIdeal.main_v40) = X (Proc.devRef .tc Cert.ReferenceIdeal.main_v44))

include h_v50 h_v26 h_v33 h_v40 in
set_option maxHeartbeats 1000000 in
theorem v51 :
    after (Cert.KernelIdeal.Gen.hostOps1_3 (F := F)) W (Proc.devRef .tc Cert.KernelIdeal.main_v51)
      = after (Cert.ReferenceIdeal.Stretches.countOps (F := F)) X (Proc.devRef .tc Cert.ReferenceIdeal.main_v55) := by
  simp only [Cert.KernelIdeal.Gen.hostOps1_3, Cert.ReferenceIdeal.Stretches.countOps]
  after_results_simp
  try simp only [h_v50, h_v26, h_v33, h_v40]
  try rfl

include h_v50 h_v26 h_v33 h_v40 in
set_option maxHeartbeats 1000000 in
theorem v26 :
    after (Cert.KernelIdeal.Gen.hostOps1_3 (F := F)) W (Proc.devRef .tc Cert.KernelIdeal.main_v26)
      = after (Cert.ReferenceIdeal.Stretches.countOps (F := F)) X (Proc.devRef .tc Cert.ReferenceIdeal.main_v30) := by
  simp only [Cert.KernelIdeal.Gen.hostOps1_3, Cert.ReferenceIdeal.Stretches.countOps]
  after_results_simp
  try simp only [h_v50, h_v26, h_v33, h_v40]
  try rfl

include h_v50 h_v26 h_v33 h_v40 in
set_option maxHeartbeats 1000000 in
theorem v33 :
    after (Cert.KernelIdeal.Gen.hostOps1_3 (F := F)) W (Proc.devRef .tc Cert.KernelIdeal.main_v33)
      = after (Cert.ReferenceIdeal.Stretches.countOps (F := F)) X (Proc.devRef .tc Cert.ReferenceIdeal.main_v37) := by
  simp only [Cert.KernelIdeal.Gen.hostOps1_3, Cert.ReferenceIdeal.Stretches.countOps]
  after_results_simp
  try simp only [h_v50, h_v26, h_v33, h_v40]
  try rfl

include h_v50 h_v26 h_v33 h_v40 in
set_option maxHeartbeats 1000000 in
theorem v40 :
    after (Cert.KernelIdeal.Gen.hostOps1_3 (F := F)) W (Proc.devRef .tc Cert.KernelIdeal.main_v40)
      = after (Cert.ReferenceIdeal.Stretches.countOps (F := F)) X (Proc.devRef .tc Cert.ReferenceIdeal.main_v44) := by
  simp only [Cert.KernelIdeal.Gen.hostOps1_3, Cert.ReferenceIdeal.Stretches.countOps]
  after_results_simp
  try simp only [h_v50, h_v26, h_v33, h_v40]
  try rfl

end Cert.Agree.Count

end
-- ==== Proof.AgreeSums.lean ====
/-
  The sums and scatters by segment: the same segment numbers from the same count, the same scatter-add of the same sorted values and the same scatters of the same sorted keys.

  The kernel's program and the reference run this stretch on buffers that differ only in their numbers.  Each
  operation reads results of earlier operations of the stretch and a few buffers computed before it; if those few
  hold the same contents in the two programs, so does every buffer a later stretch reads.
-/
import proofs.«133797_j11905649344580_1_alg».proof.Proof.Gen.KernelIdeal.Launch
import proofs.«133797_j11905649344580_1_alg».proof.Proof.RefStretches
import Idealize.ShloMosaic.Lib.StableHlo.Run

set_option maxRecDepth 16384

noncomputable section

namespace Cert.Agree.Sums

open Idealize.ShloMosaic Idealize.ShloMosaic.TcCoe Idealize.ShloMosaic.StableHlo Idealize.SL.Sem

variable {F : FTy → Type} [FloatOps F]

variable (W : Valuation Cert.KernelIdeal.τ Cert.KernelIdeal.sig (Elt F)) (X : Valuation Cert.ReferenceIdeal.τ Cert.ReferenceIdeal.sig (Elt F))
  (h_v51 : W (Proc.devRef .tc Cert.KernelIdeal.main_v51) = X (Proc.devRef .tc Cert.ReferenceIdeal.main_v55))
  (h_v26 : W (Proc.devRef .tc Cert.KernelIdeal.main_v26) = X (Proc.devRef .tc Cert.ReferenceIdeal.main_v30))
  (h_v33 : W (Proc.devRef .tc Cert.KernelIdeal.main_v33) = X (Proc.devRef .tc Cert.ReferenceIdeal.main_v37))
  (h_v40 : W (Proc.devRef .tc Cert.KernelIdeal.main_v40) = X (Proc.devRef .tc Cert.ReferenceIdeal.main_v44))

include h_v51 h_v26 h_v33 h_v40 in
set_option maxHeartbeats 1000000 in
theorem v65 :
    after (Cert.KernelIdeal.Gen.hostOps1_4 (F := F)) W (Proc.devRef .tc Cert.KernelIdeal.main_v65)
      = after (Cert.ReferenceIdeal.Stretches.sumsOps (F := F)) X (Proc.devRef .tc Cert.ReferenceIdeal.main_v69) := by
  simp only [Cert.KernelIdeal.Gen.hostOps1_4, Cert.ReferenceIdeal.Stretches.sumsOps]
  after_results_simp
  try simp only [h_v51, h_v26, h_v33, h_v40]
  try rfl

include h_v51 h_v26 h_v33 h_v40 in
set_option maxHeartbeats 1000000 in
theorem v73 :
    after (Cert.KernelIdeal.Gen.hostOps1_4 (F := F)) W (Proc.devRef .tc Cert.KernelIdeal.main_v73)
      = after (Cert.ReferenceIdeal.Stretches.sumsOps (F := F)) X (Proc.devRef .tc Cert.ReferenceIdeal.main_v77) := by
  simp only [Cert.KernelIdeal.Gen.hostOps1_4, Cert.ReferenceIdeal.Stretches.sumsOps]
  after_results_simp
  try simp only [h_v51, h_v26, h_v33, h_v40]
  try rfl

include h_v51 h_v26 h_v33 h_v40 in
set_option maxHeartbeats 1000000 in
theorem v74 :
    after (Cert.KernelIdeal.Gen.hostOps1_4 (F := F)) W (Proc.devRef .tc Cert.KernelIdeal.main_v74)
      = after (Cert.ReferenceIdeal.Stretches.sumsOps (F := F)) X (Proc.devRef .tc Cert.ReferenceIdeal.main_v78) := by
  simp only [Cert.KernelIdeal.Gen.hostOps1_4, Cert.ReferenceIdeal.Stretches.sumsOps]
  after_results_simp
  try simp only [h_v51, h_v26, h_v33, h_v40]
  try rfl

end Cert.Agree.Sums

end
-- ==== Proof.Later.lean ====
/-
  The later operations of the two programs compute the same three results.

  After its pallas call the kernel's @main runs seventy-seven host operations in five stretches; after its multiply
  the reference's @main runs the same five stretches on buffers numbered four higher.  The stretches hand on few
  buffers: the reshaped products and the two index columns go into the sort; the sort order joins them for the
  gathers and the segment marks; the marks go into the running count; the count and the three sorted arrays go into
  the sums and scatters.  Agreement of those few buffers is carried from stretch to stretch, starting from the
  products and the two index columns, and ends at the three results.
-/
import proofs.«133797_j11905649344580_1_alg».proof.Proof.HostSidesI
import proofs.«133797_j11905649344580_1_alg».proof.Proof.RefStretches
import proofs.«133797_j11905649344580_1_alg».proof.Proof.AgreeReshape
import proofs.«133797_j11905649344580_1_alg».proof.Proof.AgreeSort
import proofs.«133797_j11905649344580_1_alg».proof.Proof.AgreeMarks
import proofs.«133797_j11905649344580_1_alg».proof.Proof.AgreeCount
import proofs.«133797_j11905649344580_1_alg».proof.Proof.AgreeSums
import Idealize.ShloMosaic.Lib.Pipeline.Frame

noncomputable section

namespace Cert.Later

open Idealize.ShloMosaic Idealize.ShloMosaic.TcCoe Idealize.ShloMosaic.StableHlo Idealize.SL.Sem

variable {F : FTy → Type} [FloatOps F]

/-- The kernel's later operations, folded, are its five stretches folded in turn. -/
theorem kernel_fold (W : Valuation Cert.KernelIdeal.τ Cert.KernelIdeal.sig (Elt F)) :
    after (Cert.KernelIdeal.HostSides.later (F := F)).flatten W
      = after Cert.KernelIdeal.Gen.hostOps1_4 (after Cert.KernelIdeal.Gen.hostOps1_3 (after Cert.KernelIdeal.Gen.hostOps1_2 (after Cert.KernelIdeal.Gen.hostOps1_1 (after Cert.KernelIdeal.Gen.hostOps1 W)))) := by
  simp only [Cert.KernelIdeal.HostSides.later, List.flatten_cons, List.flatten_nil, List.append_nil, StableHlo.after_append]

/-- From the same products and the same two index columns, the same coalesced rows, columns and summed values. -/
theorem agree (W : Valuation Cert.KernelIdeal.τ Cert.KernelIdeal.sig (Elt F)) (X : Valuation Cert.ReferenceIdeal.τ Cert.ReferenceIdeal.sig (Elt F))
    (h17 : W (Proc.devRef .tc Cert.KernelIdeal.main_v17) = X (Proc.devRef .tc Cert.ReferenceIdeal.main_v21))
    (h13 : W (Proc.devRef .tc Cert.KernelIdeal.main_v13) = X (Proc.devRef .tc Cert.ReferenceIdeal.main_v13))
    (h16 : W (Proc.devRef .tc Cert.KernelIdeal.main_v16) = X (Proc.devRef .tc Cert.ReferenceIdeal.main_v16)) :
    after (Cert.KernelIdeal.HostSides.later (F := F)).flatten W (Proc.devRef .tc Cert.KernelIdeal.main_v65)
        = after (Cert.ReferenceIdeal.RefRun.opsTail (F := F)) X (Proc.devRef .tc Cert.ReferenceIdeal.main_v69)
    ∧ after (Cert.KernelIdeal.HostSides.later (F := F)).flatten W (Proc.devRef .tc Cert.KernelIdeal.main_v73)
        = after (Cert.ReferenceIdeal.RefRun.opsTail (F := F)) X (Proc.devRef .tc Cert.ReferenceIdeal.main_v77)
    ∧ after (Cert.KernelIdeal.HostSides.later (F := F)).flatten W (Proc.devRef .tc Cert.KernelIdeal.main_v74)
        = after (Cert.ReferenceIdeal.RefRun.opsTail (F := F)) X (Proc.devRef .tc Cert.ReferenceIdeal.main_v78) := by
  rw [kernel_fold, Cert.ReferenceIdeal.Stretches.after_opsTail]
  -- the reshape
  have a18 := Cert.Agree.Reshape.v18 W X h17 h13 h16
  have a13 := Cert.Agree.Reshape.v13 W X h17 h13 h16
  have a16 := Cert.Agree.Reshape.v16 W X h17 h13 h16
  -- the sort
  have b19 := Cert.Agree.Sort.v19 _ _ a13 a16 a18
  have b13 := Cert.Agree.Sort.v13 _ _ a13 a16 a18
  have b16 := Cert.Agree.Sort.v16 _ _ a13 a16 a18
  have b18 := Cert.Agree.Sort.v18 _ _ a13 a16 a18
  -- the gathers and the marks
  have c26 := Cert.Agree.Marks.v26 _ _ b19 b13 b16 b18
  have c33 := Cert.Agree.Marks.v33 _ _ b19 b13 b16 b18
  have c40 := Cert.Agree.Marks.v40 _ _ b19 b13 b16 b18
  have c50 := Cert.Agree.Marks.v50 _ _ b19 b13 b16 b18
  -- the running count
  have d51 := Cert.Agree.Count.v51 _ _ c50 c26 c33 c40
  have d26 := Cert.Agree.Count.v26 _ _ c50 c26 c33 c40
  have d33 := Cert.Agree.Count.v33 _ _ c50 c26 c33 c40
  have d40 := Cert.Agree.Count.v40 _ _ c50 c26 c33 c40
  -- the sums and the scatters
  exact ⟨Cert.Agree.Sums.v65 _ _ d51 d26 d33 d40, Cert.Agree.Sums.v73 _ _ d51 d26 d33 d40, Cert.Agree.Sums.v74 _ _ d51 d26 d33 d40⟩

end Cert.Later

end
-- ==== Proof.lean ====
/-
  The certificate of `Cert.Claim`: the frames of the three programs, the (empty) idealization ledger, and the
  equality of the idealized kernel's and the idealized reference's results on the extended reals.

  The two programs are the same jnp computation — a softmax of the weights, the edge indices of all types
  concatenated, every edge value scaled by its type's softmax weight for each output channel, a lexicographic sort
  of the edges, and the sums over runs of equal (row, column) — except for how the scaled values are formed: the
  kernel forms them in a pallas call, block by block along the edge axis, the reference by broadcasting and one
  multiply.  Both are the array (o, c, e) ↦ edge_value (c, e) * filt (o, c); no law of arithmetic is needed, the
  factors are the same and in the same order, so the precondition is never opened.  Everything after that point
  is the same seventy-seven host operations in both programs, applied to the same three arrays.

  Frames: the kernel's two programs run through the launch theorem for a call followed by host operations; the
  reference is host operations only, and its run is the fold of its operation list.  No operation of any of the
  three programs writes an argument array.
-/
import proofs.«133797_j11905649344580_1_alg».proof.Defs
import proofs.«133797_j11905649344580_1_alg».proof.Proof.Gen.Kernel
import proofs.«133797_j11905649344580_1_alg».proof.Proof.Gen.KernelIdeal
import proofs.«133797_j11905649344580_1_alg».proof.Proof.Gen.ReferenceIdeal
import proofs.«133797_j11905649344580_1_alg».proof.Proof.Gen.Pre_finite_inputs
import proofs.«133797_j11905649344580_1_alg».proof.Proof.CombineRunB
import proofs.«133797_j11905649344580_1_alg».proof.Proof.KernelNamed
import proofs.«133797_j11905649344580_1_alg».proof.Proof.RefRun
import proofs.«133797_j11905649344580_1_alg».proof.Proof.Heads
import proofs.«133797_j11905649344580_1_alg».proof.Proof.Later
import Idealize.ShloMosaic.Lib.Pipeline.Frame
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs and leaves its arguments as launched. -/
theorem frame_kernel : Cert.frame_Kernel := fun m ρ _ => Cert.Kernel.CombineRun.frame m ρ

/-- So does its idealization. -/
theorem frame_kernelIdeal : Cert.frame_KernelIdeal := fun m ρ _ => Cert.KernelIdeal.CombineRun.frame m ρ

/-- The reference is host operations only: it runs to the fold of its operation list, and no operation writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _)⟩)
    (Cert.ReferenceIdeal.RefRun.run (F := Ideal) m ρ)

/-- The ideal pass rewrote nothing. -/
theorem preserves : Cert.preserves_Kernel_KernelIdeal := trivial

/-- From memories agreeing on the arguments both idealized programs run, and end with equal results: at the point where
    the kernel's call returns and the reference's multiply is done, the products and the two flattened index columns
    agree, and from there both run the same operations. -/
theorem algebraic : Cert.algebraic_KernelIdeal_ReferenceIdeal := by
  intro m ρ m' ρ' _ hagree
  refine ⟨fun c => Cert.KernelIdeal.Named.last m c Cert.KernelIdeal.main_v65,
    fun c => Cert.KernelIdeal.Named.last m c Cert.KernelIdeal.main_v73,
    fun c => Cert.KernelIdeal.Named.last m c Cert.KernelIdeal.main_v74,
    Cert.KernelIdeal.Named.run (F := Ideal) m ρ, ?_⟩
  refine (θ_run Cert.ReferenceIdeal.defs _ _).mono (fun r h c => ?_) (Cert.ReferenceIdeal.RefRun.run (F := Ideal) m' ρ')
  -- the launch memories agree on the three arguments
  have a0 : (fun b => m (c, b) : Valuation Cert.KernelIdeal.τ Cert.KernelIdeal.sig (Elt Ideal)) (Proc.devRef .tc Cert.KernelIdeal.main_arg0)
      = launchContents m' c (Proc.devRef .tc Cert.ReferenceIdeal.main_arg0) := ((hagree c).1).symm
  have a1 : (fun b => m (c, b) : Valuation Cert.KernelIdeal.τ Cert.KernelIdeal.sig (Elt Ideal)) (Proc.devRef .tc Cert.KernelIdeal.main_arg1)
      = launchContents m' c (Proc.devRef .tc Cert.ReferenceIdeal.main_arg1) := ((hagree c).2.1).symm
  have a2 : (fun b => m (c, b) : Valuation Cert.KernelIdeal.τ Cert.KernelIdeal.sig (Elt Ideal)) (Proc.devRef .tc Cert.KernelIdeal.main_arg2)
      = launchContents m' c (Proc.devRef .tc Cert.ReferenceIdeal.main_arg2) := ((hagree c).2.2).symm
  -- the reference's fold, cut after the multiply
  have hcut : ∀ b, after (Cert.ReferenceIdeal.RefRun.ops (F := Ideal)) (launchContents m' c) b
      = after Cert.ReferenceIdeal.RefRun.opsTail (after Cert.ReferenceIdeal.RefRun.opsHead (launchContents m' c)) b :=
    fun b => by rw [show (Cert.ReferenceIdeal.RefRun.ops (F := Ideal)) = Cert.ReferenceIdeal.RefRun.opsHead ++ Cert.ReferenceIdeal.RefRun.opsTail from rfl, StableHlo.after_append]
  -- the three arrays the later operations start from
  have h13 := (Cert.KernelIdeal.Named.exit_v13 m c).trans (Cert.Heads.rows (fun b => m (c, b) : Valuation Cert.KernelIdeal.τ Cert.KernelIdeal.sig (Elt Ideal)) (launchContents m' c) a0)
  have h16 := (Cert.KernelIdeal.Named.exit_v16 m c).trans (Cert.Heads.cols (fun b => m (c, b) : Valuation Cert.KernelIdeal.τ Cert.KernelIdeal.sig (Elt Ideal)) (launchContents m' c) a0)
  have h17 := ((Cert.KernelIdeal.Named.exit_v17 m c).trans
    (congrArg (fun x => Cert.KernelIdeal.Products.G x (Cert.KernelIdeal.HostSides.V m c Cert.KernelIdeal.main_v10))
      (Cert.KernelIdeal.HostSides.V_main_arg1 m c))).trans (Cert.Heads.products (fun b => m (c, b) : Valuation Cert.KernelIdeal.τ Cert.KernelIdeal.sig (Elt Ideal)) (launchContents m' c) a1 a2)
  obtain ⟨e65, e73, e74⟩ := Cert.Later.agree _ _ h17 h13 h16
  exact ⟨(h c Cert.ReferenceIdeal.main_v69).trans ((hcut _).trans e65.symm),
    (h c Cert.ReferenceIdeal.main_v77).trans ((hcut _).trans e73.symm),
    (h c Cert.ReferenceIdeal.main_v78).trans ((hcut _).trans e74.symm),
    (h c Cert.ReferenceIdeal.main_arg0).trans (Cert.ReferenceIdeal.RefRun.kept_arg0 _),
    (h c Cert.ReferenceIdeal.main_arg1).trans (Cert.ReferenceIdeal.RefRun.kept_arg1 _),
    (h c Cert.ReferenceIdeal.main_arg2).trans (Cert.ReferenceIdeal.RefRun.kept_arg2 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
